-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v385) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S1000000 : Shape := ⟨1, ![1000000]⟩
abbrev S3x2x128x128 : Shape := ⟨4, ![3, 2, 128, 128]⟩
abbrev S3x2x128 : Shape := ⟨3, ![3, 2, 128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg11 : FVec F S3x128 .f32) (main_arg12 : FVec F S3x128 .f32) (main_v33 : IVec S_ 1) : IVec S_ 1 :=
  let main_v34 : FVec F S3x128 .f32 := Host.absf main_arg11
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg12
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  main_v43

def fn_part1 {F : FTy → Type} [FloatOps F] (main_arg8 : FVec F S3x2x128 .f32) (main_arg9 : FVec F S3x128x128 .f32) (main_arg10 : FVec F S3x128 .f32) (main_arg11 : FVec F S3x128 .f32) (main_arg12 : FVec F S3x128 .f32) (main_v13 : IVec S_ 1) (main_v16 : IVec S3x2x128x128 1) : IVec S_ 1 :=
  let main_c_5 : IVec S_ 1 := constantI S_ 1 1#1
  let main_v17 : IVec S_ 1 := (fun x v => Host.reduce IntOp.andi x v reducesTo_S3x2x128x128_S_d0_1_2_3 h_S_) main_v16 main_c_5
  let main_v18 : IVec S_ 1 := andi main_v13 main_v17
  let main_v19 : FVec F S3x2x128 .f32 := Host.absf main_arg8
  let main_cst_6 : FVec F S_ .f32 := constant S_ .f32 0x7F800000#32
  let main_v20 : FVec F S3x2x128 .f32 := broadcastInDim S3x2x128 ![] bcast_S_S3x2x128 main_cst_6
  let main_v21 : IVec S3x2x128 1 := cmpf .olt main_v19 main_v20
  let main_c_7 : IVec S_ 1 := constantI S_ 1 1#1
  let main_v22 : IVec S_ 1 := (fun x v => Host.reduce IntOp.andi x v reducesTo_S3x2x128_S_d0_1_2 h_S_) main_v21 main_c_7
  let main_v23 : IVec S_ 1 := andi main_v18 main_v22
  let main_v24 : FVec F S3x128x128 .f32 := Host.absf main_arg9
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg10
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg11 main_arg12 main_v33

def fn {F : FTy → Type} [FloatOps F] (main_arg0 : FVec F S100000x128 .f32) (main_arg1 : FVec F S10000x128 .f32) (main_arg2 : IVec S1000000 32) (main_arg3 : IVec S1000000 32) (main_arg4 : IVec S1000000 32) (main_arg5 : IVec S1000000 32) (main_arg6 : FVec F S3x2x128x128 .f32) (main_arg7 : FVec F S3x2x128x128 .f32) (main_arg8 : FVec F S3x2x128 .f32) (main_arg9 : FVec F S3x128x128 .f32) (main_arg10 : FVec F S3x128 .f32) (main_arg11 : FVec F S3x128 .f32) (main_arg12 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S3x2x128x128 .f32 := Host.absf main_arg6
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128x128 .f32 := Host.absf main_arg7
  let main_cst_4 : FVec F S_ .f32 := constant S_ .f32 0x7F800000#32
  let main_v15 : FVec F S3x2x128x128 .f32 := broadcastInDim S3x2x128x128 ![] bcast_S_S3x2x128x128 main_cst_4
  let main_v16 : IVec S3x2x128x128 1 := cmpf .olt main_v14 main_v15
  fn_part1 (F := F) main_arg8 main_arg9 main_arg10 main_arg11 main_arg12 main_v13 main_v16
-- ==== Kernel.lean ====
abbrev S100000x128 : Shape := ⟨2, ![100000, 128]⟩
abbrev S10000x128 : Shape := ⟨2, ![10000, 128]⟩
abbrev S1000000 : Shape := ⟨1, ![1000000]⟩
abbrev S3x2x128x128 : Shape := ⟨4, ![3, 2, 128, 128]⟩
abbrev S3x2x128 : Shape := ⟨3, ![3, 2, 128]⟩
abbrev S3x128x128 : Shape := ⟨3, ![3, 128, 128]⟩
abbrev S3x128 : Shape := ⟨2, ![3, 128]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x128x128 : Shape := ⟨3, ![1, 128, 128]⟩
abbrev S110000x128 : Shape := ⟨2, ![110000, 128]⟩

abbrev nBuf : Space → Nat
  | .hbm => 224
  | .vmem => 66
  | .smem => 0
  | _ => 0

abbrev hbmTy0_0 (i : Nat) : BufTy := match i % 128 with
  | 0 => ⟨S100000x128, .f32⟩
  | 1 => ⟨S10000x128, .f32⟩
  | 2 => ⟨S1000000, .i32⟩
  | 3 => ⟨S1000000, .i32⟩
  | 4 => ⟨S1000000, .i32⟩
  | 5 => ⟨S1000000, .i32⟩
  | 6 => ⟨S3x2x128x128, .f32⟩
  | 7 => ⟨S3x2x128x128, .f32⟩
  | 8 => ⟨S3x2x128, .f32⟩
  | 9 => ⟨S3x128x128, .f32⟩
  | 10 => ⟨S3x128, .f32⟩
  | 11 => ⟨S3x128, .f32⟩
  | 12 => ⟨S3x128, .f32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S1000000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x128, .f32⟩
  | 40 => ⟨S_, .f32⟩
  | 41 => ⟨S100000x128, .f32⟩
  | 42 => ⟨S1000000x1, .i32⟩
  | 43 => ⟨S100000x128, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S_, .f32⟩
  | 54 => ⟨S100000x128, .f32⟩
  | 55 => ⟨S1000000x1, .i32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S1x1x128x128, .f32⟩
  | 62 => ⟨S128x128, .f32⟩
  | 63 => ⟨S1x1x128x128, .f32⟩
  | 64 => ⟨S128x128, .f32⟩
  | 65 => ⟨S128x128, .f32⟩
  | 66 => ⟨S1x1x128, .f32⟩
  | 67 => ⟨S128, .f32⟩
  | 68 => ⟨S1x1x128, .f32⟩
  | 69 => ⟨S128, .f32⟩
  | 70 => ⟨S128, .f32⟩
  | 71 => ⟨S1x1x128x128, .f32⟩
  | 72 => ⟨S128x128, .f32⟩
  | 73 => ⟨S1x1x128x128, .f32⟩
  | 74 => ⟨S128x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S10000x128, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x128, .f32⟩
  | 104 => ⟨S_, .f32⟩
  | 105 => ⟨S100000x128, .f32⟩
  | 106 => ⟨S1000000x1, .i32⟩
  | 107 => ⟨S100000x128, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x128, .f32⟩
  | 117 => ⟨S_, .f32⟩
  | 118 => ⟨S100000x128, .f32⟩
  | 119 => ⟨S1000000x1, .i32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S1x1x128x128, .f32⟩
  | 126 => ⟨S128x128, .f32⟩
  | 127 => ⟨S1x1x128x128, .f32⟩
  | _ => ⟨S100000x128, .f32⟩

abbrev hbmTy0_1 (i : Nat) : BufTy := match i % 128 with
  | 0 => ⟨S128x128, .f32⟩
  | 1 => ⟨S128x128, .f32⟩
  | 2 => ⟨S1x1x128, .f32⟩
  | 3 => ⟨S128, .f32⟩
  | 4 => ⟨S1x1x128, .f32⟩
  | 5 => ⟨S128, .f32⟩
  | 6 => ⟨S128, .f32⟩
  | 7 => ⟨S1x1x128x128, .f32⟩
  | 8 => ⟨S128x128, .f32⟩
  | 9 => ⟨S1x1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S1x128, .f32⟩
  | 17 => ⟨S1x128, .f32⟩
  | 18 => ⟨S100000x128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S1x128, .f32⟩
  | 29 => ⟨S1x128, .f32⟩
  | 30 => ⟨S10000x128, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x128, .f32⟩
  | 40 => ⟨S_, .f32⟩
  | 41 => ⟨S100000x128, .f32⟩
  | 42 => ⟨S1000000x1, .i32⟩
  | 43 => ⟨S100000x128, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S_, .f32⟩
  | 54 => ⟨S100000x128, .f32⟩
  | 55 => ⟨S1000000x1, .i32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S1x1x128x128, .f32⟩
  | 62 => ⟨S128x128, .f32⟩
  | 63 => ⟨S1x1x128x128, .f32⟩
  | 64 => ⟨S128x128, .f32⟩
  | 65 => ⟨S128x128, .f32⟩
  | 66 => ⟨S1x1x128, .f32⟩
  | 67 => ⟨S128, .f32⟩
  | 68 => ⟨S1x1x128, .f32⟩
  | 69 => ⟨S128, .f32⟩
  | 70 => ⟨S128, .f32⟩
  | 71 => ⟨S1x1x128x128, .f32⟩
  | 72 => ⟨S128x128, .f32⟩
  | 73 => ⟨S1x1x128x128, .f32⟩
  | 74 => ⟨S128x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S10000x128, .f32⟩
  | 95 => ⟨S110000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S128x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_9 : Ref sig .tc := ⟨.hbm, 95, rfl⟩
abbrev main_v71 : Ref sig .tc := ⟨.hbm, 96, rfl⟩
abbrev main_v72 : Ref sig .tc := ⟨.hbm, 97, rfl⟩
abbrev main_c_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_12 : Ref sig .tc := ⟨.hbm, 108, rfl⟩
abbrev main_v81 : Ref sig .tc := ⟨.hbm, 109, rfl⟩
abbrev main_v82 : Ref sig .tc := ⟨.hbm, 110, rfl⟩
abbrev main_c_13 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_c_15 : Ref sig .tc := ⟨.hbm, 159, rfl⟩
abbrev main_v129 : Ref sig .tc := ⟨.hbm, 160, rfl⟩
abbrev main_v130 : Ref sig .tc := ⟨.hbm, 161, rfl⟩
abbrev main_c_16 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_cst_17 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_18 : Ref sig .tc := ⟨.hbm, 172, rfl⟩
abbrev main_v139 : Ref sig .tc := ⟨.hbm, 173, rfl⟩
abbrev main_v140 : Ref sig .tc := ⟨.hbm, 174, rfl⟩
abbrev main_c_19 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_20 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg8_0 : Ref sig .tc := ⟨.vmem, 55, rfl⟩
abbrev cc4_stg9_0 : Ref sig .tc := ⟨.vmem, 56, rfl⟩
abbrev cc4_stg9_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem8_0 : DmaSem sig := 55
abbrev cc4_sem9_0 : DmaSem sig := 56
abbrev cc4_sem9_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem5_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128x128_S1x1x128x128_0_1_0_0 : S3x2x128x128.Slices ![0, 1, 0, 0] S1x1x128x128
  slices_S3x2x128_S1x1x128_0_0_0 : S3x2x128.Slices ![0, 0, 0] S1x1x128
  shapeCasts_S1x1x128_S128 : S1x1x128.ShapeCasts S128
  slices_S3x2x128_S1x1x128_0_1_0 : S3x2x128.Slices ![0, 1, 0] S1x1x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_0_0_0 : S3x128x128.Slices ![0, 0, 0] S1x128x128
  shapeCasts_S1x128x128_S128x128 : S1x128x128.ShapeCasts S128x128
  slices_S3x2x128x128_S1x1x128x128_1_0_0_0 : S3x2x128x128.Slices ![1, 0, 0, 0] S1x1x128x128
  slices_S3x2x128x128_S1x1x128x128_1_1_0_0 : S3x2x128x128.Slices ![1, 1, 0, 0] S1x1x128x128
  slices_S3x2x128_S1x1x128_1_0_0 : S3x2x128.Slices ![1, 0, 0] S1x1x128
  slices_S3x2x128_S1x1x128_1_1_0 : S3x2x128.Slices ![1, 1, 0] S1x1x128
  slices_S3x128_S1x128_1_0 : S3x128.Slices ![1, 0] S1x128
  slices_S3x128x128_S1x128x128_1_0_0 : S3x128x128.Slices ![1, 0, 0] S1x128x128
  slices_S3x2x128x128_S1x1x128x128_2_0_0_0 : S3x2x128x128.Slices ![2, 0, 0, 0] S1x1x128x128
  slices_S3x2x128x128_S1x1x128x128_2_1_0_0 : S3x2x128x128.Slices ![2, 1, 0, 0] S1x1x128x128
  slices_S3x2x128_S1x1x128_2_0_0 : S3x2x128.Slices ![2, 0, 0] S1x1x128
  slices_S3x2x128_S1x1x128_2_1_0 : S3x2x128.Slices ![2, 1, 0] S1x1x128
  slices_S3x128_S1x128_2_0 : S3x128.Slices ![2, 0] S1x128
  slices_S3x128x128_S1x128x128_2_0_0 : S3x128x128.Slices ![2, 0, 0] S1x128x128
  concatenates_S10000x128_S100000x128_S110000x128_d0 : Shape.Concatenates [S10000x128, S100000x128] S110000x128 0
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S10000x128.size a
  hwx1_0 : ∀ i : grid1.Coords, EltTy.bits .f32 = 32 ∨ (Rect.block (s := S10000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S10000x128.size a
  hwx1_5 : ∀ i : grid1.Coords, EltTy.bits .f32 = 32 ∨ (Rect.block (s := S10000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S10000x128.size a
  hwx3_0 : ∀ i : grid3.Coords, EltTy.bits .f32 = 32 ∨ (Rect.block (s := S10000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S10000x128.size a
  hwx3_5 : ∀ i : grid3.Coords, EltTy.bits .f32 = 32 ∨ (Rect.block (s := S10000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S100000x128.size a
  hwx4_9 : ∀ i : grid4.Coords, EltTy.bits .f32 = 32 ∨ (Rect.block (s := S100000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S10000x128.size a
  hwx5_0 : ∀ i : grid5.Coords, EltTy.bits .f32 = 32 ∨ (Rect.block (s := S10000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S10000x128.size a
  hwx5_5 : ∀ i : grid5.Coords, EltTy.bits .f32 = 32 ∨ (Rect.block (s := S10000x128) S5000x128.size (cc5_transform_5 i) (hinb5_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v58) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v99) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v106) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v108) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v113) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v114) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v115) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v116) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v125) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v126) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v127) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v128) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v116) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v150) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v152) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v157) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v164) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v166) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v171) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v172) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v173) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v174) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v128) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v176) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v183) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v184) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v185) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v186) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S1000000 : Shape := ⟨1, ![1000000]⟩
abbrev S3x2x128x128 : Shape := ⟨4, ![3, 2, 128, 128]⟩
abbrev S3x2x128 : Shape := ⟨3, ![3, 2, 128]⟩
abbrev S3x128x128 : Shape := ⟨3, ![3, 128, 128]⟩
abbrev S3x128 : Shape := ⟨2, ![3, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S1x128x128 : Shape := ⟨3, ![1, 128, 128]⟩
abbrev S10000 : Shape := ⟨1, ![10000]⟩
abbrev S10000x1 : Shape := ⟨2, ![10000, 1]⟩
abbrev S110000x128 : Shape := ⟨2, ![110000, 128]⟩

abbrev nBuf : Space → Nat
  | .hbm => 473
  | .vmem => 0
  | .smem => 0
  | _ => 0

abbrev hbmTy0_0 (i : Nat) : BufTy := match i % 128 with
  | 0 => ⟨S100000x128, .f32⟩
  | 1 => ⟨S10000x128, .f32⟩
  | 2 => ⟨S1000000, .i32⟩
  | 3 => ⟨S1000000, .i32⟩
  | 4 => ⟨S1000000, .i32⟩
  | 5 => ⟨S1000000, .i32⟩
  | 6 => ⟨S3x2x128x128, .f32⟩
  | 7 => ⟨S3x2x128x128, .f32⟩
  | 8 => ⟨S3x2x128, .f32⟩
  | 9 => ⟨S3x128x128, .f32⟩
  | 10 => ⟨S3x128, .f32⟩
  | 11 => ⟨S3x128, .f32⟩
  | 12 => ⟨S3x128, .f32⟩
  | 13 => ⟨S1x1x128x128, .f32⟩
  | 14 => ⟨S128x128, .f32⟩
  | 15 => ⟨S1x1x128x128, .f32⟩
  | 16 => ⟨S128x128, .f32⟩
  | 17 => ⟨S1x1x128, .f32⟩
  | 18 => ⟨S128, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S_, .f32⟩
  | 29 => ⟨S100000x128, .f32⟩
  | 30 => ⟨S1000000x1, .i32⟩
  | 31 => ⟨S100000x128, .f32⟩
  | 32 => ⟨S_, .f32⟩
  | 33 => ⟨S1000000, .f32⟩
  | 34 => ⟨S_, .f32⟩
  | 35 => ⟨S100000, .f32⟩
  | 36 => ⟨S1000000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x1x128x128, .f32⟩
  | 51 => ⟨S128x128, .f32⟩
  | 52 => ⟨S1x1x128x128, .f32⟩
  | 53 => ⟨S128x128, .f32⟩
  | 54 => ⟨S1x1x128, .f32⟩
  | 55 => ⟨S128, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x128, .f32⟩
  | 65 => ⟨S_, .f32⟩
  | 66 => ⟨S100000x128, .f32⟩
  | 67 => ⟨S1000000x1, .i32⟩
  | 68 => ⟨S100000x128, .f32⟩
  | 69 => ⟨S_, .f32⟩
  | 70 => ⟨S1000000, .f32⟩
  | 71 => ⟨S_, .f32⟩
  | 72 => ⟨S100000, .f32⟩
  | 73 => ⟨S1000000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S1x128x128, .f32⟩
  | 89 => ⟨S128x128, .f32⟩
  | 90 => ⟨S10000x128, .f32⟩
  | 91 => ⟨S1x128, .f32⟩
  | 92 => ⟨S128, .f32⟩
  | 93 => ⟨S1x128, .f32⟩
  | 94 => ⟨S10000x128, .f32⟩
  | 95 => ⟨S10000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S_, .f32⟩
  | 118 => ⟨S100000x1, .f32⟩
  | 119 => ⟨S100000x1, .f32⟩
  | 120 => ⟨S100000x1, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S128, .f32⟩
  | 5 => ⟨S_, .f32⟩
  | 6 => ⟨S10000, .f32⟩
  | 7 => ⟨S10000x1, .f32⟩
  | 8 => ⟨S_, .f32⟩
  | 9 => ⟨S10000x1, .f32⟩
  | 10 => ⟨S10000x1, .f32⟩
  | 11 => ⟨S10000x128, .f32⟩
  | 12 => ⟨S10000x128, .f32⟩
  | 13 => ⟨S10000x128, .f32⟩
  | 14 => ⟨S_, .f32⟩
  | 15 => ⟨S10000, .f32⟩
  | 16 => ⟨S10000x1, .f32⟩
  | 17 => ⟨S_, .f32⟩
  | 18 => ⟨S10000x1, .f32⟩
  | 19 => ⟨S10000x1, .f32⟩
  | 20 => ⟨S10000x128, .f32⟩
  | 21 => ⟨S10000x128, .f32⟩
  | 22 => ⟨S_, .f32⟩
  | 23 => ⟨S10000x1, .f32⟩
  | 24 => ⟨S10000x1, .f32⟩
  | 25 => ⟨S10000x1, .f32⟩
  | 26 => ⟨S10000x128, .f32⟩
  | 27 => ⟨S10000x128, .f32⟩
  | 28 => ⟨S1x128, .f32⟩
  | 29 => ⟨S10000x128, .f32⟩
  | 30 => ⟨S10000x128, .f32⟩
  | 31 => ⟨S1x128, .f32⟩
  | 32 => ⟨S10000x128, .f32⟩
  | 33 => ⟨S10000x128, .f32⟩
  | 34 => ⟨S_, .f32⟩
  | 35 => ⟨S100000x128, .f32⟩
  | 36 => ⟨S100000x128, .f32⟩
  | 37 => ⟨S_, .f32⟩
  | 38 => ⟨S10000x128, .f32⟩
  | 39 => ⟨S10000x128, .f32⟩
  | 40 => ⟨S1x1x128x128, .f32⟩
  | 41 => ⟨S128x128, .f32⟩
  | 42 => ⟨S1x1x128x128, .f32⟩
  | 43 => ⟨S128x128, .f32⟩
  | 44 => ⟨S1x1x128, .f32⟩
  | 45 => ⟨S128, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x128, .f32⟩
  | 55 => ⟨S_, .f32⟩
  | 56 => ⟨S100000x128, .f32⟩
  | 57 => ⟨S1000000x1, .i32⟩
  | 58 => ⟨S100000x128, .f32⟩
  | 59 => ⟨S_, .f32⟩
  | 60 => ⟨S1000000, .f32⟩
  | 61 => ⟨S_, .f32⟩
  | 62 => ⟨S100000, .f32⟩
  | 63 => ⟨S1000000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x1x128x128, .f32⟩
  | 78 => ⟨S128x128, .f32⟩
  | 79 => ⟨S1x1x128x128, .f32⟩
  | 80 => ⟨S128x128, .f32⟩
  | 81 => ⟨S1x1x128, .f32⟩
  | 82 => ⟨S128, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x128, .f32⟩
  | 92 => ⟨S_, .f32⟩
  | 93 => ⟨S100000x128, .f32⟩
  | 94 => ⟨S1000000x1, .i32⟩
  | 95 => ⟨S100000x128, .f32⟩
  | 96 => ⟨S_, .f32⟩
  | 97 => ⟨S1000000, .f32⟩
  | 98 => ⟨S_, .f32⟩
  | 99 => ⟨S100000, .f32⟩
  | 100 => ⟨S1000000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S100000x128, .f32⟩
  | 115 => ⟨S1x128x128, .f32⟩
  | 116 => ⟨S128x128, .f32⟩
  | 117 => ⟨S10000x128, .f32⟩
  | 118 => ⟨S1x128, .f32⟩
  | 119 => ⟨S128, .f32⟩
  | 120 => ⟨S1x128, .f32⟩
  | 121 => ⟨S10000x128, .f32⟩
  | 122 => ⟨S10000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S100000x128, .f32⟩

abbrev hbmTy0_2 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S_, .f32⟩
  | 17 => ⟨S100000x1, .f32⟩
  | 18 => ⟨S100000x1, .f32⟩
  | 19 => ⟨S100000x1, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S10000, .f32⟩
  | 34 => ⟨S10000x1, .f32⟩
  | 35 => ⟨S_, .f32⟩
  | 36 => ⟨S10000x1, .f32⟩
  | 37 => ⟨S10000x1, .f32⟩
  | 38 => ⟨S10000x128, .f32⟩
  | 39 => ⟨S10000x128, .f32⟩
  | 40 => ⟨S10000x128, .f32⟩
  | 41 => ⟨S_, .f32⟩
  | 42 => ⟨S10000, .f32⟩
  | 43 => ⟨S10000x1, .f32⟩
  | 44 => ⟨S_, .f32⟩
  | 45 => ⟨S10000x1, .f32⟩
  | 46 => ⟨S10000x1, .f32⟩
  | 47 => ⟨S10000x128, .f32⟩
  | 48 => ⟨S10000x128, .f32⟩
  | 49 => ⟨S_, .f32⟩
  | 50 => ⟨S10000x1, .f32⟩
  | 51 => ⟨S10000x1, .f32⟩
  | 52 => ⟨S10000x1, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S_, .f32⟩
  | 62 => ⟨S100000x128, .f32⟩
  | 63 => ⟨S100000x128, .f32⟩
  | 64 => ⟨S_, .f32⟩
  | 65 => ⟨S10000x128, .f32⟩
  | 66 => ⟨S10000x128, .f32⟩
  | 67 => ⟨S1x1x128x128, .f32⟩
  | 68 => ⟨S128x128, .f32⟩
  | 69 => ⟨S1x1x128x128, .f32⟩
  | 70 => ⟨S128x128, .f32⟩
  | 71 => ⟨S1x1x128, .f32⟩
  | 72 => ⟨S128, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x128, .f32⟩
  | 82 => ⟨S_, .f32⟩
  | 83 => ⟨S100000x128, .f32⟩
  | 84 => ⟨S1000000x1, .i32⟩
  | 85 => ⟨S100000x128, .f32⟩
  | 86 => ⟨S_, .f32⟩
  | 87 => ⟨S1000000, .f32⟩
  | 88 => ⟨S_, .f32⟩
  | 89 => ⟨S100000, .f32⟩
  | 90 => ⟨S1000000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x1x128x128, .f32⟩
  | 105 => ⟨S128x128, .f32⟩
  | 106 => ⟨S1x1x128x128, .f32⟩
  | 107 => ⟨S128x128, .f32⟩
  | 108 => ⟨S1x1x128, .f32⟩
  | 109 => ⟨S128, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x128, .f32⟩
  | 119 => ⟨S_, .f32⟩
  | 120 => ⟨S100000x128, .f32⟩
  | 121 => ⟨S1000000x1, .i32⟩
  | 122 => ⟨S100000x128, .f32⟩
  | 123 => ⟨S_, .f32⟩
  | 124 => ⟨S1000000, .f32⟩
  | 125 => ⟨S_, .f32⟩
  | 126 => ⟨S100000, .f32⟩
  | 127 => ⟨S1000000x1, .i32⟩
  | _ => ⟨S100000x128, .f32⟩

abbrev hbmTy0_3 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S100000x128, .f32⟩
  | 14 => ⟨S1x128x128, .f32⟩
  | 15 => ⟨S128x128, .f32⟩
  | 16 => ⟨S10000x128, .f32⟩
  | 17 => ⟨S1x128, .f32⟩
  | 18 => ⟨S128, .f32⟩
  | 19 => ⟨S1x128, .f32⟩
  | 20 => ⟨S10000x128, .f32⟩
  | 21 => ⟨S10000x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x128, .f32⟩
  | 33 => ⟨S100000x128, .f32⟩
  | 34 => ⟨S100000x128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S_, .f32⟩
  | 44 => ⟨S100000x1, .f32⟩
  | 45 => ⟨S100000x1, .f32⟩
  | 46 => ⟨S100000x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S10000, .f32⟩
  | 61 => ⟨S10000x1, .f32⟩
  | 62 => ⟨S_, .f32⟩
  | 63 => ⟨S10000x1, .f32⟩
  | 64 => ⟨S10000x1, .f32⟩
  | 65 => ⟨S10000x128, .f32⟩
  | 66 => ⟨S10000x128, .f32⟩
  | 67 => ⟨S10000x128, .f32⟩
  | 68 => ⟨S_, .f32⟩
  | 69 => ⟨S10000, .f32⟩
  | 70 => ⟨S10000x1, .f32⟩
  | 71 => ⟨S_, .f32⟩
  | 72 => ⟨S10000x1, .f32⟩
  | 73 => ⟨S10000x1, .f32⟩
  | 74 => ⟨S10000x128, .f32⟩
  | 75 => ⟨S10000x128, .f32⟩
  | 76 => ⟨S_, .f32⟩
  | 77 => ⟨S10000x1, .f32⟩
  | 78 => ⟨S10000x1, .f32⟩
  | 79 => ⟨S10000x1, .f32⟩
  | 80 => ⟨S10000x128, .f32⟩
  | 81 => ⟨S10000x128, .f32⟩
  | 82 => ⟨S1x128, .f32⟩
  | 83 => ⟨S10000x128, .f32⟩
  | 84 => ⟨S10000x128, .f32⟩
  | 85 => ⟨S1x128, .f32⟩
  | 86 => ⟨S10000x128, .f32⟩
  | 87 => ⟨S10000x128, .f32⟩
  | 88 => ⟨S110000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_12 : Ref sig .tc := ⟨.hbm, 109, rfl⟩
abbrev main_v82 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_17 : Ref sig .tc := ⟨.hbm, 142, rfl⟩
abbrev main_v110 : Ref sig .tc := ⟨.hbm, 143, rfl⟩
abbrev main_v111 : Ref sig .tc := ⟨.hbm, 144, rfl⟩
abbrev main_cst_18 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_19 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_call0_cst : Ref sig .tc := ⟨.hbm, 162, rfl⟩
abbrev main_call0_v0 : Ref sig .tc := ⟨.hbm, 163, rfl⟩
abbrev main_v127 : Ref sig .tc := ⟨.hbm, 164, rfl⟩
abbrev main_call1_cst : Ref sig .tc := ⟨.hbm, 165, rfl⟩
abbrev main_call1_v0 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_20 : Ref sig .tc := ⟨.hbm, 174, rfl⟩
abbrev main_v135 : Ref sig .tc := ⟨.hbm, 175, rfl⟩
abbrev main_v136 : Ref sig .tc := ⟨.hbm, 176, rfl⟩
abbrev main_c_21 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_22 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_23 : Ref sig .tc := ⟨.hbm, 187, rfl⟩
abbrev main_v145 : Ref sig .tc := ⟨.hbm, 188, rfl⟩
abbrev main_cst_24 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_25 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_c_26 : Ref sig .tc := ⟨.hbm, 211, rfl⟩
abbrev main_v166 : Ref sig .tc := ⟨.hbm, 212, rfl⟩
abbrev main_v167 : Ref sig .tc := ⟨.hbm, 213, rfl⟩
abbrev main_c_27 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_28 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_29 : Ref sig .tc := ⟨.hbm, 224, rfl⟩
abbrev main_v176 : Ref sig .tc := ⟨.hbm, 225, rfl⟩
abbrev main_cst_30 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_31 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_32 : Ref sig .tc := ⟨.hbm, 255, rfl⟩
abbrev main_v204 : Ref sig .tc := ⟨.hbm, 256, rfl⟩
abbrev main_v205 : Ref sig .tc := ⟨.hbm, 257, rfl⟩
abbrev main_cst_33 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_cst_34 : Ref sig .tc := ⟨.hbm, 264, rfl⟩
abbrev main_v211 : Ref sig .tc := ⟨.hbm, 265, rfl⟩
abbrev main_v212 : Ref sig .tc := ⟨.hbm, 266, rfl⟩
abbrev main_cst_35 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_36 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_cst_37 : Ref sig .tc := ⟨.hbm, 288, rfl⟩
abbrev main_v232 : Ref sig .tc := ⟨.hbm, 289, rfl⟩
abbrev main_v233 : Ref sig .tc := ⟨.hbm, 290, rfl⟩
abbrev main_cst_38 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_cst_39 : Ref sig .tc := ⟨.hbm, 297, rfl⟩
abbrev main_v239 : Ref sig .tc := ⟨.hbm, 298, rfl⟩
abbrev main_v240 : Ref sig .tc := ⟨.hbm, 299, rfl⟩
abbrev main_cst_40 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_cst_41 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_call2_cst : Ref sig .tc := ⟨.hbm, 317, rfl⟩
abbrev main_call2_v0 : Ref sig .tc := ⟨.hbm, 318, rfl⟩
abbrev main_v256 : Ref sig .tc := ⟨.hbm, 319, rfl⟩
abbrev main_call3_cst : Ref sig .tc := ⟨.hbm, 320, rfl⟩
abbrev main_call3_v0 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_c_42 : Ref sig .tc := ⟨.hbm, 329, rfl⟩
abbrev main_v264 : Ref sig .tc := ⟨.hbm, 330, rfl⟩
abbrev main_v265 : Ref sig .tc := ⟨.hbm, 331, rfl⟩
abbrev main_c_43 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_cst_44 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_cst_45 : Ref sig .tc := ⟨.hbm, 342, rfl⟩
abbrev main_v274 : Ref sig .tc := ⟨.hbm, 343, rfl⟩
abbrev main_cst_46 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_cst_47 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_c_48 : Ref sig .tc := ⟨.hbm, 366, rfl⟩
abbrev main_v295 : Ref sig .tc := ⟨.hbm, 367, rfl⟩
abbrev main_v296 : Ref sig .tc := ⟨.hbm, 368, rfl⟩
abbrev main_c_49 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_cst_50 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_cst_51 : Ref sig .tc := ⟨.hbm, 379, rfl⟩
abbrev main_v305 : Ref sig .tc := ⟨.hbm, 380, rfl⟩
abbrev main_cst_52 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_cst_53 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_cst_54 : Ref sig .tc := ⟨.hbm, 410, rfl⟩
abbrev main_v333 : Ref sig .tc := ⟨.hbm, 411, rfl⟩
abbrev main_v334 : Ref sig .tc := ⟨.hbm, 412, rfl⟩
abbrev main_cst_55 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_cst_56 : Ref sig .tc := ⟨.hbm, 419, rfl⟩
abbrev main_v340 : Ref sig .tc := ⟨.hbm, 420, rfl⟩
abbrev main_v341 : Ref sig .tc := ⟨.hbm, 421, rfl⟩
abbrev main_cst_57 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_cst_58 : Ref sig .tc := ⟨.hbm, 427, rfl⟩
abbrev main_v346 : Ref sig .tc := ⟨.hbm, 428, rfl⟩
abbrev main_v347 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_v353 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_cst_59 : Ref sig .tc := ⟨.hbm, 443, rfl⟩
abbrev main_v361 : Ref sig .tc := ⟨.hbm, 444, rfl⟩
abbrev main_v362 : Ref sig .tc := ⟨.hbm, 445, rfl⟩
abbrev main_cst_60 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_cst_61 : Ref sig .tc := ⟨.hbm, 452, rfl⟩
abbrev main_v368 : Ref sig .tc := ⟨.hbm, 453, rfl⟩
abbrev main_v369 : Ref sig .tc := ⟨.hbm, 454, rfl⟩
abbrev main_cst_62 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_cst_63 : Ref sig .tc := ⟨.hbm, 460, rfl⟩
abbrev main_v374 : Ref sig .tc := ⟨.hbm, 461, rfl⟩
abbrev main_v375 : Ref sig .tc := ⟨.hbm, 462, rfl⟩
abbrev main_v376 : Ref sig .tc := ⟨.hbm, 463, rfl⟩
abbrev main_v377 : Ref sig .tc := ⟨.hbm, 464, rfl⟩
abbrev main_v378 : Ref sig .tc := ⟨.hbm, 465, rfl⟩
abbrev main_v379 : Ref sig .tc := ⟨.hbm, 466, rfl⟩
abbrev main_v380 : Ref sig .tc := ⟨.hbm, 467, rfl⟩
abbrev main_v381 : Ref sig .tc := ⟨.hbm, 468, rfl⟩
abbrev main_v382 : Ref sig .tc := ⟨.hbm, 469, rfl⟩
abbrev main_v383 : Ref sig .tc := ⟨.hbm, 470, rfl⟩
abbrev main_v384 : Ref sig .tc := ⟨.hbm, 471, rfl⟩
abbrev main_v385 : Ref sig .tc := ⟨.hbm, 472, rfl⟩

abbrev nD : Nat := 1
abbrev τ : Topo := Topo.v7x

variable {F : FTy → Type} [FloatOps F]

class Facts₀ : Prop where
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1x128_S10000x128_0_1 : S1x128.BroadcastsInDim S10000x128 (![0, 1] : Fin 2 → Fin S10000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S10000x128_S10000_d1 : S10000x128.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x128x128_S1x128x128_1_0_0 : S3x128x128.Slices ![1, 0, 0] S1x128x128
  slices_S3x128_S1x128_1_0 : S3x128.Slices ![1, 0] S1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  slices_S3x128x128_S1x128x128_2_0_0 : S3x128x128.Slices ![2, 0, 0] S1x128x128
  slices_S3x128_S1x128_2_0 : S3x128.Slices ![2, 0] S1x128
  concatenates_S10000x128_S100000x128_S110000x128_d0 : Shape.Concatenates [S10000x128, S100000x128] S110000x128 0
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S10000x128_S128x128_S10000x128_1_0_0_1_n_n_wf : DotDims.WF S10000x128 S128x128 S10000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KRun.lean ====
/-
  The kernel program's run with its result named: every weakly fair execution terminates without a fault, the
  result buffer ends at the last boundary's contents (the fold of the host stretches and the six regions' write-backs
  from the launch memory) and the thirteen argument arrays end as launched.
-/
import proofs.«178392_j50105088475140_1_alg».proof.Proof.Gen.KernelIdeal.Frame
import Idealize.ShloMosaic.PureOps.Ideal

set_option maxRecDepth 16384

noncomputable section

namespace Cert.KernelIdeal.HG

open Idealize.ShloMosaic Idealize.ShloMosaic.TcCoe Idealize.SL.Sem Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- The frame theorem of the generated module, with one more fact read off the final thread state: the result
    buffer holds the last boundary's contents. The final state agrees with the last boundary at every unscoped
    buffer; the result buffer is one of them, and so is each argument array, whose contents at the last boundary
    are the launch contents. -/
theorem run_main (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v187) = Gen.W13 (F := Ideal) m ρ c (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v187 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.HG

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMlp.lean ====
/-
  A perceptron layer applied to every row of a matrix, at the ideal values.  `lin z W b` is the affine map
  row ↦ row · W + b applied to each row of `z`; `relu y` is the entrywise maximum with zero.  A kernel that multiplies
  a block of rows on the matrix unit (operands narrowed to bf16 on the way in — the identity on extended reals — and
  accumulated into zero), adds a one-row bias repeated down the rows and takes the maximum with a splat of zero, and a
  host program that writes `dot_general`, broadcasts the bias vector along axis 1 and then down the rows and takes
  the maximum with a broadcast scalar zero, both compute these functions.  Entry (r, q) of `lin z W b` depends on
  row r of `z` only, which is what lets a tiling by blocks of rows be read block by block.
-/
import Idealize.ShloMosaic.PureOps.Ideal.Laws
import Idealize.ShloMosaic.Lib.ValueIdx
import Idealize.ShloMosaic.Lib.Pipeline.Value
import Idealize.ShloMosaic.Lib.ValueLayout
import proofs.«178392_j50105088475140_1_alg».proof.Proof.LibMatmul

noncomputable section

open scoped BigOperators

namespace Cert.LibMlp

open Idealize.ShloMosaic Idealize.ShloMosaic.ValueIdx Cert.LibMatmul

/-- The value of the f32 zero word. -/
abbrev Z : EReal := Ideal.ofBits .f32 0x00000000#32

/-- The affine map row ↦ row · W + b on every row of `z`. -/
def lin {R K H : Nat} (z : (⟨2, ![R, K]⟩ : Shape).Idx → EReal) (w : (⟨2, ![K, H]⟩ : Shape).Idx → EReal)
    (b : (⟨1, ![H]⟩ : Shape).Idx → EReal) : (⟨2, ![R, H]⟩ : Shape).Idx → EReal :=
  fun i => MM z w i + b (ix1 (i 1))

/-- The entrywise maximum with zero. -/
def relu {s : Shape} (y : s.Idx → EReal) : s.Idx → EReal := fun i => max (y i) Z

/-- The one row of a one-row matrix, as a vector. -/
def rowOf {H : Nat} (br : (⟨2, ![1, H]⟩ : Shape).Idx → EReal) : (⟨1, ![H]⟩ : Shape).Idx → EReal :=
  fun k => br (ix2 (0 : Fin 1) (k 0))

theorem lin_apply {R K H : Nat} (z : (⟨2, ![R, K]⟩ : Shape).Idx → EReal) (w : (⟨2, ![K, H]⟩ : Shape).Idx → EReal)
    (b : (⟨1, ![H]⟩ : Shape).Idx → EReal) (p : Fin R) (q : Fin H) :
    lin z w b (ix2 p q) = (∑ k : Fin K, z (ix2 p k) * w (ix2 k q)) + b (ix1 q) := rfl

/-- Entry (r, q) of `lin z W b` reads row r of `z` only: two matrices that agree on a row, whatever their numbers
    of rows, give the same entry there. -/
theorem lin_row {R R' K H : Nat} (z : (⟨2, ![R, K]⟩ : Shape).Idx → EReal) (z' : (⟨2, ![R', K]⟩ : Shape).Idx → EReal)
    (w : (⟨2, ![K, H]⟩ : Shape).Idx → EReal) (b : (⟨1, ![H]⟩ : Shape).Idx → EReal) (r : Fin R) (p : Fin R') (q : Fin H)
    (h : ∀ k : Fin K, z (ix2 r k) = z' (ix2 p k)) : lin z w b (ix2 r q) = lin z' w b (ix2 p q) := by
  rw [lin_apply, lin_apply]
  exact congrArg (· + b (ix1 q)) (Finset.sum_congr rfl fun k _ => by rw [h k])

theorem relu_apply {s : Shape} (y : s.Idx → EReal) (i : s.Idx) : relu y i = max (y i) Z := rfl

theorem rowOf_shapeCast {H : Nat} (b : (⟨1, ![H]⟩ : Shape).Idx → EReal) (h : (⟨1, ![H]⟩ : Shape).ShapeCasts ⟨2, ![1, H]⟩) :
    rowOf (shapeCast ⟨2, ![1, H]⟩ b h) = b := by
  funext k
  show shapeCast ⟨2, ![1, H]⟩ b h (ix2 (0 : Fin 1) (k 0)) = b k
  rw [shapeCast_a_1a_apply b h 0 (k 0)]
  exact congrArg b (eq_ix1 k).symm

section Kernel
variable {R K H : Nat} (d : DotDims ⟨2, ![R, K]⟩ ⟨2, ![K, H]⟩ ⟨2, ![R, H]⟩)
  (hlb : d.lhsBatch = []) (hln : d.lhsNonContracting = [0]) (hlc : d.lhsContracting = [1])
  (hrb : d.rhsBatch = []) (hrn : d.rhsNonContracting = [1]) (hrc : d.rhsContracting = [0])

include hlb hln hlc hrb hrn hrc in
/-- The kernel's layer on a block of rows: operands narrowed to bf16, product accumulated into zero, plus a one-row
    bias repeated down the rows. -/
theorem kernel_lin (z : FVec Ideal ⟨2, ![R, K]⟩ .f32) (w : FVec Ideal ⟨2, ![K, H]⟩ .f32) (br : FVec Ideal ⟨2, ![1, H]⟩ .f32)
    (hz : FTy.bf16.bits < FTy.f32.bits) (hw : FTy.bf16.bits < FTy.f32.bits)
    (hb : (⟨2, ![1, H]⟩ : Shape).Broadcasts ⟨2, ![R, H]⟩) :
    addf (matmul d none (truncf .bf16 z hz) (truncf .bf16 w hw) (constant ⟨2, ![R, H]⟩ .f32 0x00000000#32))
      (broadcastTo ⟨2, ![R, H]⟩ br hb) = lin z w (rowOf br) := by
  funext i
  obtain ⟨p, q, rfl⟩ : ∃ (p : Fin R) (q : Fin H), i = ix2 p q := ⟨i 0, i 1, eq_ix2 i⟩
  show FloatOps.matmul d none (truncf .bf16 z hz) (truncf .bf16 w hw) (constant ⟨2, ![R, H]⟩ .f32 0x00000000#32) (ix2 p q)
      + broadcastTo ⟨2, ![R, H]⟩ br hb (ix2 p q) = MM z w (ix2 p q) + br (ix2 (0 : Fin 1) q)
  rw [matmul_zero_eq d hlb hln hlc hrb hrn hrc none (truncf .bf16 z hz) (truncf .bf16 w hw), broadcastTo_1b_ab_apply br hb p q]
  rfl

include hlb hln hlc hrb hrn hrc in
/-- The host's layer: `dot_general`, plus the bias vector broadcast along axis 1 and then down the rows. -/
theorem host_lin (z : FVec Ideal ⟨2, ![R, K]⟩ .f32) (w : FVec Ideal ⟨2, ![K, H]⟩ .f32) (b : FVec Ideal ⟨1, ![H]⟩ .f32)
    (h1 : (⟨1, ![H]⟩ : Shape).BroadcastsInDim ⟨2, ![1, H]⟩ (![1] : Fin 1 → Fin 2))
    (h2 : (⟨2, ![1, H]⟩ : Shape).BroadcastsInDim ⟨2, ![R, H]⟩ (![0, 1] : Fin 2 → Fin 2)) :
    addf (Host.dotGeneral d none z w)
      (broadcastInDim ⟨2, ![R, H]⟩ (![0, 1] : Fin 2 → Fin 2) h2 (broadcastInDim ⟨2, ![1, H]⟩ (![1] : Fin 1 → Fin 2) h1 b)) = lin z w b := by
  funext i
  obtain ⟨p, q, rfl⟩ : ∃ (p : Fin R) (q : Fin H), i = ix2 p q := ⟨i 0, i 1, eq_ix2 i⟩
  show FloatOps.dotGeneral d none _ z w (ix2 p q)
      + broadcastInDim ⟨2, ![R, H]⟩ (![0, 1] : Fin 2 → Fin 2) h2 (broadcastInDim ⟨2, ![1, H]⟩ (![1] : Fin 1 → Fin 2) h1 b) (ix2 p q)
      = MM z w (ix2 p q) + b (ix1 q)
  rw [dotGeneral_eq d hlb hln hlc hrb hrn hrc none _ z w]
  refine congrArg (MM z w (ix2 p q) + ·) ?_
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => show (0 : Nat) = if (1 : Nat) = 1 then 0 else p.val; rfl
    | ⟨1, _⟩ =>
      show q.val = if H = 1 then 0 else q.val
      split
      · have := q.isLt; omega
      · rfl
  · match a with
    | ⟨0, _⟩ =>
      show q.val = if H = 1 then 0 else q.val
      split
      · have := q.isLt; omega
      · rfl

end Kernel

/-- The kernel's maximum with a splat of the zero word. -/
theorem kernel_relu {s : Shape} (y : FVec Ideal s .f32) :
    maximumf y (broadcast s (Scalar.ofBits (F := Ideal) .f32 0x00000000#32)) = relu y := rfl

/-- The host's maximum with the scalar zero broadcast to the shape. -/
theorem host_relu {s : Shape} (y : FVec Ideal s .f32)
    (h : (⟨0, ![]⟩ : Shape).BroadcastsInDim s (![] : Fin 0 → Fin s.rank)) :
    maximumf y (broadcastInDim s (![] : Fin 0 → Fin s.rank) h (constant (F := Ideal) ⟨0, ![]⟩ .f32 0x00000000#32)) = relu y := by
  funext i
  show max (y i) (broadcastInDim s (![] : Fin 0 → Fin s.rank) h (constant (F := Ideal) ⟨0, ![]⟩ .f32 0x00000000#32) i) = max (y i) Z
  rw [broadcastInDim_apply _ h _ i ix0 fun a => a.elim0]
  rfl

end Cert.LibMlp

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.Spec.lean ====
/-
  The mathematics of one layer of the network, on extended reals, for any number of rows.

  A row of pre-activations `v` (128 entries) is normalised as
      ln v g β q = (v q - mean v) * rsqrt (var v + ε) * g q + β q,
  with `mean v` the sum of the row divided by 128 and `var v` the sum of the squared deviations divided by 128.
  The graph branch forms its pre-activations from the node features `h` and the two neighbourhood means `m0`, `m1`
  either as  h·(Ws0 + Ws1) + m0·Wn0 + m1·Wn1 + (b0 + b1)   (`hcK`, weights and biases summed first)
  or as      (h·Ws0 + m0·Wn0 + b0) + (h·Ws1 + m1·Wn1 + b1)  (`hcR`, one relation after the other).
  On real data the two agree: the product distributes over the sum of the two self weights (`hc_law`); this is
  where finiteness is used, since on the extended reals x·(a + b) = x·a + x·b can fail at infinities.
  Every entry of a row's output depends on that row alone (`ln_row`, `hcK_row`), so a computation tiled by blocks of
  rows is, block by block, the same function of the whole array.  All the functions keep real arrays real
  (the variance is nonnegative and ε is positive, so the inverse square root is taken of a positive real).
-/
import Idealize.ShloMosaic.PureOps.Ideal.Laws
import Idealize.ShloMosaic.Lib.ValueIdx
import proofs.«178392_j50105088475140_1_alg».proof.Proof.LibMatmul
import proofs.«178392_j50105088475140_1_alg».proof.Proof.LibMlp
import proofs.«178392_j50105088475140_1_alg».proof.Proof.LibReal

noncomputable section

open scoped BigOperators

namespace Cert.HG

open Idealize.ShloMosaic Idealize.ShloMosaic.ValueIdx Cert.LibMatmul Cert.LibMlp Cert.LibReal

/-- A matrix / a vector of extended reals. -/
abbrev Mat (a b : Nat) := (⟨2, ![a, b]⟩ : Shape).Idx → EReal
abbrev Vc (b : Nat) := (⟨1, ![b]⟩ : Shape).Idx → EReal

/-- The value of the word of 128.0 and of the word of the normalisation's ε. -/
abbrev C128 : EReal := Ideal.ofBits .f32 0x43000000#32
abbrev EPS : EReal := Ideal.ofBits .f32 0x3727C5AC#32

/-- The mean of row `p`. -/
def rowMean {R : Nat} (v : Mat R 128) (p : Fin R) : EReal := Ideal.div (∑ k : Fin 128, v (ix2 p k)) C128

/-- Every entry minus its row's mean. -/
def centred {R : Nat} (v : Mat R 128) : Mat R 128 := fun i => v i - rowMean v (i 0)

/-- The (biased) variance of row `p`. -/
def rowVar {R : Nat} (v : Mat R 128) (p : Fin R) : EReal :=
  Ideal.div (∑ k : Fin 128, centred v (ix2 p k) * centred v (ix2 p k)) C128

/-- Layer normalisation of every row, with scale `g` and shift `β`. -/
def ln {R : Nat} (v : Mat R 128) (g β : Vc 128) : Mat R 128 := fun i =>
  (centred v i * Ideal.rsqrt (rowVar v (i 0) + EPS)) * g (ix1 (i 1)) + β (ix1 (i 1))

/-- Entrywise sum. -/
def vadd {s : Shape} (x y : s.Idx → EReal) : s.Idx → EReal := fun i => x i + y i

/-- Pre-activations with the self weights and the biases summed first. -/
def hcK {R : Nat} (h m0 m1 : Mat R 128) (ws wn0 wn1 : Mat 128 128) (b : Vc 128) : Mat R 128 :=
  fun i => ((MM h ws i + MM m0 wn0 i) + MM m1 wn1 i) + b (ix1 (i 1))

/-- Pre-activations one relation after the other. -/
def hcR {R : Nat} (h m0 m1 : Mat R 128) (ws0 ws1 wn0 wn1 : Mat 128 128) (b0 b1 : Vc 128) : Mat R 128 :=
  fun i => ((MM h ws0 i + MM m0 wn0 i) + b0 (ix1 (i 1))) + ((MM h ws1 i + MM m1 wn1 i) + b1 (ix1 (i 1)))

end Cert.HG

end
-- ==== Proof.HostDefs.lean ====
/-
  The two programs' host-side arithmetic as named whole-array functions of their operands: the slices of the stacked
  parameters, the mean aggregation of neighbour features (gather the source rows, add them up per target node, divide
  by the target's in-degree clipped below at one), and the reference's per-layer operations as the host evaluates
  them (matrix products, the row broadcast of a bias, layer normalisation by row sums, the maximum with zero).
  `refOut` is the reference's result and `kerOut` the kernel program's result, each as a function of the thirteen
  arguments; `kerOut` is written over the row-wise functions of the specification, evaluated on whole arrays.
-/
import proofs.«178392_j50105088475140_1_alg».proof.ReferenceIdeal
import proofs.«178392_j50105088475140_1_alg».proof.Proof.Gen.ReferenceIdeal
import proofs.«178392_j50105088475140_1_alg».proof.Proof.Spec

noncomputable section

namespace Cert.HG

open Idealize.ShloMosaic Idealize.ShloMosaic.ValueIdx Cert.LibMatmul Cert.LibMlp
open Cert.ReferenceIdeal Cert.ReferenceIdeal.Facts₀ Cert.ReferenceIdeal.Facts

/-- The arrays' types: node features, class features, edge endpoints, the stacked parameters, one layer's slices. -/
abbrev AH := FVec Ideal S100000x128 .f32
abbrev APC := FVec Ideal S10000x128 .f32
abbrev AI := IVec S1000000 32
abbrev AW4 := FVec Ideal S3x2x128x128 .f32
abbrev AB3 := FVec Ideal S3x2x128 .f32
abbrev AL3 := FVec Ideal S3x128x128 .f32
abbrev AV2 := FVec Ideal S3x128 .f32
abbrev AM := FVec Ideal S128x128 .f32
abbrev AV := FVec Ideal S128 .f32
abbrev AOut := FVec Ideal S110000x128 .f32

/-! ## One layer's slice of a stacked parameter -/
/-- Layer 0, relation 0 of a stack of 3 x 2 square matrices. -/
def sl4_00 (W : AW4) : AM :=
  shapeCast _ (extractStridedSlice S1x1x128x128 ![0, 0, 0, 0] W slices_S3x2x128x128_S1x1x128x128_0_0_0_0) shapeCasts_S1x1x128x128_S128x128
/-- Layer 0, relation 0 of a stack of 3 x 2 vectors. -/
def sl3_00 (B : AB3) : AV :=
  shapeCast _ (extractStridedSlice S1x1x128 ![0, 0, 0] B slices_S3x2x128_S1x1x128_0_0_0) shapeCasts_S1x1x128_S128
/-- Layer 0, relation 1 of a stack of 3 x 2 square matrices. -/
def sl4_01 (W : AW4) : AM :=
  shapeCast _ (extractStridedSlice S1x1x128x128 ![0, 1, 0, 0] W slices_S3x2x128x128_S1x1x128x128_0_1_0_0) shapeCasts_S1x1x128x128_S128x128
/-- Layer 0, relation 1 of a stack of 3 x 2 vectors. -/
def sl3_01 (B : AB3) : AV :=
  shapeCast _ (extractStridedSlice S1x1x128 ![0, 1, 0] B slices_S3x2x128_S1x1x128_0_1_0) shapeCasts_S1x1x128_S128
/-- Layer 1, relation 0 of a stack of 3 x 2 square matrices. -/
def sl4_10 (W : AW4) : AM :=
  shapeCast _ (extractStridedSlice S1x1x128x128 ![1, 0, 0, 0] W slices_S3x2x128x128_S1x1x128x128_1_0_0_0) shapeCasts_S1x1x128x128_S128x128
/-- Layer 1, relation 0 of a stack of 3 x 2 vectors. -/
def sl3_10 (B : AB3) : AV :=
  shapeCast _ (extractStridedSlice S1x1x128 ![1, 0, 0] B slices_S3x2x128_S1x1x128_1_0_0) shapeCasts_S1x1x128_S128
/-- Layer 1, relation 1 of a stack of 3 x 2 square matrices. -/
def sl4_11 (W : AW4) : AM :=
  shapeCast _ (extractStridedSlice S1x1x128x128 ![1, 1, 0, 0] W slices_S3x2x128x128_S1x1x128x128_1_1_0_0) shapeCasts_S1x1x128x128_S128x128
/-- Layer 1, relation 1 of a stack of 3 x 2 vectors. -/
def sl3_11 (B : AB3) : AV :=
  shapeCast _ (extractStridedSlice S1x1x128 ![1, 1, 0] B slices_S3x2x128_S1x1x128_1_1_0) shapeCasts_S1x1x128_S128
/-- Layer 2, relation 0 of a stack of 3 x 2 square matrices. -/
def sl4_20 (W : AW4) : AM :=
  shapeCast _ (extractStridedSlice S1x1x128x128 ![2, 0, 0, 0] W slices_S3x2x128x128_S1x1x128x128_2_0_0_0) shapeCasts_S1x1x128x128_S128x128
/-- Layer 2, relation 0 of a stack of 3 x 2 vectors. -/
def sl3_20 (B : AB3) : AV :=
  shapeCast _ (extractStridedSlice S1x1x128 ![2, 0, 0] B slices_S3x2x128_S1x1x128_2_0_0) shapeCasts_S1x1x128_S128
/-- Layer 2, relation 1 of a stack of 3 x 2 square matrices. -/
def sl4_21 (W : AW4) : AM :=
  shapeCast _ (extractStridedSlice S1x1x128x128 ![2, 1, 0, 0] W slices_S3x2x128x128_S1x1x128x128_2_1_0_0) shapeCasts_S1x1x128x128_S128x128
/-- Layer 2, relation 1 of a stack of 3 x 2 vectors. -/
def sl3_21 (B : AB3) : AV :=
  shapeCast _ (extractStridedSlice S1x1x128 ![2, 1, 0] B slices_S3x2x128_S1x1x128_2_1_0) shapeCasts_S1x1x128_S128
/-- Layer 0 of a stack of 3 square matrices. -/
def slL_0 (W : AL3) : AM :=
  shapeCast _ (extractStridedSlice S1x128x128 ![0, 0, 0] W slices_S3x128x128_S1x128x128_0_0_0) shapeCasts_S1x128x128_S128x128
/-- Layer 0 of a stack of 3 vectors. -/
def sl2_0 (G : AV2) : AV :=
  shapeCast _ (extractStridedSlice S1x128 ![0, 0] G slices_S3x128_S1x128_0_0) shapeCasts_S1x128_S128
/-- Layer 1 of a stack of 3 square matrices. -/
def slL_1 (W : AL3) : AM :=
  shapeCast _ (extractStridedSlice S1x128x128 ![1, 0, 0] W slices_S3x128x128_S1x128x128_1_0_0) shapeCasts_S1x128x128_S128x128
/-- Layer 1 of a stack of 3 vectors. -/
def sl2_1 (G : AV2) : AV :=
  shapeCast _ (extractStridedSlice S1x128 ![1, 0] G slices_S3x128_S1x128_1_0) shapeCasts_S1x128_S128
/-- Layer 2 of a stack of 3 square matrices. -/
def slL_2 (W : AL3) : AM :=
  shapeCast _ (extractStridedSlice S1x128x128 ![2, 0, 0] W slices_S3x128x128_S1x128x128_2_0_0) shapeCasts_S1x128x128_S128x128
/-- Layer 2 of a stack of 3 vectors. -/
def sl2_2 (G : AV2) : AV :=
  shapeCast _ (extractStridedSlice S1x128 ![2, 0] G slices_S3x128_S1x128_2_0) shapeCasts_S1x128_S128

/-! ## Mean aggregation over a relation's edges -/

/-- Source indices with negative ones wrapped by the number of nodes, as the indexing `h[src]` lowers. -/
def wrapIdx (src : AI) : AI :=
  select (cmpi .slt src (broadcastInDim S1000000 ![] bcast_S_S1000000 (constantI S_ 32 0#32)))
    (addi src (broadcastInDim S1000000 ![] bcast_S_S1000000 (constantI S_ 32 100000#32))) src

/-- The in-degree of every node along `dst`, clipped below at one, as a column. -/
def degCol (dst : AI) : FVec Ideal S100000x1 .f32 :=
  broadcastInDim S100000x1 ![0] bcast_S100000_S100000x1_0
    (maximumf
      (Host.scatterAdd (F := Ideal) scatter_S100000_S1000000x1_S1000000_n_0_0_1
        (broadcastInDim S100000 ![] bcast_S_S100000 (constant (F := Ideal) S_ .f32 0x00000000#32))
        (broadcastInDim S1000000x1 ![0] bcast_S1000000_S1000000x1_0 dst)
        (broadcastInDim S1000000 ![] bcast_S_S1000000 (constant (F := Ideal) S_ .f32 0x3F800000#32)))
      (broadcastInDim S100000 ![] bcast_S_S100000 (constant (F := Ideal) S_ .f32 0x3F800000#32)))

/-- The sum over the edges into each node of the source node's features. -/
def msgSum (h : AH) (src dst : AI) : AH :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 dst)
    (Host.gather gather_S100000x128_S1000000x1_S1000000x128_1_0_n_n_0_1_1128 h
      (broadcastInDim S1000000x1 ![0] bcast_S1000000_S1000000x1_0 (wrapIdx src)))

/-- The mean of the neighbours' features. -/
def meanAgg (h : AH) (src dst : AI) : AH :=
  Host.divf (F := Ideal) (msgSum h src dst) (broadcastInDim S100000x128 ![0, 1] bcast_S100000x1_S100000x128_0_1 (degCol dst))

/-! ## The reference's operations on whole arrays -/

/-- A vector as every row of the node matrix / of the class matrix. -/
def rowsH (b : AV) : AH :=
  broadcastInDim S100000x128 ![0, 1] bcast_S1x128_S100000x128_0_1 (broadcastInDim S1x128 ![1] bcast_S128_S1x128_1 b)
def rowsPC (b : AV) : APC :=
  broadcastInDim S10000x128 ![0, 1] bcast_S1x128_S10000x128_0_1 (broadcastInDim S1x128 ![1] bcast_S128_S1x128_1 b)

/-- The two relations' self-plus-neighbour linear maps, one after the other. -/
def hostHc (h m0 m1 : AH) (ws0 ws1 wn0 wn1 : AM) (b0 b1 : AV) : AH :=
  addf
    (addf (addf (Host.dotGeneral (F := Ideal) dot_S100000x128_S128x128_S100000x128_1_0_0_1_n_n none h ws0)
                (Host.dotGeneral (F := Ideal) dot_S100000x128_S128x128_S100000x128_1_0_0_1_n_n none m0 wn0)) (rowsH b0))
    (addf (addf (Host.dotGeneral (F := Ideal) dot_S100000x128_S128x128_S100000x128_1_0_0_1_n_n none h ws1)
                (Host.dotGeneral (F := Ideal) dot_S100000x128_S128x128_S100000x128_1_0_0_1_n_n none m1 wn1)) (rowsH b1))

/-- The class branch's linear map. -/
def hostLinPC (pc : APC) (w : AM) (b : AV) : APC :=
  addf (Host.dotGeneral (F := Ideal) dot_S10000x128_S128x128_S10000x128_1_0_0_1_n_n none pc w) (rowsPC b)

/-- Row means, deviations and variances of the node matrix as the host computes them. -/
def hostMeanH (v : AH) : FVec Ideal S100000x1 .f32 :=
  Host.divf (F := Ideal)
    (broadcastInDim S100000x1 ![0] bcast_S100000_S100000x1_0
      (Host.reduceAdd (F := Ideal) v (constant (F := Ideal) S_ .f32 0x00000000#32) reducesTo_S100000x128_S100000_d1 h_S_))
    (broadcastInDim S100000x1 ![] bcast_S_S100000x1 (constant (F := Ideal) S_ .f32 0x43000000#32))
def hostCenH (v : AH) : AH :=
  subf v (broadcastInDim S100000x128 ![0, 1] bcast_S100000x1_S100000x128_0_1 (hostMeanH v))
def hostVarH (v : AH) : FVec Ideal S100000x1 .f32 :=
  Host.divf (F := Ideal)
    (broadcastInDim S100000x1 ![0] bcast_S100000_S100000x1_0
      (Host.reduceAdd (F := Ideal) (mulf (hostCenH v) (hostCenH v)) (constant (F := Ideal) S_ .f32 0x00000000#32) reducesTo_S100000x128_S100000_d1 h_S_))
    (broadcastInDim S100000x1 ![] bcast_S_S100000x1 (constant (F := Ideal) S_ .f32 0x43000000#32))
/-- Layer normalisation of the node matrix as the host computes it. -/
def hostLN_H (v : AH) (g β : AV) : AH :=
  addf (mulf (mulf (hostCenH v)
      (broadcastInDim S100000x128 ![0, 1] bcast_S100000x1_S100000x128_0_1
        (Host.rsqrt (F := Ideal) (addf (hostVarH v) (broadcastInDim S100000x1 ![] bcast_S_S100000x1 (constant (F := Ideal) S_ .f32 0x3727C5AC#32))))))
    (rowsH g)) (rowsH β)

/-- The same for the class matrix. -/
def hostMeanPC (v : APC) : FVec Ideal S10000x1 .f32 :=
  Host.divf (F := Ideal)
    (broadcastInDim S10000x1 ![0] bcast_S10000_S10000x1_0
      (Host.reduceAdd (F := Ideal) v (constant (F := Ideal) S_ .f32 0x00000000#32) reducesTo_S10000x128_S10000_d1 h_S_))
    (broadcastInDim S10000x1 ![] bcast_S_S10000x1 (constant (F := Ideal) S_ .f32 0x43000000#32))
def hostCenPC (v : APC) : APC :=
  subf v (broadcastInDim S10000x128 ![0, 1] bcast_S10000x1_S10000x128_0_1 (hostMeanPC v))
def hostVarPC (v : APC) : FVec Ideal S10000x1 .f32 :=
  Host.divf (F := Ideal)
    (broadcastInDim S10000x1 ![0] bcast_S10000_S10000x1_0
      (Host.reduceAdd (F := Ideal) (mulf (hostCenPC v) (hostCenPC v)) (constant (F := Ideal) S_ .f32 0x00000000#32) reducesTo_S10000x128_S10000_d1 h_S_))
    (broadcastInDim S10000x1 ![] bcast_S_S10000x1 (constant (F := Ideal) S_ .f32 0x43000000#32))
def hostLN_PC (v : APC) (g β : AV) : APC :=
  addf (mulf (mulf (hostCenPC v)
      (broadcastInDim S10000x128 ![0, 1] bcast_S10000x1_S10000x128_0_1
        (Host.rsqrt (F := Ideal) (addf (hostVarPC v) (broadcastInDim S10000x1 ![] bcast_S_S10000x1 (constant (F := Ideal) S_ .f32 0x3727C5AC#32))))))
    (rowsPC g)) (rowsPC β)

/-- The maximum with zero as the host computes it. -/
def hostReluH (v : AH) : AH :=
  maximumf v (broadcastInDim S100000x128 ![] bcast_S_S100000x128 (constant (F := Ideal) S_ .f32 0x00000000#32))
def hostReluPC (v : APC) : APC :=
  maximumf v (broadcastInDim S10000x128 ![] bcast_S_S10000x128 (constant (F := Ideal) S_ .f32 0x00000000#32))

/-- The class rows on top of the node rows. -/
def cat (a : APC) (b : AH) : AOut :=
  concatenate S110000x128 0 [⟨S10000x128, a⟩, ⟨S100000x128, b⟩] concatenates_S10000x128_S100000x128_S110000x128_d0

/-! ## The two programs' results as functions of the arguments -/

section Programs
variable (x : AH) (y : APC) (s0 d0 s1 d1 : AI) (x6 x7 : AW4) (x8 : AB3) (x9 : AL3) (x10 x11 x12 : AV2)
/-- The reference's node features after layer 0. -/
def refH1 : AH :=
  hostReluH (hostLN_H (hostHc x (meanAgg x s0 d0) (meanAgg x s1 d1)
      (sl4_00 x6) (sl4_01 x6) (sl4_00 x7) (sl4_01 x7) (sl3_00 x8) (sl3_01 x8)) (sl2_0 x11) (sl2_0 x12))
/-- The reference's class features after layer 0. -/
def refPC1 : APC :=
  hostReluPC (hostLN_PC (hostLinPC y (slL_0 x9) (sl2_0 x10)) (sl2_0 x11) (sl2_0 x12))
/-- The reference's node features after layer 1. -/
def refH2 : AH :=
  hostReluH (hostLN_H (hostHc (refH1 x s0 d0 s1 d1 x6 x7 x8 x11 x12) (meanAgg (refH1 x s0 d0 s1 d1 x6 x7 x8 x11 x12) s0 d0) (meanAgg (refH1 x s0 d0 s1 d1 x6 x7 x8 x11 x12) s1 d1)
      (sl4_10 x6) (sl4_11 x6) (sl4_10 x7) (sl4_11 x7) (sl3_10 x8) (sl3_11 x8)) (sl2_1 x11) (sl2_1 x12))
/-- The reference's class features after layer 1. -/
def refPC2 : APC :=
  hostReluPC (hostLN_PC (hostLinPC (refPC1 y x9 x10 x11 x12) (slL_1 x9) (sl2_1 x10)) (sl2_1 x11) (sl2_1 x12))
/-- The reference's node features after layer 2. -/
def refH3 : AH :=
  (hostLN_H (hostHc (refH2 x s0 d0 s1 d1 x6 x7 x8 x11 x12) (meanAgg (refH2 x s0 d0 s1 d1 x6 x7 x8 x11 x12) s0 d0) (meanAgg (refH2 x s0 d0 s1 d1 x6 x7 x8 x11 x12) s1 d1)
      (sl4_20 x6) (sl4_21 x6) (sl4_20 x7) (sl4_21 x7) (sl3_20 x8) (sl3_21 x8)) (sl2_2 x11) (sl2_2 x12))
/-- The reference's class features after layer 2. -/
def refPC3 : APC :=
  (hostLN_PC (hostLinPC (refPC2 y x9 x10 x11 x12) (slL_2 x9) (sl2_2 x10)) (sl2_2 x11) (sl2_2 x12))
/-- The kernel program's node features after layer 0: self weights and biases summed first, rows normalised. -/
def kerH1 : AH :=
  relu (ln (hcK x (meanAgg x s0 d0) (meanAgg x s1 d1)
      (vadd (sl4_00 x6) (sl4_01 x6)) (sl4_00 x7) (sl4_01 x7) (vadd (sl3_00 x8) (sl3_01 x8))) (sl2_0 x11) (sl2_0 x12))
/-- The kernel program's class features after layer 0. -/
def kerPC1 : APC :=
  relu (ln (lin y (slL_0 x9) (sl2_0 x10)) (sl2_0 x11) (sl2_0 x12))
/-- The kernel program's node features after layer 1: self weights and biases summed first, rows normalised. -/
def kerH2 : AH :=
  relu (ln (hcK (kerH1 x s0 d0 s1 d1 x6 x7 x8 x11 x12) (meanAgg (kerH1 x s0 d0 s1 d1 x6 x7 x8 x11 x12) s0 d0) (meanAgg (kerH1 x s0 d0 s1 d1 x6 x7 x8 x11 x12) s1 d1)
      (vadd (sl4_10 x6) (sl4_11 x6)) (sl4_10 x7) (sl4_11 x7) (vadd (sl3_10 x8) (sl3_11 x8))) (sl2_1 x11) (sl2_1 x12))
/-- The kernel program's class features after layer 1. -/
def kerPC2 : APC :=
  relu (ln (lin (kerPC1 y x9 x10 x11 x12) (slL_1 x9) (sl2_1 x10)) (sl2_1 x11) (sl2_1 x12))
/-- The kernel program's node features after layer 2: self weights and biases summed first, rows normalised. -/
def kerH3 : AH :=
  (ln (hcK (kerH2 x s0 d0 s1 d1 x6 x7 x8 x11 x12) (meanAgg (kerH2 x s0 d0 s1 d1 x6 x7 x8 x11 x12) s0 d0) (meanAgg (kerH2 x s0 d0 s1 d1 x6 x7 x8 x11 x12) s1 d1)
      (vadd (sl4_20 x6) (sl4_21 x6)) (sl4_20 x7) (sl4_21 x7) (vadd (sl3_20 x8) (sl3_21 x8))) (sl2_2 x11) (sl2_2 x12))
/-- The kernel program's class features after layer 2. -/
def kerPC3 : APC :=
  (ln (lin (kerPC2 y x9 x10 x11 x12) (slL_2 x9) (sl2_2 x10)) (sl2_2 x11) (sl2_2 x12))

/-- The reference's result. -/
def refOut : AOut := cat (refPC3 y x9 x10 x11 x12) (refH3 x s0 d0 s1 d1 x6 x7 x8 x11 x12)
/-- The kernel program's result. -/
def kerOut : AOut := cat (kerPC3 y x9 x10 x11 x12) (kerH3 x s0 d0 s1 d1 x6 x7 x8 x11 x12)

end Programs

end Cert.HG

end
-- ==== Proof.KKeep.lean ====
/-
  Which buffers each step of the kernel program's run leaves alone.  A host stretch rewrites exactly the result
  buffers of its operations, listed here in order, and leaves every other buffer; a region rewrites its output
  array and leaves every buffer that is none of its arrays.  Hence, along the boundaries W0 (launch), W1, ..., W12
  of the run, a buffer that no step so far has touched still holds what it held.
-/
import proofs.«178392_j50105088475140_1_alg».proof.Proof.Gen.KernelIdeal.Frame
import Idealize.ShloMosaic.Lib.StableHlo.Run
import Idealize.ShloMosaic.PureOps.Ideal

set_option maxRecDepth 16384

noncomputable section

namespace Cert.KernelIdeal.HG.Chain

open Idealize.ShloMosaic Idealize.ShloMosaic.TcCoe Idealize.SL.Sem Cert.KernelIdeal Cert.KernelIdeal.Gen
open Idealize.ShloMosaic.StableHlo

/-- A host operation that writes the one buffer `y`, a member of the list `L`, writes within `L`. -/
theorem writes_sub {L : List (Ref sig .tc)} {op : HloOp τ sig (Elt Ideal)} (y : Ref sig .tc)
    (hw : op.writes = {Proc.devRef .tc y}) (hy : y ∈ L) :
    op.writes ⊆ (L.map (Proc.devRef (τ := τ) .tc)).toFinset := by
  rw [hw, Finset.singleton_subset_iff, List.mem_toFinset]; exact List.mem_map_of_mem hy

/-- The buffers host stretch 0 writes, in order. -/
abbrev wr0 : List (Ref sig .tc) := [main_cst, main_v0, main_cst_0, main_v1, main_v2, main_v3, main_cst_1, main_v4, main_v5, main_v6, main_cst_2, main_v7, main_v8, main_v9, main_cst_3, main_v10, main_v11, main_v12, main_c, main_v13, main_v14, main_c_4, main_v15, main_v16, main_v17, main_v18, main_v19, main_cst_5, main_v20, main_v21, main_v22, main_c_6, main_v23, main_v24, main_c_7, main_v25, main_v26, main_v27, main_v28, main_v29, main_cst_8, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]
theorem wr0_sub : (hostOps0 (F := Ideal) : List (HloOp τ sig (Elt Ideal))).Forall fun op => op.writes ⊆ (wr0.map (Proc.devRef (τ := τ) .tc)).toFinset :=
  ⟨writes_sub main_cst rfl (by decide),
   writes_sub main_v0 rfl (by decide),
   writes_sub main_cst_0 rfl (by decide),
   writes_sub main_v1 rfl (by decide),
   writes_sub main_v2 rfl (by decide),
   writes_sub main_v3 rfl (by decide),
   writes_sub main_cst_1 rfl (by decide),
   writes_sub main_v4 rfl (by decide),
   writes_sub main_v5 rfl (by decide),
   writes_sub main_v6 rfl (by decide),
   writes_sub main_cst_2 rfl (by decide),
   writes_sub main_v7 rfl (by decide),
   writes_sub main_v8 rfl (by decide),
   writes_sub main_v9 rfl (by decide),
   writes_sub main_cst_3 rfl (by decide),
   writes_sub main_v10 rfl (by decide),
   writes_sub main_v11 rfl (by decide),
   writes_sub main_v12 rfl (by decide),
   writes_sub main_c rfl (by decide),
   writes_sub main_v13 rfl (by decide),
   writes_sub main_v14 rfl (by decide),
   writes_sub main_c_4 rfl (by decide),
   writes_sub main_v15 rfl (by decide),
   writes_sub main_v16 rfl (by decide),
   writes_sub main_v17 rfl (by decide),
   writes_sub main_v18 rfl (by decide),
   writes_sub main_v19 rfl (by decide),
   writes_sub main_cst_5 rfl (by decide),
   writes_sub main_v20 rfl (by decide),
   writes_sub main_v21 rfl (by decide),
   writes_sub main_v22 rfl (by decide),
   writes_sub main_c_6 rfl (by decide),
   writes_sub main_v23 rfl (by decide),
   writes_sub main_v24 rfl (by decide),
   writes_sub main_c_7 rfl (by decide),
   writes_sub main_v25 rfl (by decide),
   writes_sub main_v26 rfl (by decide),
   writes_sub main_v27 rfl (by decide),
   writes_sub main_v28 rfl (by decide),
   writes_sub main_v29 rfl (by decide),
   writes_sub main_cst_8 rfl (by decide),
   writes_sub main_v30 rfl (by decide),
   writes_sub main_v31 rfl (by decide),
   writes_sub main_v32 rfl (by decide),
   writes_sub main_v33 rfl (by decide),
   writes_sub main_v34 rfl (by decide),
   writes_sub main_v35 rfl (by decide),
   writes_sub main_v36 rfl (by decide),
   writes_sub main_v37 rfl (by decide),
   writes_sub main_v38 rfl (by decide),
   writes_sub main_v39 rfl (by decide),
   writes_sub main_v40 rfl (by decide),
   writes_sub main_v41 rfl (by decide),
   writes_sub main_v42 rfl (by decide),
   writes_sub main_v43 rfl (by decide),
   writes_sub main_v44 rfl (by decide),
   writes_sub main_v45 rfl (by decide),
   writes_sub main_v46 rfl (by decide),
   writes_sub main_v47 rfl (by decide),
   writes_sub main_v48 rfl (by decide),
   writes_sub main_v49 rfl (by decide),
   writes_sub main_v50 rfl (by decide),
   writes_sub main_v51 rfl (by decide),
   writes_sub main_v52 rfl (by decide),
   writes_sub main_v53 rfl (by decide),
   writes_sub main_v54 rfl (by decide),
   writes_sub main_v55 rfl (by decide),
   writes_sub main_v56 rfl (by decide),
   writes_sub main_v57 rfl (by decide)⟩
/-- Host stretch 0 leaves every buffer it does not write. -/
theorem keep_host0 (W : Valuation τ sig (Elt Ideal)) (r : Ref sig .tc) (hr : r ∉ wr0) :
    StableHlo.after (hostOps0 (F := Ideal)) W (Proc.devRef .tc r) = W (Proc.devRef .tc r) :=
  StableHlo.after_of_writes_sub _ W wr0_sub hr

/-- The buffers host stretch 1 writes, in order. -/
abbrev wr1 : List (Ref sig .tc) := [main_v59, main_v60, main_v61, main_v62, main_v63, main_v64, main_v65, main_v66, main_v67, main_v68, main_v69]
theorem wr1_sub : (hostOps1 (F := Ideal) : List (HloOp τ sig (Elt Ideal))).Forall fun op => op.writes ⊆ (wr1.map (Proc.devRef (τ := τ) .tc)).toFinset :=
  ⟨writes_sub main_v59 rfl (by decide),
   writes_sub main_v60 rfl (by decide),
   writes_sub main_v61 rfl (by decide),
   writes_sub main_v62 rfl (by decide),
   writes_sub main_v63 rfl (by decide),
   writes_sub main_v64 rfl (by decide),
   writes_sub main_v65 rfl (by decide),
   writes_sub main_v66 rfl (by decide),
   writes_sub main_v67 rfl (by decide),
   writes_sub main_v68 rfl (by decide),
   writes_sub main_v69 rfl (by decide)⟩
/-- Host stretch 1 leaves every buffer it does not write. -/
theorem keep_host1 (W : Valuation τ sig (Elt Ideal)) (r : Ref sig .tc) (hr : r ∉ wr1) :
    StableHlo.after (hostOps1 (F := Ideal)) W (Proc.devRef .tc r) = W (Proc.devRef .tc r) :=
  StableHlo.after_of_writes_sub _ W wr1_sub hr

/-- The buffers host stretch 2 writes, in order. -/
abbrev wr2 : List (Ref sig .tc) := [main_c_9, main_v71, main_v72, main_c_10, main_v73, main_v74, main_v75, main_v76, main_v77, main_cst_11, main_v78, main_v79, main_v80, main_c_12, main_v81, main_v82, main_c_13, main_v83, main_v84, main_v85, main_v86, main_v87, main_cst_14, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115]
theorem wr2_sub : (hostOps2 (F := Ideal) : List (HloOp τ sig (Elt Ideal))).Forall fun op => op.writes ⊆ (wr2.map (Proc.devRef (τ := τ) .tc)).toFinset :=
  ⟨writes_sub main_c_9 rfl (by decide),
   writes_sub main_v71 rfl (by decide),
   writes_sub main_v72 rfl (by decide),
   writes_sub main_c_10 rfl (by decide),
   writes_sub main_v73 rfl (by decide),
   writes_sub main_v74 rfl (by decide),
   writes_sub main_v75 rfl (by decide),
   writes_sub main_v76 rfl (by decide),
   writes_sub main_v77 rfl (by decide),
   writes_sub main_cst_11 rfl (by decide),
   writes_sub main_v78 rfl (by decide),
   writes_sub main_v79 rfl (by decide),
   writes_sub main_v80 rfl (by decide),
   writes_sub main_c_12 rfl (by decide),
   writes_sub main_v81 rfl (by decide),
   writes_sub main_v82 rfl (by decide),
   writes_sub main_c_13 rfl (by decide),
   writes_sub main_v83 rfl (by decide),
   writes_sub main_v84 rfl (by decide),
   writes_sub main_v85 rfl (by decide),
   writes_sub main_v86 rfl (by decide),
   writes_sub main_v87 rfl (by decide),
   writes_sub main_cst_14 rfl (by decide),
   writes_sub main_v88 rfl (by decide),
   writes_sub main_v89 rfl (by decide),
   writes_sub main_v90 rfl (by decide),
   writes_sub main_v91 rfl (by decide),
   writes_sub main_v92 rfl (by decide),
   writes_sub main_v93 rfl (by decide),
   writes_sub main_v94 rfl (by decide),
   writes_sub main_v95 rfl (by decide),
   writes_sub main_v96 rfl (by decide),
   writes_sub main_v97 rfl (by decide),
   writes_sub main_v98 rfl (by decide),
   writes_sub main_v99 rfl (by decide),
   writes_sub main_v100 rfl (by decide),
   writes_sub main_v101 rfl (by decide),
   writes_sub main_v102 rfl (by decide),
   writes_sub main_v103 rfl (by decide),
   writes_sub main_v104 rfl (by decide),
   writes_sub main_v105 rfl (by decide),
   writes_sub main_v106 rfl (by decide),
   writes_sub main_v107 rfl (by decide),
   writes_sub main_v108 rfl (by decide),
   writes_sub main_v109 rfl (by decide),
   writes_sub main_v110 rfl (by decide),
   writes_sub main_v111 rfl (by decide),
   writes_sub main_v112 rfl (by decide),
   writes_sub main_v113 rfl (by decide),
   writes_sub main_v114 rfl (by decide),
   writes_sub main_v115 rfl (by decide)⟩
/-- Host stretch 2 leaves every buffer it does not write. -/
theorem keep_host2 (W : Valuation τ sig (Elt Ideal)) (r : Ref sig .tc) (hr : r ∉ wr2) :
    StableHlo.after (hostOps2 (F := Ideal)) W (Proc.devRef .tc r) = W (Proc.devRef .tc r) :=
  StableHlo.after_of_writes_sub _ W wr2_sub hr

/-- The buffers host stretch 3 writes, in order. -/
abbrev wr3 : List (Ref sig .tc) := [main_v117, main_v118, main_v119, main_v120, main_v121, main_v122, main_v123, main_v124, main_v125, main_v126, main_v127]
theorem wr3_sub : (hostOps3 (F := Ideal) : List (HloOp τ sig (Elt Ideal))).Forall fun op => op.writes ⊆ (wr3.map (Proc.devRef (τ := τ) .tc)).toFinset :=
  ⟨writes_sub main_v117 rfl (by decide),
   writes_sub main_v118 rfl (by decide),
   writes_sub main_v119 rfl (by decide),
   writes_sub main_v120 rfl (by decide),
   writes_sub main_v121 rfl (by decide),
   writes_sub main_v122 rfl (by decide),
   writes_sub main_v123 rfl (by decide),
   writes_sub main_v124 rfl (by decide),
   writes_sub main_v125 rfl (by decide),
   writes_sub main_v126 rfl (by decide),
   writes_sub main_v127 rfl (by decide)⟩
/-- Host stretch 3 leaves every buffer it does not write. -/
theorem keep_host3 (W : Valuation τ sig (Elt Ideal)) (r : Ref sig .tc) (hr : r ∉ wr3) :
    StableHlo.after (hostOps3 (F := Ideal)) W (Proc.devRef .tc r) = W (Proc.devRef .tc r) :=
  StableHlo.after_of_writes_sub _ W wr3_sub hr

/-- The buffers host stretch 4 writes, in order. -/
abbrev wr4 : List (Ref sig .tc) := [main_c_15, main_v129, main_v130, main_c_16, main_v131, main_v132, main_v133, main_v134, main_v135, main_cst_17, main_v136, main_v137, main_v138, main_c_18, main_v139, main_v140, main_c_19, main_v141, main_v142, main_v143, main_v144, main_v145, main_cst_20, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173]
theorem wr4_sub : (hostOps4 (F := Ideal) : List (HloOp τ sig (Elt Ideal))).Forall fun op => op.writes ⊆ (wr4.map (Proc.devRef (τ := τ) .tc)).toFinset :=
  ⟨writes_sub main_c_15 rfl (by decide),
   writes_sub main_v129 rfl (by decide),
   writes_sub main_v130 rfl (by decide),
   writes_sub main_c_16 rfl (by decide),
   writes_sub main_v131 rfl (by decide),
   writes_sub main_v132 rfl (by decide),
   writes_sub main_v133 rfl (by decide),
   writes_sub main_v134 rfl (by decide),
   writes_sub main_v135 rfl (by decide),
   writes_sub main_cst_17 rfl (by decide),
   writes_sub main_v136 rfl (by decide),
   writes_sub main_v137 rfl (by decide),
   writes_sub main_v138 rfl (by decide),
   writes_sub main_c_18 rfl (by decide),
   writes_sub main_v139 rfl (by decide),
   writes_sub main_v140 rfl (by decide),
   writes_sub main_c_19 rfl (by decide),
   writes_sub main_v141 rfl (by decide),
   writes_sub main_v142 rfl (by decide),
   writes_sub main_v143 rfl (by decide),
   writes_sub main_v144 rfl (by decide),
   writes_sub main_v145 rfl (by decide),
   writes_sub main_cst_20 rfl (by decide),
   writes_sub main_v146 rfl (by decide),
   writes_sub main_v147 rfl (by decide),
   writes_sub main_v148 rfl (by decide),
   writes_sub main_v149 rfl (by decide),
   writes_sub main_v150 rfl (by decide),
   writes_sub main_v151 rfl (by decide),
   writes_sub main_v152 rfl (by decide),
   writes_sub main_v153 rfl (by decide),
   writes_sub main_v154 rfl (by decide),
   writes_sub main_v155 rfl (by decide),
   writes_sub main_v156 rfl (by decide),
   writes_sub main_v157 rfl (by decide),
   writes_sub main_v158 rfl (by decide),
   writes_sub main_v159 rfl (by decide),
   writes_sub main_v160 rfl (by decide),
   writes_sub main_v161 rfl (by decide),
   writes_sub main_v162 rfl (by decide),
   writes_sub main_v163 rfl (by decide),
   writes_sub main_v164 rfl (by decide),
   writes_sub main_v165 rfl (by decide),
   writes_sub main_v166 rfl (by decide),
   writes_sub main_v167 rfl (by decide),
   writes_sub main_v168 rfl (by decide),
   writes_sub main_v169 rfl (by decide),
   writes_sub main_v170 rfl (by decide),
   writes_sub main_v171 rfl (by decide),
   writes_sub main_v172 rfl (by decide),
   writes_sub main_v173 rfl (by decide)⟩
/-- Host stretch 4 leaves every buffer it does not write. -/
theorem keep_host4 (W : Valuation τ sig (Elt Ideal)) (r : Ref sig .tc) (hr : r ∉ wr4) :
    StableHlo.after (hostOps4 (F := Ideal)) W (Proc.devRef .tc r) = W (Proc.devRef .tc r) :=
  StableHlo.after_of_writes_sub _ W wr4_sub hr

/-- The buffers host stretch 5 writes, in order. -/
abbrev wr5 : List (Ref sig .tc) := [main_v175, main_v176, main_v177, main_v178, main_v179, main_v180, main_v181, main_v182, main_v183, main_v184, main_v185]
theorem wr5_sub : (hostOps5 (F := Ideal) : List (HloOp τ sig (Elt Ideal))).Forall fun op => op.writes ⊆ (wr5.map (Proc.devRef (τ := τ) .tc)).toFinset :=
  ⟨writes_sub main_v175 rfl (by decide),
   writes_sub main_v176 rfl (by decide),
   writes_sub main_v177 rfl (by decide),
   writes_sub main_v178 rfl (by decide),
   writes_sub main_v179 rfl (by decide),
   writes_sub main_v180 rfl (by decide),
   writes_sub main_v181 rfl (by decide),
   writes_sub main_v182 rfl (by decide),
   writes_sub main_v183 rfl (by decide),
   writes_sub main_v184 rfl (by decide),
   writes_sub main_v185 rfl (by decide)⟩
/-- Host stretch 5 leaves every buffer it does not write. -/
theorem keep_host5 (W : Valuation τ sig (Elt Ideal)) (r : Ref sig .tc) (hr : r ∉ wr5) :
    StableHlo.after (hostOps5 (F := Ideal)) W (Proc.devRef .tc r) = W (Proc.devRef .tc r) :=
  StableHlo.after_of_writes_sub _ W wr5_sub hr

variable (m : (ℓ : Loc nD τ sig) → Buf (Elt Ideal) ℓ) (ρ : Dev nD → PrngReg) (c : Dev nD)

/-! ## One step of the run at a buffer it leaves alone -/
theorem keep1 (r : Ref sig .tc) (hr : r ∉ wr0) :
    W1 (F := Ideal) m ρ c (Proc.devRef .tc r) = W0 (F := Ideal) m ρ c (Proc.devRef .tc r) := keep_host0 _ r hr
theorem keep2 (r : Ref sig .tc) (hb : ∀ w, Pipeline.arrRef spec0 w ≠ r) :
    W2 (F := Ideal) m ρ c (Proc.devRef .tc r) = W1 (F := Ideal) m ρ c (Proc.devRef .tc r) := W2_of_ne m ρ c r hb
theorem keep3 (r : Ref sig .tc) (hr : r ∉ wr1) :
    W3 (F := Ideal) m ρ c (Proc.devRef .tc r) = W2 (F := Ideal) m ρ c (Proc.devRef .tc r) := keep_host1 _ r hr
theorem keep4 (r : Ref sig .tc) (hb : ∀ w, Pipeline.arrRef spec1 w ≠ r) :
    W4 (F := Ideal) m ρ c (Proc.devRef .tc r) = W3 (F := Ideal) m ρ c (Proc.devRef .tc r) := W4_of_ne m ρ c r hb
theorem keep5 (r : Ref sig .tc) (hr : r ∉ wr2) :
    W5 (F := Ideal) m ρ c (Proc.devRef .tc r) = W4 (F := Ideal) m ρ c (Proc.devRef .tc r) := keep_host2 _ r hr
theorem keep6 (r : Ref sig .tc) (hb : ∀ w, Pipeline.arrRef spec2 w ≠ r) :
    W6 (F := Ideal) m ρ c (Proc.devRef .tc r) = W5 (F := Ideal) m ρ c (Proc.devRef .tc r) := W6_of_ne m ρ c r hb
theorem keep7 (r : Ref sig .tc) (hr : r ∉ wr3) :
    W7 (F := Ideal) m ρ c (Proc.devRef .tc r) = W6 (F := Ideal) m ρ c (Proc.devRef .tc r) := keep_host3 _ r hr
theorem keep8 (r : Ref sig .tc) (hb : ∀ w, Pipeline.arrRef spec3 w ≠ r) :
    W8 (F := Ideal) m ρ c (Proc.devRef .tc r) = W7 (F := Ideal) m ρ c (Proc.devRef .tc r) := W8_of_ne m ρ c r hb
theorem keep9 (r : Ref sig .tc) (hr : r ∉ wr4) :
    W9 (F := Ideal) m ρ c (Proc.devRef .tc r) = W8 (F := Ideal) m ρ c (Proc.devRef .tc r) := keep_host4 _ r hr
theorem keep10 (r : Ref sig .tc) (hb : ∀ w, Pipeline.arrRef spec4 w ≠ r) :
    W10 (F := Ideal) m ρ c (Proc.devRef .tc r) = W9 (F := Ideal) m ρ c (Proc.devRef .tc r) := W10_of_ne m ρ c r hb
theorem keep11 (r : Ref sig .tc) (hr : r ∉ wr5) :
    W11 (F := Ideal) m ρ c (Proc.devRef .tc r) = W10 (F := Ideal) m ρ c (Proc.devRef .tc r) := keep_host5 _ r hr
theorem keep12 (r : Ref sig .tc) (hb : ∀ w, Pipeline.arrRef spec5 w ≠ r) :
    W12 (F := Ideal) m ρ c (Proc.devRef .tc r) = W11 (F := Ideal) m ρ c (Proc.devRef .tc r) := W12_of_ne m ρ c r hb

end Cert.KernelIdeal.HG.Chain

end
-- ==== Proof.KHost0.lean ====
/-
  The first host stretch of the kernel program as functions of the buffers it reads, from ANY contents W of the
  buffers before it: the two in-degree columns (clipped below at one), the two neighbourhood means of the node
  features, layer 0's slices of the stacked parameters (the two self weights summed, the two biases summed and
  laid out as a one-row matrix, the neighbour weights, the normalisation's scale and shift as one-row matrices).
-/
import proofs.«178392_j50105088475140_1_alg».proof.Proof.Gen.KernelIdeal.Launch
import proofs.«178392_j50105088475140_1_alg».proof.Proof.HostDefs
import Idealize.ShloMosaic.Lib.StableHlo.Run

set_option maxRecDepth 16384

noncomputable section

namespace Cert.KernelIdeal.HG.Chain

open Idealize.ShloMosaic Idealize.ShloMosaic.TcCoe Idealize.SL.Sem Cert.KernelIdeal Cert.KernelIdeal.Gen
open Idealize.ShloMosaic.StableHlo
open Cert.HG Cert.LibMlp

variable (W : Valuation τ sig (Elt Ideal))

/-- The in-degree column along the first relation's targets. -/
theorem host0_v9 : (StableHlo.after (hostOps0 (F := Ideal)) W (Proc.devRef .tc main_v9) : FVec Ideal S100000x1 .f32) = degCol (W (Proc.devRef .tc main_arg3)) := by
  after_results_simp; rfl
/-- The in-degree column along the second relation's targets. -/
theorem host0_v12 : (StableHlo.after (hostOps0 (F := Ideal)) W (Proc.devRef .tc main_v12) : FVec Ideal S100000x1 .f32) = degCol (W (Proc.devRef .tc main_arg5)) := by
  after_results_simp; rfl
/-- The first relation's neighbourhood mean of the node features. -/
theorem host0_v34 : (StableHlo.after (hostOps0 (F := Ideal)) W (Proc.devRef .tc main_v34) : FVec Ideal S100000x128 .f32) = meanAgg (W (Proc.devRef .tc main_arg0)) (W (Proc.devRef .tc main_arg2)) (W (Proc.devRef .tc main_arg3)) := by
  after_results_simp; rfl
/-- The second relation's neighbourhood mean of the node features. -/
theorem host0_v36 : (StableHlo.after (hostOps0 (F := Ideal)) W (Proc.devRef .tc main_v36) : FVec Ideal S100000x128 .f32) = meanAgg (W (Proc.devRef .tc main_arg0)) (W (Proc.devRef .tc main_arg4)) (W (Proc.devRef .tc main_arg5)) := by
  after_results_simp; rfl
/-- Layer 0's two self weights, summed. -/
theorem host0_v41 : (StableHlo.after (hostOps0 (F := Ideal)) W (Proc.devRef .tc main_v41) : FVec Ideal S128x128 .f32) = vadd (sl4_00 (W (Proc.devRef .tc main_arg6))) (sl4_01 (W (Proc.devRef .tc main_arg6))) := by
  after_results_simp; rfl
/-- Layer 0's first neighbour weight. -/
theorem host0_v48 : (StableHlo.after (hostOps0 (F := Ideal)) W (Proc.devRef .tc main_v48) : FVec Ideal S128x128 .f32) = sl4_00 (W (Proc.devRef .tc main_arg7)) := by
  after_results_simp; rfl
/-- Layer 0's second neighbour weight. -/
theorem host0_v50 : (StableHlo.after (hostOps0 (F := Ideal)) W (Proc.devRef .tc main_v50) : FVec Ideal S128x128 .f32) = sl4_01 (W (Proc.devRef .tc main_arg7)) := by
  after_results_simp; rfl
/-- Layer 0's two biases, summed, as a one-row matrix. -/
theorem host0_v55 : (StableHlo.after (hostOps0 (F := Ideal)) W (Proc.devRef .tc main_v55) : FVec Ideal S1x128 .f32) = shapeCast S1x128 (vadd (sl3_00 (W (Proc.devRef .tc main_arg8))) (sl3_01 (W (Proc.devRef .tc main_arg8)))) shapeCasts_S128_S1x128 := by
  after_results_simp; rfl
/-- Layer 0's scale as a one-row matrix. -/
theorem host0_v56 : (StableHlo.after (hostOps0 (F := Ideal)) W (Proc.devRef .tc main_v56) : FVec Ideal S1x128 .f32) = shapeCast S1x128 (sl2_0 (W (Proc.devRef .tc main_arg11))) shapeCasts_S128_S1x128 := by
  after_results_simp; rfl
/-- Layer 0's shift as a one-row matrix. -/
theorem host0_v57 : (StableHlo.after (hostOps0 (F := Ideal)) W (Proc.devRef .tc main_v57) : FVec Ideal S1x128 .f32) = shapeCast S1x128 (sl2_0 (W (Proc.devRef .tc main_arg12))) shapeCasts_S128_S1x128 := by
  after_results_simp; rfl

end Cert.KernelIdeal.HG.Chain

end
-- ==== Proof.KHost1.lean ====
/-
  The class branch's host stretches of the kernel program, and the last one, as functions of the buffers they read,
  from ANY contents W of the buffers before them: each layer's slice of the class branch's weight, and its bias,
  scale and shift as one-row matrices; the result, the class rows on top of the node rows.
-/
import proofs.«178392_j50105088475140_1_alg».proof.Proof.Gen.KernelIdeal.Launch
import proofs.«178392_j50105088475140_1_alg».proof.Proof.HostDefs
import Idealize.ShloMosaic.Lib.StableHlo.Run

set_option maxRecDepth 16384

noncomputable section

namespace Cert.KernelIdeal.HG.Chain

open Idealize.ShloMosaic Idealize.ShloMosaic.TcCoe Idealize.SL.Sem Cert.KernelIdeal Cert.KernelIdeal.Gen
open Idealize.ShloMosaic.StableHlo
open Cert.HG Cert.LibMlp

variable (W : Valuation τ sig (Elt Ideal))

/-- Layer 0's class weight. -/
theorem host1_v60 : (StableHlo.after (hostOps1 (F := Ideal)) W (Proc.devRef .tc main_v60) : FVec Ideal S128x128 .f32) = slL_0 (W (Proc.devRef .tc main_arg9)) := by
  after_results_simp; rfl
/-- Layer 0's class bias as a one-row matrix. -/
theorem host1_v67 : (StableHlo.after (hostOps1 (F := Ideal)) W (Proc.devRef .tc main_v67) : FVec Ideal S1x128 .f32) = shapeCast S1x128 (sl2_0 (W (Proc.devRef .tc main_arg10))) shapeCasts_S128_S1x128 := by
  after_results_simp; rfl
/-- Layer 0's scale as a one-row matrix. -/
theorem host1_v68 : (StableHlo.after (hostOps1 (F := Ideal)) W (Proc.devRef .tc main_v68) : FVec Ideal S1x128 .f32) = shapeCast S1x128 (sl2_0 (W (Proc.devRef .tc main_arg11))) shapeCasts_S128_S1x128 := by
  after_results_simp; rfl
/-- Layer 0's shift as a one-row matrix. -/
theorem host1_v69 : (StableHlo.after (hostOps1 (F := Ideal)) W (Proc.devRef .tc main_v69) : FVec Ideal S1x128 .f32) = shapeCast S1x128 (sl2_0 (W (Proc.devRef .tc main_arg12))) shapeCasts_S128_S1x128 := by
  after_results_simp; rfl
/-- Layer 1's class weight. -/
theorem host3_v118 : (StableHlo.after (hostOps3 (F := Ideal)) W (Proc.devRef .tc main_v118) : FVec Ideal S128x128 .f32) = slL_1 (W (Proc.devRef .tc main_arg9)) := by
  after_results_simp; rfl
/-- Layer 1's class bias as a one-row matrix. -/
theorem host3_v125 : (StableHlo.after (hostOps3 (F := Ideal)) W (Proc.devRef .tc main_v125) : FVec Ideal S1x128 .f32) = shapeCast S1x128 (sl2_1 (W (Proc.devRef .tc main_arg10))) shapeCasts_S128_S1x128 := by
  after_results_simp; rfl
/-- Layer 1's scale as a one-row matrix. -/
theorem host3_v126 : (StableHlo.after (hostOps3 (F := Ideal)) W (Proc.devRef .tc main_v126) : FVec Ideal S1x128 .f32) = shapeCast S1x128 (sl2_1 (W (Proc.devRef .tc main_arg11))) shapeCasts_S128_S1x128 := by
  after_results_simp; rfl
/-- Layer 1's shift as a one-row matrix. -/
theorem host3_v127 : (StableHlo.after (hostOps3 (F := Ideal)) W (Proc.devRef .tc main_v127) : FVec Ideal S1x128 .f32) = shapeCast S1x128 (sl2_1 (W (Proc.devRef .tc main_arg12))) shapeCasts_S128_S1x128 := by
  after_results_simp; rfl
/-- Layer 2's class weight. -/
theorem host5_v176 : (StableHlo.after (hostOps5 (F := Ideal)) W (Proc.devRef .tc main_v176) : FVec Ideal S128x128 .f32) = slL_2 (W (Proc.devRef .tc main_arg9)) := by
  after_results_simp; rfl
/-- Layer 2's class bias as a one-row matrix. -/
theorem host5_v183 : (StableHlo.after (hostOps5 (F := Ideal)) W (Proc.devRef .tc main_v183) : FVec Ideal S1x128 .f32) = shapeCast S1x128 (sl2_2 (W (Proc.devRef .tc main_arg10))) shapeCasts_S128_S1x128 := by
  after_results_simp; rfl
/-- Layer 2's scale as a one-row matrix. -/
theorem host5_v184 : (StableHlo.after (hostOps5 (F := Ideal)) W (Proc.devRef .tc main_v184) : FVec Ideal S1x128 .f32) = shapeCast S1x128 (sl2_2 (W (Proc.devRef .tc main_arg11))) shapeCasts_S128_S1x128 := by
  after_results_simp; rfl
/-- Layer 2's shift as a one-row matrix. -/
theorem host5_v185 : (StableHlo.after (hostOps5 (F := Ideal)) W (Proc.devRef .tc main_v185) : FVec Ideal S1x128 .f32) = shapeCast S1x128 (sl2_2 (W (Proc.devRef .tc main_arg12))) shapeCasts_S128_S1x128 := by
  after_results_simp; rfl
/-- The result: the class rows on top of the node rows. -/
theorem host6_v187 : (StableHlo.after (hostOps6 (F := Ideal)) W (Proc.devRef .tc main_v187) : FVec Ideal S110000x128 .f32) = cat (W (Proc.devRef .tc main_v186)) (W (Proc.devRef .tc main_v174)) := by
  after_results_simp; rfl

end Cert.KernelIdeal.HG.Chain

end
-- ==== Proof.KHost2.lean ====
/-
  The host stretch before layer 1's node region of the kernel program as functions of the buffers it reads, from
  ANY contents W of the buffers before it: the two neighbourhood means of the node features (the in-degree columns
  are the first stretch's, read from their buffers), layer 1's slices of the stacked parameters (the two self
  weights summed, the two biases summed and laid out as a one-row matrix, the neighbour weights, the
  normalisation's scale and shift as one-row matrices).
-/
import proofs.«178392_j50105088475140_1_alg».proof.Proof.Gen.KernelIdeal.Launch
import proofs.«178392_j50105088475140_1_alg».proof.Proof.HostDefs
import Idealize.ShloMosaic.Lib.StableHlo.Run

set_option maxRecDepth 16384

noncomputable section

namespace Cert.KernelIdeal.HG.Chain

open Idealize.ShloMosaic Idealize.ShloMosaic.TcCoe Idealize.SL.Sem Cert.KernelIdeal Cert.KernelIdeal.Gen
open Idealize.ShloMosaic.StableHlo
open Cert.HG Cert.LibMlp

variable (W : Valuation τ sig (Elt Ideal))

/-- The first relation's neighbourhood sums over the stored in-degree column. -/
theorem host2_v92_raw : (StableHlo.after (hostOps2 (F := Ideal)) W (Proc.devRef .tc main_v92) : FVec Ideal S100000x128 .f32) = Host.divf (F := Ideal) (msgSum (W (Proc.devRef .tc main_v58)) (W (Proc.devRef .tc main_arg2)) (W (Proc.devRef .tc main_arg3))) (broadcastInDim S100000x128 ![0, 1] bcast_S100000x1_S100000x128_0_1 (W (Proc.devRef .tc main_v9))) := by
  after_results_simp; rfl
/-- The first relation's neighbourhood mean, once the stored column is the in-degree column of its targets. -/
theorem host2_v92 (h9 : (W (Proc.devRef .tc main_v9) : FVec Ideal S100000x1 .f32) = degCol (W (Proc.devRef .tc main_arg3))) :
    (StableHlo.after (hostOps2 (F := Ideal)) W (Proc.devRef .tc main_v92) : FVec Ideal S100000x128 .f32) = meanAgg (W (Proc.devRef .tc main_v58)) (W (Proc.devRef .tc main_arg2)) (W (Proc.devRef .tc main_arg3)) := by
  rw [host2_v92_raw, h9]; rfl
/-- The second relation's neighbourhood sums over the stored in-degree column. -/
theorem host2_v94_raw : (StableHlo.after (hostOps2 (F := Ideal)) W (Proc.devRef .tc main_v94) : FVec Ideal S100000x128 .f32) = Host.divf (F := Ideal) (msgSum (W (Proc.devRef .tc main_v58)) (W (Proc.devRef .tc main_arg4)) (W (Proc.devRef .tc main_arg5))) (broadcastInDim S100000x128 ![0, 1] bcast_S100000x1_S100000x128_0_1 (W (Proc.devRef .tc main_v12))) := by
  after_results_simp; rfl
/-- The second relation's neighbourhood mean, once the stored column is the in-degree column of its targets. -/
theorem host2_v94 (h12 : (W (Proc.devRef .tc main_v12) : FVec Ideal S100000x1 .f32) = degCol (W (Proc.devRef .tc main_arg5))) :
    (StableHlo.after (hostOps2 (F := Ideal)) W (Proc.devRef .tc main_v94) : FVec Ideal S100000x128 .f32) = meanAgg (W (Proc.devRef .tc main_v58)) (W (Proc.devRef .tc main_arg4)) (W (Proc.devRef .tc main_arg5)) := by
  rw [host2_v94_raw, h12]; rfl
/-- Layer 1's two self weights, summed. -/
theorem host2_v99 : (StableHlo.after (hostOps2 (F := Ideal)) W (Proc.devRef .tc main_v99) : FVec Ideal S128x128 .f32) = vadd (sl4_10 (W (Proc.devRef .tc main_arg6))) (sl4_11 (W (Proc.devRef .tc main_arg6))) := by
  after_results_simp; rfl
/-- Layer 1's first neighbour weight. -/
theorem host2_v106 : (StableHlo.after (hostOps2 (F := Ideal)) W (Proc.devRef .tc main_v106) : FVec Ideal S128x128 .f32) = sl4_10 (W (Proc.devRef .tc main_arg7)) := by
  after_results_simp; rfl
/-- Layer 1's second neighbour weight. -/
theorem host2_v108 : (StableHlo.after (hostOps2 (F := Ideal)) W (Proc.devRef .tc main_v108) : FVec Ideal S128x128 .f32) = sl4_11 (W (Proc.devRef .tc main_arg7)) := by
  after_results_simp; rfl
/-- Layer 1's two biases, summed, as a one-row matrix. -/
theorem host2_v113 : (StableHlo.after (hostOps2 (F := Ideal)) W (Proc.devRef .tc main_v113) : FVec Ideal S1x128 .f32) = shapeCast S1x128 (vadd (sl3_10 (W (Proc.devRef .tc main_arg8))) (sl3_11 (W (Proc.devRef .tc main_arg8)))) shapeCasts_S128_S1x128 := by
  after_results_simp; rfl
/-- Layer 1's scale as a one-row matrix. -/
theorem host2_v114 : (StableHlo.after (hostOps2 (F := Ideal)) W (Proc.devRef .tc main_v114) : FVec Ideal S1x128 .f32) = shapeCast S1x128 (sl2_1 (W (Proc.devRef .tc main_arg11))) shapeCasts_S128_S1x128 := by
  after_results_simp; rfl
/-- Layer 1's shift as a one-row matrix. -/
theorem host2_v115 : (StableHlo.after (hostOps2 (F := Ideal)) W (Proc.devRef .tc main_v115) : FVec Ideal S1x128 .f32) = shapeCast S1x128 (sl2_1 (W (Proc.devRef .tc main_arg12))) shapeCasts_S128_S1x128 := by
  after_results_simp; rfl

end Cert.KernelIdeal.HG.Chain

end
-- ==== Proof.KHost4.lean ====
/-
  The host stretch before layer 2's node region of the kernel program as functions of the buffers it reads, from
  ANY contents W of the buffers before it: the two neighbourhood means of the node features (the in-degree columns
  are the first stretch's, read from their buffers), layer 2's slices of the stacked parameters (the two self
  weights summed, the two biases summed and laid out as a one-row matrix, the neighbour weights, the
  normalisation's scale and shift as one-row matrices).
-/
import proofs.«178392_j50105088475140_1_alg».proof.Proof.Gen.KernelIdeal.Launch
import proofs.«178392_j50105088475140_1_alg».proof.Proof.HostDefs
import Idealize.ShloMosaic.Lib.StableHlo.Run

set_option maxRecDepth 16384

noncomputable section

namespace Cert.KernelIdeal.HG.Chain

open Idealize.ShloMosaic Idealize.ShloMosaic.TcCoe Idealize.SL.Sem Cert.KernelIdeal Cert.KernelIdeal.Gen
open Idealize.ShloMosaic.StableHlo
open Cert.HG Cert.LibMlp

variable (W : Valuation τ sig (Elt Ideal))

/-- The first relation's neighbourhood sums over the stored in-degree column. -/
theorem host4_v150_raw : (StableHlo.after (hostOps4 (F := Ideal)) W (Proc.devRef .tc main_v150) : FVec Ideal S100000x128 .f32) = Host.divf (F := Ideal) (msgSum (W (Proc.devRef .tc main_v116)) (W (Proc.devRef .tc main_arg2)) (W (Proc.devRef .tc main_arg3))) (broadcastInDim S100000x128 ![0, 1] bcast_S100000x1_S100000x128_0_1 (W (Proc.devRef .tc main_v9))) := by
  after_results_simp; rfl
/-- The first relation's neighbourhood mean, once the stored column is the in-degree column of its targets. -/
theorem host4_v150 (h9 : (W (Proc.devRef .tc main_v9) : FVec Ideal S100000x1 .f32) = degCol (W (Proc.devRef .tc main_arg3))) :
    (StableHlo.after (hostOps4 (F := Ideal)) W (Proc.devRef .tc main_v150) : FVec Ideal S100000x128 .f32) = meanAgg (W (Proc.devRef .tc main_v116)) (W (Proc.devRef .tc main_arg2)) (W (Proc.devRef .tc main_arg3)) := by
  rw [host4_v150_raw, h9]; rfl
/-- The second relation's neighbourhood sums over the stored in-degree column. -/
theorem host4_v152_raw : (StableHlo.after (hostOps4 (F := Ideal)) W (Proc.devRef .tc main_v152) : FVec Ideal S100000x128 .f32) = Host.divf (F := Ideal) (msgSum (W (Proc.devRef .tc main_v116)) (W (Proc.devRef .tc main_arg4)) (W (Proc.devRef .tc main_arg5))) (broadcastInDim S100000x128 ![0, 1] bcast_S100000x1_S100000x128_0_1 (W (Proc.devRef .tc main_v12))) := by
  after_results_simp; rfl
/-- The second relation's neighbourhood mean, once the stored column is the in-degree column of its targets. -/
theorem host4_v152 (h12 : (W (Proc.devRef .tc main_v12) : FVec Ideal S100000x1 .f32) = degCol (W (Proc.devRef .tc main_arg5))) :
    (StableHlo.after (hostOps4 (F := Ideal)) W (Proc.devRef .tc main_v152) : FVec Ideal S100000x128 .f32) = meanAgg (W (Proc.devRef .tc main_v116)) (W (Proc.devRef .tc main_arg4)) (W (Proc.devRef .tc main_arg5)) := by
  rw [host4_v152_raw, h12]; rfl
/-- Layer 2's two self weights, summed. -/
theorem host4_v157 : (StableHlo.after (hostOps4 (F := Ideal)) W (Proc.devRef .tc main_v157) : FVec Ideal S128x128 .f32) = vadd (sl4_20 (W (Proc.devRef .tc main_arg6))) (sl4_21 (W (Proc.devRef .tc main_arg6))) := by
  after_results_simp; rfl
/-- Layer 2's first neighbour weight. -/
theorem host4_v164 : (StableHlo.after (hostOps4 (F := Ideal)) W (Proc.devRef .tc main_v164) : FVec Ideal S128x128 .f32) = sl4_20 (W (Proc.devRef .tc main_arg7)) := by
  after_results_simp; rfl
/-- Layer 2's second neighbour weight. -/
theorem host4_v166 : (StableHlo.after (hostOps4 (F := Ideal)) W (Proc.devRef .tc main_v166) : FVec Ideal S128x128 .f32) = sl4_21 (W (Proc.devRef .tc main_arg7)) := by
  after_results_simp; rfl
/-- Layer 2's two biases, summed, as a one-row matrix. -/
theorem host4_v171 : (StableHlo.after (hostOps4 (F := Ideal)) W (Proc.devRef .tc main_v171) : FVec Ideal S1x128 .f32) = shapeCast S1x128 (vadd (sl3_20 (W (Proc.devRef .tc main_arg8))) (sl3_21 (W (Proc.devRef .tc main_arg8)))) shapeCasts_S128_S1x128 := by
  after_results_simp; rfl
/-- Layer 2's scale as a one-row matrix. -/
theorem host4_v172 : (StableHlo.after (hostOps4 (F := Ideal)) W (Proc.devRef .tc main_v172) : FVec Ideal S1x128 .f32) = shapeCast S1x128 (sl2_2 (W (Proc.devRef .tc main_arg11))) shapeCasts_S128_S1x128 := by
  after_results_simp; rfl
/-- Layer 2's shift as a one-row matrix. -/
theorem host4_v173 : (StableHlo.after (hostOps4 (F := Ideal)) W (Proc.devRef .tc main_v173) : FVec Ideal S1x128 .f32) = shapeCast S1x128 (sl2_2 (W (Proc.devRef .tc main_arg12))) shapeCasts_S128_S1x128 := by
  after_results_simp; rfl

end Cert.KernelIdeal.HG.Chain

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KBodyLN.lean ====
/-
  The arithmetic of one block of rows, as whole arrays of extended reals.  A sum over axis 1 from the zero
  accumulator, laid out as one column and divided by a splat of 128, is the column of row averages (`avgCol`);
  the array minus that column repeated across the row is the centred array; the centred array times the column of
  inverse square roots of (average squared deviation + ε) repeated across the row, times a one-row scale repeated
  down the rows, plus a one-row shift repeated down the rows, is the row-wise normalisation `ln`.  Three matrix
  products into zero accumulators (operands narrowed to bf16, the identity here) summed, plus a one-row bias repeated
  down the rows, are the pre-activations `hcK`.
-/
import proofs.«178392_j50105088475140_1_alg».proof.Proof.Spec
import proofs.«178392_j50105088475140_1_alg».proof.Proof.LibRowOps

noncomputable section

open scoped BigOperators

namespace Cert.KernelIdeal.HG.Body

open Idealize.ShloMosaic Idealize.ShloMosaic.ValueIdx Cert.HG Cert.LibMlp Cert.LibMatmul Cert.LibRowOps

/-- Two zero offsets, spelt as the constant function. -/
theorem hz : (![0, 0] : Fin 2 → Nat) = fun _ => 0 := funext fun a => by fin_cases a <;> rfl

/-- A length-a array cast to one column reads, at (p, u), its entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The column of row averages of an array with 128 columns. -/
def avgCol {R : ℕ} (w : Mat R 128) : Mat R 1 := fun i => Ideal.div (∑ k : Fin 128, w (ix2 (i 0) k)) C128

theorem avgCol_mean {R : ℕ} (v : Mat R 128) (i : (⟨2, ![R, 1]⟩ : Shape).Idx) : avgCol v i = rowMean v (i 0) := rfl

/-- Row sums on the vector unit, laid out as a column, divided by a splat of 128. -/
theorem avgCol_eq {R : ℕ} (w : FVec Ideal ⟨2, ![R, 128]⟩ .f32) (hr : (⟨2, ![R, 128]⟩ : Shape).Reduces [1] ⟨1, ![R]⟩)
    (hφ : FTy.f32 = FTy.f32 ∨ FTy.f32 = FTy.bf16) (hacc : (0x00000000#32 : BitVec 32) = 0x00000000#32)
    (hs : (⟨1, ![R]⟩ : Shape).ShapeCasts ⟨2, ![R, 1]⟩) :
    divf (shapeCast ⟨2, ![R, 1]⟩ (multiReduction .add [1] ⟨1, ![R]⟩ w 0x00000000#32 hr hφ hacc) hs)
        (broadcast ⟨2, ![R, 1]⟩ (Scalar.ofBits (F := Ideal) .f32 0x43000000#32))
      = avgCol w := by
  rw [rowsum w hr hφ hacc]
  funext i
  obtain ⟨p, u, rfl⟩ : ∃ (p : Fin R) (u : Fin 1), i = ix2 p u := ⟨i 0, i 1, eq_ix2 i⟩
  show Ideal.div (shapeCast ⟨2, ![R, 1]⟩ (fun j : (⟨1, ![R]⟩ : Shape).Idx => ∑ k : Fin 128, w (ix2 (j 0) k)) hs (ix2 p u)) C128 = _
  rw [shapeCast_a_a1_apply]
  rfl

/-- The array minus its column of row averages repeated across the row. -/
theorem centre_eq {R : ℕ} (v : FVec Ideal ⟨2, ![R, 128]⟩ .f32) (hb : (⟨2, ![R, 1]⟩ : Shape).Broadcasts ⟨2, ![R, 128]⟩) :
    subf (F := Ideal) (φ := .f32) v (broadcastTo ⟨2, ![R, 128]⟩ (avgCol v) hb) = centred v := by
  rw [col_bcast (avgCol v) hb]
  rfl

/-- The centred array, scaled row by row by the inverse square root of its average square plus ε, then column by
    column by a one-row scale, then shifted by a one-row shift. -/
theorem norm_eq {R : ℕ} (v : FVec Ideal ⟨2, ![R, 128]⟩ .f32) (g β : FVec Ideal ⟨2, ![1, 128]⟩ .f32)
    (hb1 : (⟨2, ![R, 1]⟩ : Shape).Broadcasts ⟨2, ![R, 128]⟩) (hb2 : (⟨2, ![1, 128]⟩ : Shape).Broadcasts ⟨2, ![R, 128]⟩) :
    addf (F := Ideal) (φ := .f32) (mulf (mulf (centred v) (broadcastTo ⟨2, ![R, 128]⟩
        (rsqrt (F := Ideal) (φ := .f32) (addf (F := Ideal) (φ := .f32) (avgCol (mulf (F := Ideal) (φ := .f32) (centred v) (centred v))) (broadcast ⟨2, ![R, 1]⟩ (Scalar.ofBits (F := Ideal) .f32 0x3727C5AC#32)))) hb1))
        (broadcastTo ⟨2, ![R, 128]⟩ g hb2)) (broadcastTo ⟨2, ![R, 128]⟩ β hb2)
      = ln v (rowOf g) (rowOf β) := by
  funext i
  obtain ⟨p, q, rfl⟩ : ∃ (p : Fin R) (q : Fin 128), i = ix2 p q := ⟨i 0, i 1, eq_ix2 i⟩
  show (centred v (ix2 p q) * broadcastTo ⟨2, ![R, 128]⟩
        (rsqrt (F := Ideal) (φ := .f32) (addf (F := Ideal) (φ := .f32) (avgCol (mulf (F := Ideal) (φ := .f32) (centred v) (centred v))) (broadcast ⟨2, ![R, 1]⟩ (Scalar.ofBits (F := Ideal) .f32 0x3727C5AC#32)))) hb1 (ix2 p q))
      * broadcastTo ⟨2, ![R, 128]⟩ g hb2 (ix2 p q) + broadcastTo ⟨2, ![R, 128]⟩ β hb2 (ix2 p q) = _
  rw [broadcastTo_1b_ab_apply g hb2 p q, broadcastTo_1b_ab_apply β hb2 p q, col_bcast_apply _ hb1 p q]
  rfl

section Dot
variable {R : ℕ} (d : DotDims ⟨2, ![R, 128]⟩ ⟨2, ![128, 128]⟩ ⟨2, ![R, 128]⟩)
  (hlb : d.lhsBatch = []) (hln : d.lhsNonContracting = [0]) (hlc : d.lhsContracting = [1])
  (hrb : d.rhsBatch = []) (hrn : d.rhsNonContracting = [1]) (hrc : d.rhsContracting = [0])

include hlb hln hlc hrb hrn hrc in
/-- Three products on the matrix unit into zero accumulators, summed, plus a one-row bias repeated down the rows. -/
theorem kernel_hcK (h m0 m1 : FVec Ideal ⟨2, ![R, 128]⟩ .f32) (ws wn0 wn1 : FVec Ideal ⟨2, ![128, 128]⟩ .f32)
    (br : FVec Ideal ⟨2, ![1, 128]⟩ .f32) (hlt : FTy.bf16.bits < FTy.f32.bits)
    (hb : (⟨2, ![1, 128]⟩ : Shape).Broadcasts ⟨2, ![R, 128]⟩) :
    addf (addf (addf
        (matmul d none (truncf .bf16 h hlt) (truncf .bf16 ws hlt) (constant ⟨2, ![R, 128]⟩ .f32 0x00000000#32))
        (matmul d none (truncf .bf16 m0 hlt) (truncf .bf16 wn0 hlt) (constant ⟨2, ![R, 128]⟩ .f32 0x00000000#32)))
        (matmul d none (truncf .bf16 m1 hlt) (truncf .bf16 wn1 hlt) (constant ⟨2, ![R, 128]⟩ .f32 0x00000000#32)))
      (broadcastTo ⟨2, ![R, 128]⟩ br hb) = hcK h m0 m1 ws wn0 wn1 (rowOf br) := by
  funext i
  obtain ⟨p, q, rfl⟩ : ∃ (p : Fin R) (q : Fin 128), i = ix2 p q := ⟨i 0, i 1, eq_ix2 i⟩
  show ((FloatOps.matmul d none (truncf .bf16 h hlt) (truncf .bf16 ws hlt) (constant ⟨2, ![R, 128]⟩ .f32 0x00000000#32) (ix2 p q)
        + FloatOps.matmul d none (truncf .bf16 m0 hlt) (truncf .bf16 wn0 hlt) (constant ⟨2, ![R, 128]⟩ .f32 0x00000000#32) (ix2 p q))
        + FloatOps.matmul d none (truncf .bf16 m1 hlt) (truncf .bf16 wn1 hlt) (constant ⟨2, ![R, 128]⟩ .f32 0x00000000#32) (ix2 p q))
      + broadcastTo ⟨2, ![R, 128]⟩ br hb (ix2 p q) = _
  rw [matmul_zero_eq d hlb hln hlc hrb hrn hrc none (truncf .bf16 h hlt) (truncf .bf16 ws hlt),
    matmul_zero_eq d hlb hln hlc hrb hrn hrc none (truncf .bf16 m0 hlt) (truncf .bf16 wn0 hlt),
    matmul_zero_eq d hlb hln hlc hrb hrn hrc none (truncf .bf16 m1 hlt) (truncf .bf16 wn1 hlt),
    broadcastTo_1b_ab_apply br hb p q]
  rfl

end Dot

end Cert.KernelIdeal.HG.Body

end
-- ==== Proof.KBodyH.lean ====
/-
  The graph branch's kernel body on one block of 5000 rows, as a function of the blocks it loads: three matrix
  products on the matrix unit (operands narrowed to bf16, the identity on extended reals) summed, a one-row bias
  repeated down the rows, each row normalised (row sums on the vector unit, divided by 128; the deviations squared,
  summed and divided by 128; the inverse square root of the variance plus ε), scaled, shifted, and in the first two
  layers clipped below at zero.

  The body loads and stores whole staging buffers, so what it leaves is its last payload of the loaded blocks.  Each
  payload is identified with a function of the specification as a whole array: the pre-activations `hcK`, their
  column of row means, the centred array (in the first layer) or the column of means repeated across the row (in the
  other two), and from these the normalisation `ln`.
-/
import proofs.«178392_j50105088475140_1_alg».proof.Proof.Gen.KernelIdeal.Frame
import proofs.«178392_j50105088475140_1_alg».proof.Proof.Spec
import proofs.«178392_j50105088475140_1_alg».proof.Proof.KBodyLN

noncomputable section

namespace Cert.KernelIdeal.HG

open Idealize.ShloMosaic Cert.KernelIdeal Cert.KernelIdeal.Gen Cert.HG Cert.LibMlp

namespace Body

/-! ### Region 0 -/

theorem k0_pay2_eq (x0 x1 x2 : Vec Ideal S5000x128 .f32) (x3 x4 x5 : Vec Ideal S128x128 .f32) (x6 : Vec Ideal S1x128 .f32) :
    k0_pay2 (F := Ideal) x0 x1 x2 x3 x4 x5 x6 = hcK x0 x1 x2 x3 x4 x5 (rowOf x6) := by
  unfold k0_pay2
  simp only [shapeCast_self]
  exact kernel_hcK _ rfl rfl rfl rfl rfl rfl x0 x1 x2 x3 x4 x5 x6 _ _

theorem k0_pay3_eq (x : Vec Ideal S1x128 .f32) : k0_pay3 (F := Ideal) x = x := shapeCast_self x _

theorem k0_pay4_eq (x : Vec Ideal S1x128 .f32) : k0_pay4 (F := Ideal) x = x := shapeCast_self x _

theorem k0_pay5_eq (x0 x1 x2 : Vec Ideal S5000x128 .f32) (x3 x4 x5 : Vec Ideal S128x128 .f32) (x6 : Vec Ideal S1x128 .f32) :
    k0_pay5 (F := Ideal) x0 x1 x2 x3 x4 x5 x6 = avgCol (hcK x0 x1 x2 x3 x4 x5 (rowOf x6)) := by
  unfold k0_pay5
  rw [k0_pay2_eq]
  exact avgCol_eq _ _ _ _ _

theorem k0_pay6_eq (x0 x1 x2 : Vec Ideal S5000x128 .f32) (x3 x4 x5 : Vec Ideal S128x128 .f32) (x6 : Vec Ideal S1x128 .f32) :
    k0_pay6 (F := Ideal) x0 x1 x2 x3 x4 x5 x6 = centred (hcK x0 x1 x2 x3 x4 x5 (rowOf x6)) := by
  unfold k0_pay6
  rw [k0_pay5_eq, k0_pay2_eq]
  exact centre_eq _ _

theorem k0_pay1_eq (v : FVec Ideal S5000x128 .f32) (g β : FVec Ideal S1x128 .f32) :
    k0_pay1 (F := Ideal) v g β (avgCol v) (centred v) = relu (ln v (rowOf g) (rowOf β)) := by
  simp only [k0_pay1]
  rw [avgCol_eq (mulf (F := Ideal) (φ := .f32) (centred v) (centred v)), centre_eq v, norm_eq v g β]
  exact kernel_relu _

/-! ### Region 2 -/

theorem k2_pay2_eq (x0 x1 x2 : Vec Ideal S5000x128 .f32) (x3 x4 x5 : Vec Ideal S128x128 .f32) (x6 : Vec Ideal S1x128 .f32) :
    k2_pay2 (F := Ideal) x0 x1 x2 x3 x4 x5 x6 = hcK x0 x1 x2 x3 x4 x5 (rowOf x6) := by
  unfold k2_pay2
  simp only [shapeCast_self]
  exact kernel_hcK _ rfl rfl rfl rfl rfl rfl x0 x1 x2 x3 x4 x5 x6 _ _

theorem k2_pay3_eq (x : Vec Ideal S1x128 .f32) : k2_pay3 (F := Ideal) x = x := shapeCast_self x _

theorem k2_pay4_eq (x : Vec Ideal S1x128 .f32) : k2_pay4 (F := Ideal) x = x := shapeCast_self x _

theorem k2_pay5_eq (x0 x1 x2 : Vec Ideal S5000x128 .f32) (x3 x4 x5 : Vec Ideal S128x128 .f32) (x6 : Vec Ideal S1x128 .f32) :
    k2_pay5 (F := Ideal) x0 x1 x2 x3 x4 x5 x6 = avgCol (hcK x0 x1 x2 x3 x4 x5 (rowOf x6)) := by
  unfold k2_pay5
  rw [k2_pay2_eq]
  exact avgCol_eq _ _ _ _ _

theorem k2_pay6_eq (x0 x1 x2 : Vec Ideal S5000x128 .f32) (x3 x4 x5 : Vec Ideal S128x128 .f32) (x6 : Vec Ideal S1x128 .f32) :
    k2_pay6 (F := Ideal) x0 x1 x2 x3 x4 x5 x6 = broadcastTo S5000x128 (avgCol (hcK x0 x1 x2 x3 x4 x5 (rowOf x6))) Facts₀.broadcasts_S5000x1_S5000x128 := by
  unfold k2_pay6
  rw [k2_pay5_eq]

theorem k2_pay1_eq (v : FVec Ideal S5000x128 .f32) (g β : FVec Ideal S1x128 .f32) :
    k2_pay1 (F := Ideal) v g β (avgCol v) (broadcastTo S5000x128 (avgCol v) Facts₀.broadcasts_S5000x1_S5000x128)
      = relu (ln v (rowOf g) (rowOf β)) := by
  simp only [k2_pay1]
  rw [centre_eq v, avgCol_eq (mulf (F := Ideal) (φ := .f32) (centred v) (centred v)), norm_eq v g β]
  exact kernel_relu _

/-! ### Region 4 -/

theorem k4_pay2_eq (x0 x1 x2 : Vec Ideal S5000x128 .f32) (x3 x4 x5 : Vec Ideal S128x128 .f32) (x6 : Vec Ideal S1x128 .f32) :
    k4_pay2 (F := Ideal) x0 x1 x2 x3 x4 x5 x6 = hcK x0 x1 x2 x3 x4 x5 (rowOf x6) := by
  unfold k4_pay2
  simp only [shapeCast_self]
  exact kernel_hcK _ rfl rfl rfl rfl rfl rfl x0 x1 x2 x3 x4 x5 x6 _ _

theorem k4_pay3_eq (x : Vec Ideal S1x128 .f32) : k4_pay3 (F := Ideal) x = x := shapeCast_self x _

theorem k4_pay4_eq (x : Vec Ideal S1x128 .f32) : k4_pay4 (F := Ideal) x = x := shapeCast_self x _

theorem k4_pay5_eq (x0 x1 x2 : Vec Ideal S5000x128 .f32) (x3 x4 x5 : Vec Ideal S128x128 .f32) (x6 : Vec Ideal S1x128 .f32) :
    k4_pay5 (F := Ideal) x0 x1 x2 x3 x4 x5 x6 = avgCol (hcK x0 x1 x2 x3 x4 x5 (rowOf x6)) := by
  unfold k4_pay5
  rw [k4_pay2_eq]
  exact avgCol_eq _ _ _ _ _

theorem k4_pay6_eq (x0 x1 x2 : Vec Ideal S5000x128 .f32) (x3 x4 x5 : Vec Ideal S128x128 .f32) (x6 : Vec Ideal S1x128 .f32) :
    k4_pay6 (F := Ideal) x0 x1 x2 x3 x4 x5 x6 = broadcastTo S5000x128 (avgCol (hcK x0 x1 x2 x3 x4 x5 (rowOf x6))) Facts₀.broadcasts_S5000x1_S5000x128 := by
  unfold k4_pay6
  rw [k4_pay5_eq]

theorem k4_pay1_eq (v : FVec Ideal S5000x128 .f32) (g β : FVec Ideal S1x128 .f32) :
    k4_pay1 (F := Ideal) v g β (avgCol v) (broadcastTo S5000x128 (avgCol v) Facts₀.broadcasts_S5000x1_S5000x128)
      = ln v (rowOf g) (rowOf β) := by
  simp only [k4_pay1]
  rw [centre_eq v, avgCol_eq (mulf (F := Ideal) (φ := .f32) (centred v) (centred v)), norm_eq v g β]

end Body

variable (x0 x1 x2 : Vec Ideal S5000x128 .f32) (x3 x4 x5 : Vec Ideal S128x128 .f32) (x6 x7 x8 : Vec Ideal S1x128 .f32)

theorem out0_9_eq : Gen.out0_9 (F := Ideal) x0 x1 x2 x3 x4 x5 x6 x7 x8
    = relu (ln (hcK x0 x1 x2 x3 x4 x5 (rowOf x6)) (rowOf x7) (rowOf x8)) := by
  unfold Gen.out0_9
  rw [View.canon_unit_zero Body.hz]
  simp only [View.ld_unit_zero (S := S5000x128) Body.hz, View.ld_unit_zero (S := S128x128) Body.hz,
    View.ld_unit_zero (S := S1x128) Body.hz]
  rw [Body.k0_pay2_eq, Body.k0_pay3_eq, Body.k0_pay4_eq, Body.k0_pay5_eq, Body.k0_pay6_eq]
  exact Body.k0_pay1_eq _ _ _

theorem out2_9_eq : Gen.out2_9 (F := Ideal) x0 x1 x2 x3 x4 x5 x6 x7 x8
    = relu (ln (hcK x0 x1 x2 x3 x4 x5 (rowOf x6)) (rowOf x7) (rowOf x8)) := by
  unfold Gen.out2_9
  rw [View.canon_unit_zero Body.hz]
  simp only [View.ld_unit_zero (S := S5000x128) Body.hz, View.ld_unit_zero (S := S128x128) Body.hz,
    View.ld_unit_zero (S := S1x128) Body.hz]
  rw [Body.k2_pay2_eq, Body.k2_pay3_eq, Body.k2_pay4_eq, Body.k2_pay5_eq, Body.k2_pay6_eq]
  exact Body.k2_pay1_eq _ _ _

theorem out4_9_eq : Gen.out4_9 (F := Ideal) x0 x1 x2 x3 x4 x5 x6 x7 x8
    = ln (hcK x0 x1 x2 x3 x4 x5 (rowOf x6)) (rowOf x7) (rowOf x8) := by
  unfold Gen.out4_9
  rw [View.canon_unit_zero Body.hz]
  simp only [View.ld_unit_zero (S := S5000x128) Body.hz, View.ld_unit_zero (S := S128x128) Body.hz,
    View.ld_unit_zero (S := S1x128) Body.hz]
  rw [Body.k4_pay2_eq, Body.k4_pay3_eq, Body.k4_pay4_eq, Body.k4_pay5_eq, Body.k4_pay6_eq]
  exact Body.k4_pay1_eq _ _ _

end Cert.KernelIdeal.HG

end
-- ==== Proof.KBodyPC.lean ====
/-
  The class branch's kernel body on one block of 5000 rows, as a function of the blocks it loads: one matrix
  product on the matrix unit (operands narrowed to bf16, the identity on extended reals), a one-row bias repeated
  down the rows, each row normalised, scaled, shifted, and in the first two layers clipped below at zero.

  The body loads and stores whole staging buffers, so what it leaves is its one payload of the loaded blocks.  In the
  payload the affine layer `lin` is recognised first; its column of row means, the centred array, the column of
  average squared deviations and the normalisation `ln` follow as whole arrays.
-/
import proofs.«178392_j50105088475140_1_alg».proof.Proof.Gen.KernelIdeal.Frame
import proofs.«178392_j50105088475140_1_alg».proof.Proof.Spec
import proofs.«178392_j50105088475140_1_alg».proof.Proof.KBodyLN

noncomputable section

namespace Cert.KernelIdeal.HG

open Idealize.ShloMosaic Cert.KernelIdeal Cert.KernelIdeal.Gen Cert.HG Cert.LibMlp

namespace Body

/-- Region 1's one payload: the affine layer, its rows normalised, clipped below at zero. -/
theorem k1_pay1_eq (x0 : Vec Ideal S5000x128 .f32) (x1 : Vec Ideal S128x128 .f32) (x2 x3 x4 : Vec Ideal S1x128 .f32) :
    k1_pay1 (F := Ideal) x0 x1 x2 x3 x4 = relu (ln (lin x0 x1 (rowOf x2)) (rowOf x3) (rowOf x4)) := by
  simp only [k1_pay1, shapeCast_self]
  rw [kernel_lin _ rfl rfl rfl rfl rfl rfl x0 x1 x2]
  rw [avgCol_eq (lin x0 x1 (rowOf x2)), centre_eq (lin x0 x1 (rowOf x2)),
    avgCol_eq (mulf (F := Ideal) (φ := .f32) (centred (lin x0 x1 (rowOf x2))) (centred (lin x0 x1 (rowOf x2)))), norm_eq (lin x0 x1 (rowOf x2)) x3 x4]
  exact kernel_relu _

/-- Region 3's one payload: the affine layer, its rows normalised, clipped below at zero. -/
theorem k3_pay1_eq (x0 : Vec Ideal S5000x128 .f32) (x1 : Vec Ideal S128x128 .f32) (x2 x3 x4 : Vec Ideal S1x128 .f32) :
    k3_pay1 (F := Ideal) x0 x1 x2 x3 x4 = relu (ln (lin x0 x1 (rowOf x2)) (rowOf x3) (rowOf x4)) := by
  simp only [k3_pay1, shapeCast_self]
  rw [kernel_lin _ rfl rfl rfl rfl rfl rfl x0 x1 x2]
  rw [avgCol_eq (lin x0 x1 (rowOf x2)), centre_eq (lin x0 x1 (rowOf x2)),
    avgCol_eq (mulf (F := Ideal) (φ := .f32) (centred (lin x0 x1 (rowOf x2))) (centred (lin x0 x1 (rowOf x2)))), norm_eq (lin x0 x1 (rowOf x2)) x3 x4]
  exact kernel_relu _

/-- Region 5's one payload: the affine layer, its rows normalised. -/
theorem k5_pay1_eq (x0 : Vec Ideal S5000x128 .f32) (x1 : Vec Ideal S128x128 .f32) (x2 x3 x4 : Vec Ideal S1x128 .f32) :
    k5_pay1 (F := Ideal) x0 x1 x2 x3 x4 = ln (lin x0 x1 (rowOf x2)) (rowOf x3) (rowOf x4) := by
  simp only [k5_pay1, shapeCast_self]
  rw [kernel_lin _ rfl rfl rfl rfl rfl rfl x0 x1 x2]
  rw [avgCol_eq (lin x0 x1 (rowOf x2)), centre_eq (lin x0 x1 (rowOf x2)),
    avgCol_eq (mulf (F := Ideal) (φ := .f32) (centred (lin x0 x1 (rowOf x2))) (centred (lin x0 x1 (rowOf x2)))), norm_eq (lin x0 x1 (rowOf x2)) x3 x4]

end Body

variable (x0 : Vec Ideal S5000x128 .f32) (x1 : Vec Ideal S128x128 .f32) (x2 x3 x4 : Vec Ideal S1x128 .f32)

theorem out1_5_eq : Gen.out1_5 (F := Ideal) x0 x1 x2 x3 x4
    = relu (ln (lin x0 x1 (rowOf x2)) (rowOf x3) (rowOf x4)) := by
  unfold Gen.out1_5
  rw [View.canon_unit_zero Body.hz]
  simp only [View.ld_unit_zero (S := S5000x128) Body.hz, View.ld_unit_zero (S := S128x128) Body.hz,
    View.ld_unit_zero (S := S1x128) Body.hz]
  exact Body.k1_pay1_eq _ _ _ _ _

theorem out3_5_eq : Gen.out3_5 (F := Ideal) x0 x1 x2 x3 x4
    = relu (ln (lin x0 x1 (rowOf x2)) (rowOf x3) (rowOf x4)) := by
  unfold Gen.out3_5
  rw [View.canon_unit_zero Body.hz]
  simp only [View.ld_unit_zero (S := S5000x128) Body.hz, View.ld_unit_zero (S := S128x128) Body.hz,
    View.ld_unit_zero (S := S1x128) Body.hz]
  exact Body.k3_pay1_eq _ _ _ _ _

theorem out5_5_eq : Gen.out5_5 (F := Ideal) x0 x1 x2 x3 x4
    = ln (lin x0 x1 (rowOf x2)) (rowOf x3) (rowOf x4) := by
  unfold Gen.out5_5
  rw [View.canon_unit_zero Body.hz]
  simp only [View.ld_unit_zero (S := S5000x128) Body.hz, View.ld_unit_zero (S := S128x128) Body.hz,
    View.ld_unit_zero (S := S1x128) Body.hz]
  exact Body.k5_pay1_eq _ _ _ _ _

end Cert.KernelIdeal.HG

end
-- ==== Proof.Consts.lean ====
/-
  The float words the two programs spell, as the extended reals they denote: +0.0 is 0, 128.0 is the real 128, and
  the normalisation's ε (the word nearest to 1e-5) is the positive real 10995116 / 2^40.
-/
import Idealize.ShloMosaic.PureOps.Ideal

noncomputable section

namespace Cert.HG.Consts

open Idealize.ShloMosaic

/-- The zero word denotes 0. -/
theorem ofBits_zero : Ideal.ofBits .f32 0x00000000#32 = 0 := by
  simp [Ideal.ofBits, Ideal.ieee]

/-- The word of 128.0 denotes the real 128. -/
theorem ofBits_128 : Ideal.ofBits .f32 0x43000000#32 = ((128 : ℝ) : EReal) := by
  simp [Ideal.ofBits, Ideal.ieee, -EReal.coe_mul]; norm_num

/-- The word of ε denotes a positive real. -/
theorem ofBits_eps : Ideal.ofBits .f32 0x3727C5AC#32 = (((10995116 : ℝ) / 2 ^ 40 : ℝ) : EReal) := by
  simp [Ideal.ofBits, Ideal.ieee, -EReal.coe_mul]; norm_num

end Cert.HG.Consts

end
-- ==== Proof.SpecLaws.lean ====
/-
  Laws of the layer's row-wise functions.

  * Row independence: entry (r, q) of a matrix product, of the pre-activations and of the normalised rows depends on
    row r of the operands only, so two arrays (of any numbers of rows) that agree on a row give the same entries
    there.  This is what lets a computation tiled by blocks of rows be read as one function of the whole array.
  * The distributive law that joins the two arrangements of the pre-activations: for real h, Ws0, Ws1,
        sum_k h(r,k) (Ws0(k,q) + Ws1(k,q)) = sum_k h(r,k) Ws0(k,q) + sum_k h(r,k) Ws1(k,q),
    and the rest is commutativity and associativity of the sum.  On the extended reals x (a + b) = x a + x b needs
    the three numbers real (it fails for x < 0, a = +inf, b = -inf), which is why the data are kept real.
  * Realness: every function here maps real arrays to real arrays.  For the normalisation the variance is a
    nonnegative real (a sum of squares over 128) and ε a positive real, so the inverse square root is taken of a
    positive real.
-/
import proofs.«178392_j50105088475140_1_alg».proof.Proof.Spec
import proofs.«178392_j50105088475140_1_alg».proof.Proof.Consts

noncomputable section

open scoped BigOperators

namespace Cert.HG

open Idealize.ShloMosaic Idealize.ShloMosaic.ValueIdx Cert.LibMatmul Cert.LibMlp Cert.LibReal

/-! ## Row independence -/

theorem MM_row {R R' K B : Nat} (x : (⟨2, ![R, K]⟩ : Shape).Idx → EReal) (x' : (⟨2, ![R', K]⟩ : Shape).Idx → EReal)
    (w : (⟨2, ![K, B]⟩ : Shape).Idx → EReal) (r : Fin R) (p : Fin R') (q : Fin B)
    (e : ∀ k : Fin K, x (ix2 r k) = x' (ix2 p k)) : MM x w (ix2 r q) = MM x' w (ix2 p q) := by
  rw [MM_apply, MM_apply]
  exact Finset.sum_congr rfl fun k _ => by rw [e k]

theorem rowMean_row {R R' : Nat} (v : Mat R 128) (v' : Mat R' 128) (r : Fin R) (p : Fin R')
    (e : ∀ k : Fin 128, v (ix2 r k) = v' (ix2 p k)) : rowMean v r = rowMean v' p := by
  unfold rowMean
  exact congrArg (fun s => Ideal.div s C128) (Finset.sum_congr rfl fun k _ => e k)

theorem centred_row {R R' : Nat} (v : Mat R 128) (v' : Mat R' 128) (r : Fin R) (p : Fin R')
    (e : ∀ k : Fin 128, v (ix2 r k) = v' (ix2 p k)) (q : Fin 128) : centred v (ix2 r q) = centred v' (ix2 p q) := by
  show v (ix2 r q) - rowMean v r = v' (ix2 p q) - rowMean v' p
  rw [e q, rowMean_row v v' r p e]

theorem rowVar_row {R R' : Nat} (v : Mat R 128) (v' : Mat R' 128) (r : Fin R) (p : Fin R')
    (e : ∀ k : Fin 128, v (ix2 r k) = v' (ix2 p k)) : rowVar v r = rowVar v' p := by
  unfold rowVar
  exact congrArg (fun s => Ideal.div s C128) (Finset.sum_congr rfl fun k _ => by rw [centred_row v v' r p e k])

/-- Entry (r, q) of the normalised matrix reads row r only. -/
theorem ln_row {R R' : Nat} (v : Mat R 128) (v' : Mat R' 128) (g β : Vc 128) (r : Fin R) (p : Fin R') (q : Fin 128)
    (e : ∀ k : Fin 128, v (ix2 r k) = v' (ix2 p k)) : ln v g β (ix2 r q) = ln v' g β (ix2 p q) := by
  show (centred v (ix2 r q) * Ideal.rsqrt (rowVar v r + EPS)) * g (ix1 q) + β (ix1 q)
      = (centred v' (ix2 p q) * Ideal.rsqrt (rowVar v' p + EPS)) * g (ix1 q) + β (ix1 q)
  rw [centred_row v v' r p e q, rowVar_row v v' r p e]

/-- Entry (r, q) of the pre-activations reads row r of the three operands only. -/
theorem hcK_row {R R' : Nat} (h m0 m1 : Mat R 128) (h' m0' m1' : Mat R' 128) (ws wn0 wn1 : Mat 128 128) (b : Vc 128)
    (r : Fin R) (p : Fin R') (q : Fin 128)
    (e0 : ∀ k : Fin 128, h (ix2 r k) = h' (ix2 p k)) (e1 : ∀ k : Fin 128, m0 (ix2 r k) = m0' (ix2 p k))
    (e2 : ∀ k : Fin 128, m1 (ix2 r k) = m1' (ix2 p k)) :
    hcK h m0 m1 ws wn0 wn1 b (ix2 r q) = hcK h' m0' m1' ws wn0 wn1 b (ix2 p q) := by
  show ((MM h ws (ix2 r q) + MM m0 wn0 (ix2 r q)) + MM m1 wn1 (ix2 r q)) + b (ix1 q)
      = ((MM h' ws (ix2 p q) + MM m0' wn0 (ix2 p q)) + MM m1' wn1 (ix2 p q)) + b (ix1 q)
  rw [MM_row h h' ws r p q e0, MM_row m0 m0' wn0 r p q e1, MM_row m1 m1' wn1 r p q e2]

/-! ## The distributive law -/

theorem mul_add_real {x a b : EReal} (hx : IsR x) (ha : IsR a) (hb : IsR b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

theorem MM_vadd {R : Nat} (h : Mat R 128) (a b : Mat 128 128) (hh : AllR h) (ha : AllR a) (hb : AllR b)
    (i : (⟨2, ![R, 128]⟩ : Shape).Idx) : MM h (vadd a b) i = MM h a i + MM h b i := by
  unfold MM vadd
  rw [← Finset.sum_add_distrib]
  exact Finset.sum_congr rfl fun k _ => mul_add_real (hh _) (ha _) (hb _)

/-- With real node features and real self weights the two arrangements of the pre-activations agree. -/
theorem hc_law {R : Nat} (h m0 m1 : Mat R 128) (ws0 ws1 wn0 wn1 : Mat 128 128) (b0 b1 : Vc 128)
    (hh : AllR h) (h0 : AllR ws0) (h1 : AllR ws1) :
    hcK h m0 m1 (vadd ws0 ws1) wn0 wn1 (vadd b0 b1) = hcR h m0 m1 ws0 ws1 wn0 wn1 b0 b1 := by
  funext i
  show ((MM h (vadd ws0 ws1) i + MM m0 wn0 i) + MM m1 wn1 i) + (b0 (ix1 (i 1)) + b1 (ix1 (i 1)))
      = ((MM h ws0 i + MM m0 wn0 i) + b0 (ix1 (i 1))) + ((MM h ws1 i + MM m1 wn1 i) + b1 (ix1 (i 1)))
  rw [MM_vadd h ws0 ws1 hh h0 h1 i]
  ac_rfl

/-! ## Realness -/

theorem isR_Z : IsR Z := ⟨0, Consts.ofBits_zero.trans EReal.coe_zero.symm⟩

theorem allR_vadd {s : Shape} (x y : s.Idx → EReal) (hx : AllR x) (hy : AllR y) : AllR (vadd x y) :=
  fun i => (hx i).add (hy i)

theorem allR_MM {A K B : Nat} (x : (⟨2, ![A, K]⟩ : Shape).Idx → EReal) (w : (⟨2, ![K, B]⟩ : Shape).Idx → EReal)
    (hx : AllR x) (hw : AllR w) : AllR (MM x w) :=
  fun _ => IsR.sum _ _ fun _ _ => (hx _).mul (hw _)

theorem allR_lin {R K H : Nat} (z : (⟨2, ![R, K]⟩ : Shape).Idx → EReal) (w : (⟨2, ![K, H]⟩ : Shape).Idx → EReal)
    (b : (⟨1, ![H]⟩ : Shape).Idx → EReal) (hz : AllR z) (hw : AllR w) (hb : AllR b) : AllR (lin z w b) :=
  fun i => (allR_MM z w hz hw i).add (hb _)

theorem allR_relu {s : Shape} (y : s.Idx → EReal) (hy : AllR y) : AllR (relu y) :=
  fun i => (hy i).max isR_Z

theorem allR_hcR {R : Nat} (h m0 m1 : Mat R 128) (ws0 ws1 wn0 wn1 : Mat 128 128) (b0 b1 : Vc 128)
    (hh : AllR h) (hm0 : AllR m0) (hm1 : AllR m1) (h0 : AllR ws0) (h1 : AllR ws1) (hn0 : AllR wn0) (hn1 : AllR wn1)
    (hb0 : AllR b0) (hb1 : AllR b1) : AllR (hcR h m0 m1 ws0 ws1 wn0 wn1 b0 b1) :=
  fun i => (((allR_MM h ws0 hh h0 i).add (allR_MM m0 wn0 hm0 hn0 i)).add (hb0 _)).add
    (((allR_MM h ws1 hh h1 i).add (allR_MM m1 wn1 hm1 hn1 i)).add (hb1 _))

theorem isR_rowMean {R : Nat} (v : Mat R 128) (hv : AllR v) (p : Fin R) : IsR (rowMean v p) := by
  unfold rowMean
  rw [show C128 = ((128 : ℝ) : EReal) from Consts.ofBits_128]
  exact (IsR.sum _ _ fun k _ => hv _).div (by norm_num)

theorem allR_centred {R : Nat} (v : Mat R 128) (hv : AllR v) : AllR (centred v) :=
  fun i => (hv i).sub (isR_rowMean v hv (i 0))

/-- The variance of a real row is a nonnegative real. -/
theorem rowVar_nonneg {R : Nat} (v : Mat R 128) (hv : AllR v) (p : Fin R) : ∃ r : ℝ, 0 ≤ r ∧ rowVar v p = (r : EReal) := by
  have hc := allR_centred v hv
  choose f hf using fun k : Fin 128 => hc (ix2 p k)
  refine ⟨(∑ k : Fin 128, f k * f k) / 128, div_nonneg (Finset.sum_nonneg fun k _ => mul_self_nonneg (f k)) (by norm_num), ?_⟩
  unfold rowVar
  have hs : (∑ k : Fin 128, centred v (ix2 p k) * centred v (ix2 p k)) = ((∑ k : Fin 128, f k * f k : ℝ) : EReal) := by
    have : ∀ (s : Finset (Fin 128)), (∑ k ∈ s, centred v (ix2 p k) * centred v (ix2 p k)) = ((∑ k ∈ s, f k * f k : ℝ) : EReal) := by
      intro s
      induction s using Finset.induction_on with
      | empty => simp
      | insert a s ha ih => rw [Finset.sum_insert ha, Finset.sum_insert ha, ih, hf a, EReal.coe_add, EReal.coe_mul]
    exact this Finset.univ
  rw [hs, show C128 = ((128 : ℝ) : EReal) from Consts.ofBits_128, Ideal.div_coe (by norm_num : (128 : ℝ) ≠ 0),
    ← EReal.coe_mul]
  congr 1
  ring

/-- Normalising the rows of a real matrix with real scale and shift gives a real matrix. -/
theorem allR_ln {R : Nat} (v : Mat R 128) (g β : Vc 128) (hv : AllR v) (hg : AllR g) (hβ : AllR β) : AllR (ln v g β) := by
  intro i
  obtain ⟨r, hr, e⟩ := rowVar_nonneg v hv (i 0)
  have hrs : IsR (Ideal.rsqrt (rowVar v (i 0) + EPS)) := by
    rw [e, show EPS = (((10995116 : ℝ) / 2 ^ 40 : ℝ) : EReal) from Consts.ofBits_eps, ← EReal.coe_add]
    exact isR_rsqrt (by positivity)
  exact (((allR_centred v hv i).mul hrs).mul (hg _)).add (hβ _)

end Cert.HG

end
-- ==== Proof.KBlocksRow.lean ====
/-
  Row by row, a block is the whole array.  The layer's function (pre-activations, normalisation of every row,
  clipping below at zero in the first two layers) computes entry (p, q) of its result from row p of its row-tiled
  operands alone.  So when row p of each block of rows is row r of the array the block was cut from, entry (p, q)
  of the function of the blocks is entry (r, q) of the same function of the whole arrays, whatever the two numbers
  of rows.  Stated for the graph branch (three row-tiled operands) and for the class branch (one), with and without
  the clipping.
-/
import proofs.«178392_j50105088475140_1_alg».proof.Proof.SpecLaws

noncomputable section

namespace Cert.KernelIdeal.HG.Blocks

open Idealize.ShloMosaic Idealize.ShloMosaic.ValueIdx Cert.HG Cert.LibMlp

/-- Entry (p, q) of the clipped, normalised pre-activations of a block of rows is entry (r, q) of the same function of
    the whole arrays, when row p of each block is row r of its array. -/
theorem pointH {R R' : Nat} (x0 x1 x2 : Mat R 128) (A0 A1 A2 : Mat R' 128) (ws wn0 wn1 : Mat 128 128) (b g β : Vc 128)
    (p : Fin R) (r : Fin R') (q : Fin 128)
    (e0 : ∀ k : Fin 128, x0 (ix2 p k) = A0 (ix2 r k)) (e1 : ∀ k : Fin 128, x1 (ix2 p k) = A1 (ix2 r k))
    (e2 : ∀ k : Fin 128, x2 (ix2 p k) = A2 (ix2 r k)) :
    relu (ln (hcK x0 x1 x2 ws wn0 wn1 b) g β) (ix2 p q) = relu (ln (hcK A0 A1 A2 ws wn0 wn1 b) g β) (ix2 r q) := by
  rw [relu_apply, relu_apply]
  exact congrArg (max · Z) (ln_row _ _ g β p r q fun k => hcK_row x0 x1 x2 A0 A1 A2 ws wn0 wn1 b p r k e0 e1 e2)

/-- The same without the clipping (the last layer). -/
theorem pointHn {R R' : Nat} (x0 x1 x2 : Mat R 128) (A0 A1 A2 : Mat R' 128) (ws wn0 wn1 : Mat 128 128) (b g β : Vc 128)
    (p : Fin R) (r : Fin R') (q : Fin 128)
    (e0 : ∀ k : Fin 128, x0 (ix2 p k) = A0 (ix2 r k)) (e1 : ∀ k : Fin 128, x1 (ix2 p k) = A1 (ix2 r k))
    (e2 : ∀ k : Fin 128, x2 (ix2 p k) = A2 (ix2 r k)) :
    ln (hcK x0 x1 x2 ws wn0 wn1 b) g β (ix2 p q) = ln (hcK A0 A1 A2 ws wn0 wn1 b) g β (ix2 r q) :=
  ln_row _ _ g β p r q fun k => hcK_row x0 x1 x2 A0 A1 A2 ws wn0 wn1 b p r k e0 e1 e2

/-- The class branch: entry (p, q) of the clipped, normalised affine image of a block of rows is entry (r, q) of the
    same function of the whole array, when row p of the block is row r of the array. -/
theorem pointPC {R R' : Nat} (x0 : Mat R 128) (A0 : Mat R' 128) (w : Mat 128 128) (b g β : Vc 128)
    (p : Fin R) (r : Fin R') (q : Fin 128) (e0 : ∀ k : Fin 128, x0 (ix2 p k) = A0 (ix2 r k)) :
    relu (ln (lin x0 w b) g β) (ix2 p q) = relu (ln (lin A0 w b) g β) (ix2 r q) := by
  rw [relu_apply, relu_apply]
  exact congrArg (max · Z) (ln_row _ _ g β p r q fun k => lin_row x0 A0 w b p r k e0)

/-- The same without the clipping (the last layer). -/
theorem pointPCn {R R' : Nat} (x0 : Mat R 128) (A0 : Mat R' 128) (w : Mat 128 128) (b g β : Vc 128)
    (p : Fin R) (r : Fin R') (q : Fin 128) (e0 : ∀ k : Fin 128, x0 (ix2 p k) = A0 (ix2 r k)) :
    ln (lin x0 w b) g β (ix2 p q) = ln (lin A0 w b) g β (ix2 r q) :=
  ln_row _ _ g β p r q fun k => lin_row x0 A0 w b p r k e0

end Cert.KernelIdeal.HG.Blocks

end
-- ==== Proof.KBlocksR0.lean ====
/-
  Region 0 (the graph branch of layer 1): the output array after the whole grid, as one function of the arrays
  the region found.  Grid point t (of 20) loads rows 5000 t … 5000 t + 4999 of the node features and of the two
  neighbourhood means, and the whole of the three weight matrices and of the one-row bias, scale and shift; it writes
  back rows 5000 t … 5000 t + 4999 of the output.  Every row of the block it writes is the row-wise function of the
  same row of the blocks it loaded, hence row 5000 t + p of that function of the whole arrays.  Row r of the output
  is covered by point r / 5000, so the twenty blocks fill the array and it ends holding the function of the whole
  arrays.
-/
import proofs.«178392_j50105088475140_1_alg».proof.Proof.Gen.KernelIdeal.Frame
import proofs.«178392_j50105088475140_1_alg».proof.Proof.KBodyH
import proofs.«178392_j50105088475140_1_alg».proof.Proof.KBlocksRow

noncomputable section

namespace Cert.KernelIdeal.HG.Blocks

open Idealize.ShloMosaic Idealize.ShloMosaic.TcCoe Idealize.SL.Sem Cert.KernelIdeal Cert.KernelIdeal.Gen
open Idealize.ShloMosaic.ValueIdx
open Cert.HG Cert.LibMlp

variable (V : (c : Dev nD) → (b : Ref sig .tc) → Buf (Elt Ideal) ((c : Thread nD τ).loc b)) (c : Dev nD)

/-! ## The block index maps, decided over the grid: the row-tiled windows sit at block (t, 0), the others at (0, 0) -/

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_9 : ∀ t : Fin cfg0.N, win0_9.index t (0 : Fin 2) = t.val ∧ win0_9.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = 0 ∧ win0_6.index t (1 : Fin 2) = 0 :=
  (by decide +kernel : ∀ t : Fin grid0.N, _)

theorem idx0_7 : ∀ t : Fin cfg0.N, win0_7.index t (0 : Fin 2) = 0 ∧ win0_7.index t (1 : Fin 2) = 0 :=
  (by decide +kernel : ∀ t : Fin grid0.N, _)

theorem idx0_8 : ∀ t : Fin cfg0.N, win0_8.index t (0 : Fin 2) = 0 ∧ win0_8.index t (1 : Fin 2) = 0 :=
  (by decide +kernel : ∀ t : Fin grid0.N, _)

/-! ## The blocks the body loads, as rows of the arrays the region found -/

/-- Input window 0's block at point t holds rows 5000 t … 5000 t + 4999 of its array. -/
theorem read0_0 (t : Fin cfg0.N) (p : Fin 5000) (j : Fin 128) (r : Fin 100000) (hr : r.val = 5000 * t.val + p.val) :
    (iblk0 V c 0 t : Mat 5000 128) (ix2 p j) = (V c main_arg0 : Mat 100000 128) (ix2 r j) := by
  have e0 : win0_0.index t (0 : Fin 2) = t.val := (idx0_0 t).1
  have e1 : win0_0.index t (1 : Fin 2) = 0 := (idx0_0 t).2
  show V c main_arg0 (((cfg0.win 0).blk t).view.emb (ix2 p j)) = V c main_arg0 (ix2 r j)
  refine congrArg _ ?_
  funext a; apply Fin.ext
  match a with
  | ⟨0, _⟩ => show win0_0.index t (0 : Fin 2) * 5000 + 1 * p.val = r.val; rw [e0, hr]; omega
  | ⟨1, _⟩ => show win0_0.index t (1 : Fin 2) * 128 + 1 * j.val = j.val; rw [e1]; omega

/-- Input window 1's block at point t holds rows 5000 t … 5000 t + 4999 of its array. -/
theorem read0_1 (t : Fin cfg0.N) (p : Fin 5000) (j : Fin 128) (r : Fin 100000) (hr : r.val = 5000 * t.val + p.val) :
    (iblk0 V c 1 t : Mat 5000 128) (ix2 p j) = (V c main_v34 : Mat 100000 128) (ix2 r j) := by
  have e0 : win0_1.index t (0 : Fin 2) = t.val := (idx0_1 t).1
  have e1 : win0_1.index t (1 : Fin 2) = 0 := (idx0_1 t).2
  show V c main_v34 (((cfg0.win 1).blk t).view.emb (ix2 p j)) = V c main_v34 (ix2 r j)
  refine congrArg _ ?_
  funext a; apply Fin.ext
  match a with
  | ⟨0, _⟩ => show win0_1.index t (0 : Fin 2) * 5000 + 1 * p.val = r.val; rw [e0, hr]; omega
  | ⟨1, _⟩ => show win0_1.index t (1 : Fin 2) * 128 + 1 * j.val = j.val; rw [e1]; omega

/-- Input window 2's block at point t holds rows 5000 t … 5000 t + 4999 of its array. -/
theorem read0_2 (t : Fin cfg0.N) (p : Fin 5000) (j : Fin 128) (r : Fin 100000) (hr : r.val = 5000 * t.val + p.val) :
    (iblk0 V c 2 t : Mat 5000 128) (ix2 p j) = (V c main_v36 : Mat 100000 128) (ix2 r j) := by
  have e0 : win0_2.index t (0 : Fin 2) = t.val := (idx0_2 t).1
  have e1 : win0_2.index t (1 : Fin 2) = 0 := (idx0_2 t).2
  show V c main_v36 (((cfg0.win 2).blk t).view.emb (ix2 p j)) = V c main_v36 (ix2 r j)
  refine congrArg _ ?_
  funext a; apply Fin.ext
  match a with
  | ⟨0, _⟩ => show win0_2.index t (0 : Fin 2) * 5000 + 1 * p.val = r.val; rw [e0, hr]; omega
  | ⟨1, _⟩ => show win0_2.index t (1 : Fin 2) * 128 + 1 * j.val = j.val; rw [e1]; omega

/-- Input window 3's block is its whole array at every point. -/
theorem read0_3 (t : Fin cfg0.N) : (iblk0 V c 3 t : Mat 128 128) = V c main_v41 := by
  have e0 : win0_3.index t (0 : Fin 2) = 0 := (idx0_3 t).1
  have e1 : win0_3.index t (1 : Fin 2) = 0 := (idx0_3 t).2
  funext y
  show V c main_v41 (((cfg0.win 3).blk t).view.emb y) = V c main_v41 y
  refine congrArg _ ?_
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Input window 4's block is its whole array at every point. -/
theorem read0_4 (t : Fin cfg0.N) : (iblk0 V c 4 t : Mat 128 128) = V c main_v48 := by
  have e0 : win0_4.index t (0 : Fin 2) = 0 := (idx0_4 t).1
  have e1 : win0_4.index t (1 : Fin 2) = 0 := (idx0_4 t).2
  funext y
  show V c main_v48 (((cfg0.win 4).blk t).view.emb y) = V c main_v48 y
  refine congrArg _ ?_
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Input window 5's block is its whole array at every point. -/
theorem read0_5 (t : Fin cfg0.N) : (iblk0 V c 5 t : Mat 128 128) = V c main_v50 := by
  have e0 : win0_5.index t (0 : Fin 2) = 0 := (idx0_5 t).1
  have e1 : win0_5.index t (1 : Fin 2) = 0 := (idx0_5 t).2
  funext y
  show V c main_v50 (((cfg0.win 5).blk t).view.emb y) = V c main_v50 y
  refine congrArg _ ?_
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Input window 6's block is its whole array at every point. -/
theorem read0_6 (t : Fin cfg0.N) : (iblk0 V c 6 t : Mat 1 128) = V c main_v55 := by
  have e0 : win0_6.index t (0 : Fin 2) = 0 := (idx0_6 t).1
  have e1 : win0_6.index t (1 : Fin 2) = 0 := (idx0_6 t).2
  funext y
  show V c main_v55 (((cfg0.win 6).blk t).view.emb y) = V c main_v55 y
  refine congrArg _ ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Input window 7's block is its whole array at every point. -/
theorem read0_7 (t : Fin cfg0.N) : (iblk0 V c 7 t : Mat 1 128) = V c main_v56 := by
  have e0 : win0_7.index t (0 : Fin 2) = 0 := (idx0_7 t).1
  have e1 : win0_7.index t (1 : Fin 2) = 0 := (idx0_7 t).2
  funext y
  show V c main_v56 (((cfg0.win 7).blk t).view.emb y) = V c main_v56 y
  refine congrArg _ ?_
  funext a; apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Input window 8's block is its whole array at every point. -/
theorem read0_8 (t : Fin cfg0.N) : (iblk0 V c 8 t : Mat 1 128) = V c main_v57 := by
  have e0 : win0_8.index t (0 : Fin 2) = 0 := (idx0_8 t).1
  have e1 : win0_8.index t (1 : Fin 2) = 0 := (idx0_8 t).2
  funext y
  show V c main_v57 (((cfg0.win 8).blk t).view.emb y) = V c main_v57 y
  refine congrArg _ ?_
  funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-! ## The output array -/

/-- The layer's function of the whole arrays the region found. -/
abbrev G0 : S100000x128.Idx → EReal :=
  relu (ln (hcK (V c main_arg0) (V c main_v34) (V c main_v36) (V c main_v41) (V c main_v48) (V c main_v50) (rowOf (V c main_v55))) (rowOf (V c main_v56)) (rowOf (V c main_v57)))

/-- What point t writes back is block t of the layer's function of the whole arrays: every row of the block is the
    row-wise function of the same row of the input blocks, and those are rows 5000 t + p of the arrays. -/
theorem flushed0 (t : Fin cfg0.N) :
    (dat0 (F := Ideal) V c).flushed 9 t = ((cfg0.win 9).blk t).view.read (Elt Ideal) (G0 V c) := by
  have ht : t.val < 20 := Nat.lt_of_lt_of_eq t.isLt (show cfg0.N = 20 from N_0)
  show (cfg0.win 9).cut (grid0.coords t) ((dat0 V c).after 9 t) = _
  rw [after0_9]
  rw [out0_9_eq (iblk0 V c 0 t) (iblk0 V c 1 t) (iblk0 V c 2 t) (iblk0 V c 3 t) (iblk0 V c 4 t) (iblk0 V c 5 t) (iblk0 V c 6 t) (iblk0 V c 7 t) (iblk0 V c 8 t)]
  rw [read0_3 V c t, read0_4 V c t, read0_5 V c t, read0_6 V c t, read0_7 V c t, read0_8 V c t]
  funext y
  obtain ⟨p, q, rfl⟩ : ∃ (p : Fin 5000) (q : Fin 128), y = ix2 p q := ⟨y 0, y 1, eq_ix2 y⟩
  have hr : 5000 * t.val + p.val < 100000 := by have := p.isLt; omega
  have e0 : win0_9.index t (0 : Fin 2) = t.val := (idx0_9 t).1
  have e1 : win0_9.index t (1 : Fin 2) = 0 := (idx0_9 t).2
  have hemb : ((cfg0.win 9).blk t).view.emb (ix2 p q) = ix2 (⟨5000 * t.val + p.val, hr⟩ : Fin 100000) q := by
    funext a; apply Fin.ext
    match a with
    | ⟨0, _⟩ => show win0_9.index t (0 : Fin 2) * 5000 + 1 * p.val = 5000 * t.val + p.val; rw [e0]; omega
    | ⟨1, _⟩ => show win0_9.index t (1 : Fin 2) * 128 + 1 * q.val = q.val; rw [e1]; omega
  show _ = G0 V c (((cfg0.win 9).blk t).view.emb (ix2 p q))
  rw [hemb]
  exact pointH _ _ _ _ _ _ _ _ _ _ _ _ p ⟨5000 * t.val + p.val, hr⟩ q
    (fun j => read0_0 V c t p j _ rfl) (fun j => read0_1 V c t p j _ rfl) (fun j => read0_2 V c t p j _ rfl)

/-- An index of the output array is in point t's block iff each coordinate is in the block's range on its axis. -/
theorem mem_blk0 (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v58).slice (win0_9.rect t)).set ↔ _
  rw [View.set_slice_whole, Rect.mem_set_unit]
  exact Iff.rfl

/-- Row r of the output array is covered by point r / 5000. -/
theorem cover0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_9 _, ?_⟩
  rw [mem_blk0]
  have e0 : win0_9.index ⟨(i 0).val / 5000, ht⟩ (0 : Fin 2) = (i 0).val / 5000 := (idx0_9 _).1
  have e1 : win0_9.index ⟨(i 0).val / 5000, ht⟩ (1 : Fin 2) = 0 := (idx0_9 _).2
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]; omega
  | ⟨1, _⟩ =>
    show win0_9.index ⟨(i 0).val / 5000, ht⟩ (1 : Fin 2) * 128 ≤ (i 1).val ∧ (i 1).val < win0_9.index ⟨(i 0).val / 5000, ht⟩ (1 : Fin 2) * 128 + 128
    rw [e1]; omega

/-- The output array after the whole grid: the layer's function of the whole arrays. -/
theorem final0 : (dat0 (F := Ideal) V c).arrAt 9 cfg0.N = G0 V c :=
  (dat0 V c).arrAt_eq_of_cover 9 (G0 V c) (fun t _ => flushed0 V c t) (cover0)

end Cert.KernelIdeal.HG.Blocks

end
-- ==== Proof.KBlocksR1.lean ====
/-
  Region 1 (the class branch of layer 1): the output array after the whole grid, as one function of the arrays
  the region found.  Grid point t (of 2) loads rows 5000 t … 5000 t + 4999 of the class features and the whole of the
  weight matrix and of the one-row bias, scale and shift; it writes back rows 5000 t … 5000 t + 4999 of the output.
  Every row of the block it writes is the row-wise function of the same row of the block it loaded, hence row
  5000 t + p of that function of the whole array.  Row r of the output is covered by point r / 5000, so the two
  blocks fill the array and it ends holding the function of the whole arrays.
-/
import proofs.«178392_j50105088475140_1_alg».proof.Proof.Gen.KernelIdeal.Frame
import proofs.«178392_j50105088475140_1_alg».proof.Proof.KBodyPC
import proofs.«178392_j50105088475140_1_alg».proof.Proof.KBlocksRow

noncomputable section

namespace Cert.KernelIdeal.HG.Blocks

open Idealize.ShloMosaic Idealize.ShloMosaic.TcCoe Idealize.SL.Sem Cert.KernelIdeal Cert.KernelIdeal.Gen
open Idealize.ShloMosaic.ValueIdx
open Cert.HG Cert.LibMlp

variable (V : (c : Dev nD) → (b : Ref sig .tc) → Buf (Elt Ideal) ((c : Thread nD τ).loc b)) (c : Dev nD)

/-! ## The block index maps, decided over the grid: the row-tiled windows sit at block (t, 0), the others at (0, 0) -/

theorem idx1_0 : ∀ t : Fin cfg1.N, win1_0.index t (0 : Fin 2) = t.val ∧ win1_0.index t (1 : Fin 2) = 0 :=
  (by decide +kernel : ∀ t : Fin grid1.N, _)

theorem idx1_5 : ∀ t : Fin cfg1.N, win1_5.index t (0 : Fin 2) = t.val ∧ win1_5.index t (1 : Fin 2) = 0 :=
  (by decide +kernel : ∀ t : Fin grid1.N, _)

theorem idx1_1 : ∀ t : Fin cfg1.N, win1_1.index t (0 : Fin 2) = 0 ∧ win1_1.index t (1 : Fin 2) = 0 :=
  (by decide +kernel : ∀ t : Fin grid1.N, _)

theorem idx1_2 : ∀ t : Fin cfg1.N, win1_2.index t (0 : Fin 2) = 0 ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

/-! ## The blocks the body loads, as rows of the arrays the region found -/

/-- Input window 0's block at point t holds rows 5000 t … 5000 t + 4999 of its array. -/
theorem read1_0 (t : Fin cfg1.N) (p : Fin 5000) (j : Fin 128) (r : Fin 10000) (hr : r.val = 5000 * t.val + p.val) :
    (iblk1 V c 0 t : Mat 5000 128) (ix2 p j) = (V c main_arg1 : Mat 10000 128) (ix2 r j) := by
  have e0 : win1_0.index t (0 : Fin 2) = t.val := (idx1_0 t).1
  have e1 : win1_0.index t (1 : Fin 2) = 0 := (idx1_0 t).2
  show V c main_arg1 (((cfg1.win 0).blk t).view.emb (ix2 p j)) = V c main_arg1 (ix2 r j)
  refine congrArg _ ?_
  funext a; apply Fin.ext
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- Input window 1's block is its whole array at every point. -/
theorem read1_1 (t : Fin cfg1.N) : (iblk1 V c 1 t : Mat 128 128) = V c main_v60 := by
  have e0 : win1_1.index t (0 : Fin 2) = 0 := (idx1_1 t).1
  have e1 : win1_1.index t (1 : Fin 2) = 0 := (idx1_1 t).2
  funext y
  show V c main_v60 (((cfg1.win 1).blk t).view.emb y) = V c main_v60 y
  refine congrArg _ ?_
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Input window 2's block is its whole array at every point. -/
theorem read1_2 (t : Fin cfg1.N) : (iblk1 V c 2 t : Mat 1 128) = V c main_v67 := by
  have e0 : win1_2.index t (0 : Fin 2) = 0 := (idx1_2 t).1
  have e1 : win1_2.index t (1 : Fin 2) = 0 := (idx1_2 t).2
  funext y
  show V c main_v67 (((cfg1.win 2).blk t).view.emb y) = V c main_v67 y
  refine congrArg _ ?_
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Input window 3's block is its whole array at every point. -/
theorem read1_3 (t : Fin cfg1.N) : (iblk1 V c 3 t : Mat 1 128) = V c main_v68 := by
  have e0 : win1_3.index t (0 : Fin 2) = 0 := (idx1_3 t).1
  have e1 : win1_3.index t (1 : Fin 2) = 0 := (idx1_3 t).2
  funext y
  show V c main_v68 (((cfg1.win 3).blk t).view.emb y) = V c main_v68 y
  refine congrArg _ ?_
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Input window 4's block is its whole array at every point. -/
theorem read1_4 (t : Fin cfg1.N) : (iblk1 V c 4 t : Mat 1 128) = V c main_v69 := by
  have e0 : win1_4.index t (0 : Fin 2) = 0 := (idx1_4 t).1
  have e1 : win1_4.index t (1 : Fin 2) = 0 := (idx1_4 t).2
  funext y
  show V c main_v69 (((cfg1.win 4).blk t).view.emb y) = V c main_v69 y
  refine congrArg _ ?_
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## The output array -/

/-- The layer's function of the whole arrays the region found. -/
abbrev G1 : S10000x128.Idx → EReal :=
  relu (ln (lin (V c main_arg1) (V c main_v60) (rowOf (V c main_v67))) (rowOf (V c main_v68)) (rowOf (V c main_v69)))

/-- What point t writes back is block t of the layer's function of the whole arrays: every row of the block is the
    row-wise function of the same row of the input block, and that is row 5000 t + p of the array. -/
theorem flushed1 (t : Fin cfg1.N) :
    (dat1 (F := Ideal) V c).flushed 5 t = ((cfg1.win 5).blk t).view.read (Elt Ideal) (G1 V c) := by
  have ht : t.val < 2 := Nat.lt_of_lt_of_eq t.isLt (show cfg1.N = 2 from N_1)
  show (cfg1.win 5).cut (grid1.coords t) ((dat1 V c).after 5 t) = _
  rw [after1_5]
  rw [out1_5_eq (iblk1 V c 0 t) (iblk1 V c 1 t) (iblk1 V c 2 t) (iblk1 V c 3 t) (iblk1 V c 4 t)]
  rw [read1_1 V c t, read1_2 V c t, read1_3 V c t, read1_4 V c t]
  funext y
  obtain ⟨p, q, rfl⟩ : ∃ (p : Fin 5000) (q : Fin 128), y = ix2 p q := ⟨y 0, y 1, eq_ix2 y⟩
  have hr : 5000 * t.val + p.val < 10000 := by have := p.isLt; omega
  have e0 : win1_5.index t (0 : Fin 2) = t.val := (idx1_5 t).1
  have e1 : win1_5.index t (1 : Fin 2) = 0 := (idx1_5 t).2
  have hemb : ((cfg1.win 5).blk t).view.emb (ix2 p q) = ix2 (⟨5000 * t.val + p.val, hr⟩ : Fin 10000) q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  show _ = G1 V c (((cfg1.win 5).blk t).view.emb (ix2 p q))
  rw [hemb]
  exact pointPC _ _ _ _ _ _ p ⟨5000 * t.val + p.val, hr⟩ q (fun j => read1_0 V c t p j _ rfl)

/-- An index of the output array is in point t's block iff each coordinate is in the block's range on its axis. -/
theorem mem_blk1 (t : Fin cfg1.N) (i : S10000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v70).slice (win1_5.rect t)).set ↔ _
  rw [View.set_slice_whole, Rect.mem_set_unit]
  exact Iff.rfl

/-- Row r of the output array is covered by point r / 5000. -/
theorem cover1 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 2 := N_1
  have ht : (i 0).val / 5000 < cfg1.N := by rw [hN]; omega
  refine ⟨⟨(i 0).val / 5000, ht⟩, flush1_5 _, ?_⟩
  rw [mem_blk1]
  have e0 : win1_5.index ⟨(i 0).val / 5000, ht⟩ (0 : Fin 2) = (i 0).val / 5000 := (idx1_5 _).1
  have e1 : win1_5.index ⟨(i 0).val / 5000, ht⟩ (1 : Fin 2) = 0 := (idx1_5 _).2
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- The output array after the whole grid: the layer's function of the whole arrays. -/
theorem final1 : (dat1 (F := Ideal) V c).arrAt 5 cfg1.N = G1 V c :=
  (dat1 V c).arrAt_eq_of_cover 5 (G1 V c) (fun t _ => flushed1 V c t) (cover1)

end Cert.KernelIdeal.HG.Blocks

end
-- ==== Proof.KBlocksR2.lean ====
/-
  Region 2 (the graph branch of layer 2): the output array after the whole grid, as one function of the arrays
  the region found.  Grid point t (of 20) loads rows 5000 t … 5000 t + 4999 of the node features and of the two
  neighbourhood means, and the whole of the three weight matrices and of the one-row bias, scale and shift; it writes
  back rows 5000 t … 5000 t + 4999 of the output.  Every row of the block it writes is the row-wise function of the
  same row of the blocks it loaded, hence row 5000 t + p of that function of the whole arrays.  Row r of the output
  is covered by point r / 5000, so the twenty blocks fill the array and it ends holding the function of the whole
  arrays.
-/
import proofs.«178392_j50105088475140_1_alg».proof.Proof.Gen.KernelIdeal.Frame
import proofs.«178392_j50105088475140_1_alg».proof.Proof.KBodyH
import proofs.«178392_j50105088475140_1_alg».proof.Proof.KBlocksRow

noncomputable section

namespace Cert.KernelIdeal.HG.Blocks

open Idealize.ShloMosaic Idealize.ShloMosaic.TcCoe Idealize.SL.Sem Cert.KernelIdeal Cert.KernelIdeal.Gen
open Idealize.ShloMosaic.ValueIdx
open Cert.HG Cert.LibMlp

variable (V : (c : Dev nD) → (b : Ref sig .tc) → Buf (Elt Ideal) ((c : Thread nD τ).loc b)) (c : Dev nD)

/-! ## The block index maps, decided over the grid: the row-tiled windows sit at block (t, 0), the others at (0, 0) -/

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = t.val ∧ win2_1.index t (1 : Fin 2) = 0 :=
  (by decide +kernel : ∀ t : Fin grid2.N, _)

theorem idx2_2 : ∀ t : Fin cfg2.N, win2_2.index t (0 : Fin 2) = t.val ∧ win2_2.index t (1 : Fin 2) = 0 :=
  (by decide +kernel : ∀ t : Fin grid2.N, _)

theorem idx2_9 : ∀ t : Fin cfg2.N, win2_9.index t (0 : Fin 2) = t.val ∧ win2_9.index t (1 : Fin 2) = 0 :=
  (by decide +kernel : ∀ t : Fin grid2.N, _)

theorem idx2_3 : ∀ t : Fin cfg2.N, win2_3.index t (0 : Fin 2) = 0 ∧ win2_3.index t (1 : Fin 2) = 0 :=
  (by decide +kernel : ∀ t : Fin grid2.N, _)

theorem idx2_4 : ∀ t : Fin cfg2.N, win2_4.index t (0 : Fin 2) = 0 ∧ win2_4.index t (1 : Fin 2) = 0 :=
  (by decide +kernel : ∀ t : Fin grid2.N, _)

theorem idx2_5 : ∀ t : Fin cfg2.N, win2_5.index t (0 : Fin 2) = 0 ∧ win2_5.index t (1 : Fin 2) = 0 :=
  (by decide +kernel : ∀ t : Fin grid2.N, _)

theorem idx2_6 : ∀ t : Fin cfg2.N, win2_6.index t (0 : Fin 2) = 0 ∧ win2_6.index t (1 : Fin 2) = 0 :=
  (by decide +kernel : ∀ t : Fin grid2.N, _)

theorem idx2_7 : ∀ t : Fin cfg2.N, win2_7.index t (0 : Fin 2) = 0 ∧ win2_7.index t (1 : Fin 2) = 0 :=
  (by decide +kernel : ∀ t : Fin grid2.N, _)

theorem idx2_8 : ∀ t : Fin cfg2.N, win2_8.index t (0 : Fin 2) = 0 ∧ win2_8.index t (1 : Fin 2) = 0 :=
  (by decide +kernel : ∀ t : Fin grid2.N, _)

/-! ## The blocks the body loads, as rows of the arrays the region found -/

/-- Input window 0's block at point t holds rows 5000 t … 5000 t + 4999 of its array. -/
theorem read2_0 (t : Fin cfg2.N) (p : Fin 5000) (j : Fin 128) (r : Fin 100000) (hr : r.val = 5000 * t.val + p.val) :
    (iblk2 V c 0 t : Mat 5000 128) (ix2 p j) = (V c main_v58 : Mat 100000 128) (ix2 r j) := by
  have e0 : win2_0.index t (0 : Fin 2) = t.val := (idx2_0 t).1
  have e1 : win2_0.index t (1 : Fin 2) = 0 := (idx2_0 t).2
  show V c main_v58 (((cfg2.win 0).blk t).view.emb (ix2 p j)) = V c main_v58 (ix2 r j)
  refine congrArg _ ?_
  funext a; apply Fin.ext
  match a with
  | ⟨0, _⟩ => show win2_0.index t (0 : Fin 2) * 5000 + 1 * p.val = r.val; rw [e0, hr]; omega
  | ⟨1, _⟩ => show win2_0.index t (1 : Fin 2) * 128 + 1 * j.val = j.val; rw [e1]; omega

/-- Input window 1's block at point t holds rows 5000 t … 5000 t + 4999 of its array. -/
theorem read2_1 (t : Fin cfg2.N) (p : Fin 5000) (j : Fin 128) (r : Fin 100000) (hr : r.val = 5000 * t.val + p.val) :
    (iblk2 V c 1 t : Mat 5000 128) (ix2 p j) = (V c main_v92 : Mat 100000 128) (ix2 r j) := by
  have e0 : win2_1.index t (0 : Fin 2) = t.val := (idx2_1 t).1
  have e1 : win2_1.index t (1 : Fin 2) = 0 := (idx2_1 t).2
  show V c main_v92 (((cfg2.win 1).blk t).view.emb (ix2 p j)) = V c main_v92 (ix2 r j)
  refine congrArg _ ?_
  funext a; apply Fin.ext
  match a with
  | ⟨0, _⟩ => show win2_1.index t (0 : Fin 2) * 5000 + 1 * p.val = r.val; rw [e0, hr]; omega
  | ⟨1, _⟩ => show win2_1.index t (1 : Fin 2) * 128 + 1 * j.val = j.val; rw [e1]; omega

/-- Input window 2's block at point t holds rows 5000 t … 5000 t + 4999 of its array. -/
theorem read2_2 (t : Fin cfg2.N) (p : Fin 5000) (j : Fin 128) (r : Fin 100000) (hr : r.val = 5000 * t.val + p.val) :
    (iblk2 V c 2 t : Mat 5000 128) (ix2 p j) = (V c main_v94 : Mat 100000 128) (ix2 r j) := by
  have e0 : win2_2.index t (0 : Fin 2) = t.val := (idx2_2 t).1
  have e1 : win2_2.index t (1 : Fin 2) = 0 := (idx2_2 t).2
  show V c main_v94 (((cfg2.win 2).blk t).view.emb (ix2 p j)) = V c main_v94 (ix2 r j)
  refine congrArg _ ?_
  funext a; apply Fin.ext
  match a with
  | ⟨0, _⟩ => show win2_2.index t (0 : Fin 2) * 5000 + 1 * p.val = r.val; rw [e0, hr]; omega
  | ⟨1, _⟩ => show win2_2.index t (1 : Fin 2) * 128 + 1 * j.val = j.val; rw [e1]; omega

/-- Input window 3's block is its whole array at every point. -/
theorem read2_3 (t : Fin cfg2.N) : (iblk2 V c 3 t : Mat 128 128) = V c main_v99 := by
  have e0 : win2_3.index t (0 : Fin 2) = 0 := (idx2_3 t).1
  have e1 : win2_3.index t (1 : Fin 2) = 0 := (idx2_3 t).2
  funext y
  show V c main_v99 (((cfg2.win 3).blk t).view.emb y) = V c main_v99 y
  refine congrArg _ ?_
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Input window 4's block is its whole array at every point. -/
theorem read2_4 (t : Fin cfg2.N) : (iblk2 V c 4 t : Mat 128 128) = V c main_v106 := by
  have e0 : win2_4.index t (0 : Fin 2) = 0 := (idx2_4 t).1
  have e1 : win2_4.index t (1 : Fin 2) = 0 := (idx2_4 t).2
  funext y
  show V c main_v106 (((cfg2.win 4).blk t).view.emb y) = V c main_v106 y
  refine congrArg _ ?_
  funext a; apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- Input window 5's block is its whole array at every point. -/
theorem read2_5 (t : Fin cfg2.N) : (iblk2 V c 5 t : Mat 128 128) = V c main_v108 := by
  have e0 : win2_5.index t (0 : Fin 2) = 0 := (idx2_5 t).1
  have e1 : win2_5.index t (1 : Fin 2) = 0 := (idx2_5 t).2
  funext y
  show V c main_v108 (((cfg2.win 5).blk t).view.emb y) = V c main_v108 y
  refine congrArg _ ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- Input window 6's block is its whole array at every point. -/
theorem read2_6 (t : Fin cfg2.N) : (iblk2 V c 6 t : Mat 1 128) = V c main_v113 := by
  have e0 : win2_6.index t (0 : Fin 2) = 0 := (idx2_6 t).1
  have e1 : win2_6.index t (1 : Fin 2) = 0 := (idx2_6 t).2
  funext y
  show V c main_v113 (((cfg2.win 6).blk t).view.emb y) = V c main_v113 y
  refine congrArg _ ?_
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- Input window 7's block is its whole array at every point. -/
theorem read2_7 (t : Fin cfg2.N) : (iblk2 V c 7 t : Mat 1 128) = V c main_v114 := by
  have e0 : win2_7.index t (0 : Fin 2) = 0 := (idx2_7 t).1
  have e1 : win2_7.index t (1 : Fin 2) = 0 := (idx2_7 t).2
  funext y
  show V c main_v114 (((cfg2.win 7).blk t).view.emb y) = V c main_v114 y
  refine congrArg _ ?_
  funext a; apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- Input window 8's block is its whole array at every point. -/
theorem read2_8 (t : Fin cfg2.N) : (iblk2 V c 8 t : Mat 1 128) = V c main_v115 := by
  have e0 : win2_8.index t (0 : Fin 2) = 0 := (idx2_8 t).1
  have e1 : win2_8.index t (1 : Fin 2) = 0 := (idx2_8 t).2
  funext y
  show V c main_v115 (((cfg2.win 8).blk t).view.emb y) = V c main_v115 y
  refine congrArg _ ?_
  funext a; apply Fin.ext
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-! ## The output array -/

/-- The layer's function of the whole arrays the region found. -/
abbrev G2 : S100000x128.Idx → EReal :=
  relu (ln (hcK (V c main_v58) (V c main_v92) (V c main_v94) (V c main_v99) (V c main_v106) (V c main_v108) (rowOf (V c main_v113))) (rowOf (V c main_v114)) (rowOf (V c main_v115)))

/-- What point t writes back is block t of the layer's function of the whole arrays: every row of the block is the
    row-wise function of the same row of the input blocks, and those are rows 5000 t + p of the arrays. -/
theorem flushed2 (t : Fin cfg2.N) :
    (dat2 (F := Ideal) V c).flushed 9 t = ((cfg2.win 9).blk t).view.read (Elt Ideal) (G2 V c) := by
  have ht : t.val < 20 := Nat.lt_of_lt_of_eq t.isLt (show cfg2.N = 20 from N_2)
  show (cfg2.win 9).cut (grid2.coords t) ((dat2 V c).after 9 t) = _
  rw [after2_9]
  rw [out2_9_eq (iblk2 V c 0 t) (iblk2 V c 1 t) (iblk2 V c 2 t) (iblk2 V c 3 t) (iblk2 V c 4 t) (iblk2 V c 5 t) (iblk2 V c 6 t) (iblk2 V c 7 t) (iblk2 V c 8 t)]
  rw [read2_3 V c t, read2_4 V c t, read2_5 V c t, read2_6 V c t, read2_7 V c t, read2_8 V c t]
  funext y
  obtain ⟨p, q, rfl⟩ : ∃ (p : Fin 5000) (q : Fin 128), y = ix2 p q := ⟨y 0, y 1, eq_ix2 y⟩
  have hr : 5000 * t.val + p.val < 100000 := by have := p.isLt; omega
  have e0 : win2_9.index t (0 : Fin 2) = t.val := (idx2_9 t).1
  have e1 : win2_9.index t (1 : Fin 2) = 0 := (idx2_9 t).2
  have hemb : ((cfg2.win 9).blk t).view.emb (ix2 p q) = ix2 (⟨5000 * t.val + p.val, hr⟩ : Fin 100000) q := by
    funext a; apply Fin.ext
    match a with
    | ⟨0, _⟩ => show win2_9.index t (0 : Fin 2) * 5000 + 1 * p.val = 5000 * t.val + p.val; rw [e0]; omega
    | ⟨1, _⟩ => show win2_9.index t (1 : Fin 2) * 128 + 1 * q.val = q.val; rw [e1]; omega
  show _ = G2 V c (((cfg2.win 9).blk t).view.emb (ix2 p q))
  rw [hemb]
  exact pointH _ _ _ _ _ _ _ _ _ _ _ _ p ⟨5000 * t.val + p.val, hr⟩ q
    (fun j => read2_0 V c t p j _ rfl) (fun j => read2_1 V c t p j _ rfl) (fun j => read2_2 V c t p j _ rfl)

/-- An index of the output array is in point t's block iff each coordinate is in the block's range on its axis. -/
theorem mem_blk2 (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v116).slice (win2_9.rect t)).set ↔ _
  rw [View.set_slice_whole, Rect.mem_set_unit]
  exact Iff.rfl

/-- Row r of the output array is covered by point r / 5000. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_9 _, ?_⟩
  rw [mem_blk2]
  have e0 : win2_9.index ⟨(i 0).val / 5000, ht⟩ (0 : Fin 2) = (i 0).val / 5000 := (idx2_9 _).1
  have e1 : win2_9.index ⟨(i 0).val / 5000, ht⟩ (1 : Fin 2) = 0 := (idx2_9 _).2
  intro a
  match a with
  | ⟨0, _⟩ =>
    show win2_9.index ⟨(i 0).val / 5000, ht⟩ (0 : Fin 2) * 5000 ≤ (i 0).val ∧ (i 0).val < win2_9.index ⟨(i 0).val / 5000, ht⟩ (0 : Fin 2) * 5000 + 5000
    rw [e0]; omega
  | ⟨1, _⟩ =>
    show win2_9.index ⟨(i 0).val / 5000, ht⟩ (1 : Fin 2) * 128 ≤ (i 1).val ∧ (i 1).val < win2_9.index ⟨(i 0).val / 5000, ht⟩ (1 : Fin 2) * 128 + 128
    rw [e1]; omega

/-- The output array after the whole grid: the layer's function of the whole arrays. -/
theorem final2 : (dat2 (F := Ideal) V c).arrAt 9 cfg2.N = G2 V c :=
  (dat2 V c).arrAt_eq_of_cover 9 (G2 V c) (fun t _ => flushed2 V c t) (cover2)

end Cert.KernelIdeal.HG.Blocks

end
-- ==== Proof.KBlocksR3.lean ====
/-
  Region 3 (the class branch of layer 2): the output array after the whole grid, as one function of the arrays
  the region found.  Grid point t (of 2) loads rows 5000 t … 5000 t + 4999 of the class features and the whole of the
  weight matrix and of the one-row bias, scale and shift; it writes back rows 5000 t … 5000 t + 4999 of the output.
  Every row of the block it writes is the row-wise function of the same row of the block it loaded, hence row
  5000 t + p of that function of the whole array.  Row r of the output is covered by point r / 5000, so the two
  blocks fill the array and it ends holding the function of the whole arrays.
-/
import proofs.«178392_j50105088475140_1_alg».proof.Proof.Gen.KernelIdeal.Frame
import proofs.«178392_j50105088475140_1_alg».proof.Proof.KBodyPC
import proofs.«178392_j50105088475140_1_alg».proof.Proof.KBlocksRow

noncomputable section

namespace Cert.KernelIdeal.HG.Blocks

open Idealize.ShloMosaic Idealize.ShloMosaic.TcCoe Idealize.SL.Sem Cert.KernelIdeal Cert.KernelIdeal.Gen
open Idealize.ShloMosaic.ValueIdx
open Cert.HG Cert.LibMlp

variable (V : (c : Dev nD) → (b : Ref sig .tc) → Buf (Elt Ideal) ((c : Thread nD τ).loc b)) (c : Dev nD)

/-! ## The block index maps, decided over the grid: the row-tiled windows sit at block (t, 0), the others at (0, 0) -/

theorem idx3_0 : ∀ t : Fin cfg3.N, win3_0.index t (0 : Fin 2) = t.val ∧ win3_0.index t (1 : Fin 2) = 0 :=
  (by decide +kernel : ∀ t : Fin grid3.N, _)

theorem idx3_5 : ∀ t : Fin cfg3.N, win3_5.index t (0 : Fin 2) = t.val ∧ win3_5.index t (1 : Fin 2) = 0 :=
  (by decide +kernel : ∀ t : Fin grid3.N, _)

theorem idx3_1 : ∀ t : Fin cfg3.N, win3_1.index t (0 : Fin 2) = 0 ∧ win3_1.index t (1 : Fin 2) = 0 :=
  (by decide +kernel : ∀ t : Fin grid3.N, _)

theorem idx3_2 : ∀ t : Fin cfg3.N, win3_2.index t (0 : Fin 2) = 0 ∧ win3_2.index t (1 : Fin 2) = 0 :=
  (by decide +kernel : ∀ t : Fin grid3.N, _)

theorem idx3_3 : ∀ t : Fin cfg3.N, win3_3.index t (0 : Fin 2) = 0 ∧ win3_3.index t (1 : Fin 2) = 0 :=
  (by decide +kernel : ∀ t : Fin grid3.N, _)

theorem idx3_4 : ∀ t : Fin cfg3.N, win3_4.index t (0 : Fin 2) = 0 ∧ win3_4.index t (1 : Fin 2) = 0 :=
  (by decide +kernel : ∀ t : Fin grid3.N, _)

/-! ## The blocks the body loads, as rows of the arrays the region found -/

/-- Input window 0's block at point t holds rows 5000 t … 5000 t + 4999 of its array. -/
theorem read3_0 (t : Fin cfg3.N) (p : Fin 5000) (j : Fin 128) (r : Fin 10000) (hr : r.val = 5000 * t.val + p.val) :
    (iblk3 V c 0 t : Mat 5000 128) (ix2 p j) = (V c main_v70 : Mat 10000 128) (ix2 r j) := by
  have e0 : win3_0.index t (0 : Fin 2) = t.val := (idx3_0 t).1
  have e1 : win3_0.index t (1 : Fin 2) = 0 := (idx3_0 t).2
  show V c main_v70 (((cfg3.win 0).blk t).view.emb (ix2 p j)) = V c main_v70 (ix2 r j)
  refine congrArg _ ?_
  funext a; apply Fin.ext
  match a with
  | ⟨0, _⟩ => show win3_0.index t (0 : Fin 2) * 5000 + 1 * p.val = r.val; rw [e0, hr]; omega
  | ⟨1, _⟩ => show win3_0.index t (1 : Fin 2) * 128 + 1 * j.val = j.val; rw [e1]; omega

/-- Input window 1's block is its whole array at every point. -/
theorem read3_1 (t : Fin cfg3.N) : (iblk3 V c 1 t : Mat 128 128) = V c main_v118 := by
  have e0 : win3_1.index t (0 : Fin 2) = 0 := (idx3_1 t).1
  have e1 : win3_1.index t (1 : Fin 2) = 0 := (idx3_1 t).2
  funext y
  show V c main_v118 (((cfg3.win 1).blk t).view.emb y) = V c main_v118 y
  refine congrArg _ ?_
  funext a; apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- Input window 2's block is its whole array at every point. -/
theorem read3_2 (t : Fin cfg3.N) : (iblk3 V c 2 t : Mat 1 128) = V c main_v125 := by
  have e0 : win3_2.index t (0 : Fin 2) = 0 := (idx3_2 t).1
  have e1 : win3_2.index t (1 : Fin 2) = 0 := (idx3_2 t).2
  funext y
  show V c main_v125 (((cfg3.win 2).blk t).view.emb y) = V c main_v125 y
  refine congrArg _ ?_
  funext a; apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Input window 3's block is its whole array at every point. -/
theorem read3_3 (t : Fin cfg3.N) : (iblk3 V c 3 t : Mat 1 128) = V c main_v126 := by
  have e0 : win3_3.index t (0 : Fin 2) = 0 := (idx3_3 t).1
  have e1 : win3_3.index t (1 : Fin 2) = 0 := (idx3_3 t).2
  funext y
  show V c main_v126 (((cfg3.win 3).blk t).view.emb y) = V c main_v126 y
  refine congrArg _ ?_
  funext a; apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- Input window 4's block is its whole array at every point. -/
theorem read3_4 (t : Fin cfg3.N) : (iblk3 V c 4 t : Mat 1 128) = V c main_v127 := by
  have e0 : win3_4.index t (0 : Fin 2) = 0 := (idx3_4 t).1
  have e1 : win3_4.index t (1 : Fin 2) = 0 := (idx3_4 t).2
  funext y
  show V c main_v127 (((cfg3.win 4).blk t).view.emb y) = V c main_v127 y
  refine congrArg _ ?_
  funext a; apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-! ## The output array -/

/-- The layer's function of the whole arrays the region found. -/
abbrev G3 : S10000x128.Idx → EReal :=
  relu (ln (lin (V c main_v70) (V c main_v118) (rowOf (V c main_v125))) (rowOf (V c main_v126)) (rowOf (V c main_v127)))

/-- What point t writes back is block t of the layer's function of the whole arrays: every row of the block is the
    row-wise function of the same row of the input block, and that is row 5000 t + p of the array. -/
theorem flushed3 (t : Fin cfg3.N) :
    (dat3 (F := Ideal) V c).flushed 5 t = ((cfg3.win 5).blk t).view.read (Elt Ideal) (G3 V c) := by
  have ht : t.val < 2 := Nat.lt_of_lt_of_eq t.isLt (show cfg3.N = 2 from N_3)
  show (cfg3.win 5).cut (grid3.coords t) ((dat3 V c).after 5 t) = _
  rw [after3_5]
  rw [out3_5_eq (iblk3 V c 0 t) (iblk3 V c 1 t) (iblk3 V c 2 t) (iblk3 V c 3 t) (iblk3 V c 4 t)]
  rw [read3_1 V c t, read3_2 V c t, read3_3 V c t, read3_4 V c t]
  funext y
  obtain ⟨p, q, rfl⟩ : ∃ (p : Fin 5000) (q : Fin 128), y = ix2 p q := ⟨y 0, y 1, eq_ix2 y⟩
  have hr : 5000 * t.val + p.val < 10000 := by have := p.isLt; omega
  have e0 : win3_5.index t (0 : Fin 2) = t.val := (idx3_5 t).1
  have e1 : win3_5.index t (1 : Fin 2) = 0 := (idx3_5 t).2
  have hemb : ((cfg3.win 5).blk t).view.emb (ix2 p q) = ix2 (⟨5000 * t.val + p.val, hr⟩ : Fin 10000) q := by
    funext a; apply Fin.ext
    match a with
    | ⟨0, _⟩ => show win3_5.index t (0 : Fin 2) * 5000 + 1 * p.val = 5000 * t.val + p.val; rw [e0]; omega
    | ⟨1, _⟩ => show win3_5.index t (1 : Fin 2) * 128 + 1 * q.val = q.val; rw [e1]; omega
  show _ = G3 V c (((cfg3.win 5).blk t).view.emb (ix2 p q))
  rw [hemb]
  exact pointPC _ _ _ _ _ _ p ⟨5000 * t.val + p.val, hr⟩ q (fun j => read3_0 V c t p j _ rfl)

/-- An index of the output array is in point t's block iff each coordinate is in the block's range on its axis. -/
theorem mem_blk3 (t : Fin cfg3.N) (i : S10000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v128).slice (win3_5.rect t)).set ↔ _
  rw [View.set_slice_whole, Rect.mem_set_unit]
  exact Iff.rfl

/-- Row r of the output array is covered by point r / 5000. -/
theorem cover3 (i : S10000x128.Idx) :
    ∃ t : Fin cfg3.N, (cfg3.win 5).flush t = true ∧ i ∈ ((cfg3.win 5).blk t).view.set := by
  have hi0 : (i 0).val < 10000 := (i 0).isLt
  have hi1 : (i 1).val < 128 := (i 1).isLt
  have hN : cfg3.N = 2 := N_3
  have ht : (i 0).val / 5000 < cfg3.N := by rw [hN]; omega
  refine ⟨⟨(i 0).val / 5000, ht⟩, flush3_5 _, ?_⟩
  rw [mem_blk3]
  have e0 : win3_5.index ⟨(i 0).val / 5000, ht⟩ (0 : Fin 2) = (i 0).val / 5000 := (idx3_5 _).1
  have e1 : win3_5.index ⟨(i 0).val / 5000, ht⟩ (1 : Fin 2) = 0 := (idx3_5 _).2
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e0]; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e1]; omega

/-- The output array after the whole grid: the layer's function of the whole arrays. -/
theorem final3 : (dat3 (F := Ideal) V c).arrAt 5 cfg3.N = G3 V c :=
  (dat3 V c).arrAt_eq_of_cover 5 (G3 V c) (fun t _ => flushed3 V c t) (cover3)

end Cert.KernelIdeal.HG.Blocks

end
-- ==== Proof.KBlocksR4.lean ====
/-
  Region 4 (the graph branch of layer 3): the output array after the whole grid, as one function of the arrays
  the region found.  Grid point t (of 20) loads rows 5000 t … 5000 t + 4999 of the node features and of the two
  neighbourhood means, and the whole of the three weight matrices and of the one-row bias, scale and shift; it writes
  back rows 5000 t … 5000 t + 4999 of the output.  Every row of the block it writes is the row-wise function of the
  same row of the blocks it loaded, hence row 5000 t + p of that function of the whole arrays.  Row r of the output
  is covered by point r / 5000, so the twenty blocks fill the array and it ends holding the function of the whole
  arrays.
-/
import proofs.«178392_j50105088475140_1_alg».proof.Proof.Gen.KernelIdeal.Frame
import proofs.«178392_j50105088475140_1_alg».proof.Proof.KBodyH
import proofs.«178392_j50105088475140_1_alg».proof.Proof.KBlocksRow

noncomputable section

namespace Cert.KernelIdeal.HG.Blocks

open Idealize.ShloMosaic Idealize.ShloMosaic.TcCoe Idealize.SL.Sem Cert.KernelIdeal Cert.KernelIdeal.Gen
open Idealize.ShloMosaic.ValueIdx
open Cert.HG Cert.LibMlp

variable (V : (c : Dev nD) → (b : Ref sig .tc) → Buf (Elt Ideal) ((c : Thread nD τ).loc b)) (c : Dev nD)

/-! ## The block index maps, decided over the grid: the row-tiled windows sit at block (t, 0), the others at (0, 0) -/

theorem idx4_0 : ∀ t : Fin cfg4.N, win4_0.index t (0 : Fin 2) = t.val ∧ win4_0.index t (1 : Fin 2) = 0 :=
  (by decide +kernel : ∀ t : Fin grid4.N, _)

theorem idx4_1 : ∀ t : Fin cfg4.N, win4_1.index t (0 : Fin 2) = t.val ∧ win4_1.index t (1 : Fin 2) = 0 :=
  (by decide +kernel : ∀ t : Fin grid4.N, _)

theorem idx4_2 : ∀ t : Fin cfg4.N, win4_2.index t (0 : Fin 2) = t.val ∧ win4_2.index t (1 : Fin 2) = 0 :=
  (by decide +kernel : ∀ t : Fin grid4.N, _)

theorem idx4_9 : ∀ t : Fin cfg4.N, win4_9.index t (0 : Fin 2) = t.val ∧ win4_9.index t (1 : Fin 2) = 0 :=
  (by decide +kernel : ∀ t : Fin grid4.N, _)

theorem idx4_3 : ∀ t : Fin cfg4.N, win4_3.index t (0 : Fin 2) = 0 ∧ win4_3.index t (1 : Fin 2) = 0 :=
  (by decide +kernel : ∀ t : Fin grid4.N, _)

theorem idx4_4 : ∀ t : Fin cfg4.N, win4_4.index t (0 : Fin 2) = 0 ∧ win4_4.index t (1 : Fin 2) = 0 :=
  (by decide +kernel : ∀ t : Fin grid4.N, _)

theorem idx4_5 : ∀ t : Fin cfg4.N, win4_5.index t (0 : Fin 2) = 0 ∧ win4_5.index t (1 : Fin 2) = 0 :=
  (by decide +kernel : ∀ t : Fin grid4.N, _)

theorem idx4_6 : ∀ t : Fin cfg4.N, win4_6.index t (0 : Fin 2) = 0 ∧ win4_6.index t (1 : Fin 2) = 0 :=
  (by decide +kernel : ∀ t : Fin grid4.N, _)

theorem idx4_7 : ∀ t : Fin cfg4.N, win4_7.index t (0 : Fin 2) = 0 ∧ win4_7.index t (1 : Fin 2) = 0 :=
  (by decide +kernel : ∀ t : Fin grid4.N, _)

theorem idx4_8 : ∀ t : Fin cfg4.N, win4_8.index t (0 : Fin 2) = 0 ∧ win4_8.index t (1 : Fin 2) = 0 :=
  (by decide +kernel : ∀ t : Fin grid4.N, _)

/-! ## The blocks the body loads, as rows of the arrays the region found -/

/-- Input window 0's block at point t holds rows 5000 t … 5000 t + 4999 of its array. -/
theorem read4_0 (t : Fin cfg4.N) (p : Fin 5000) (j : Fin 128) (r : Fin 100000) (hr : r.val = 5000 * t.val + p.val) :
    (iblk4 V c 0 t : Mat 5000 128) (ix2 p j) = (V c main_v116 : Mat 100000 128) (ix2 r j) := by
  have e0 : win4_0.index t (0 : Fin 2) = t.val := (idx4_0 t).1
  have e1 : win4_0.index t (1 : Fin 2) = 0 := (idx4_0 t).2
  show V c main_v116 (((cfg4.win 0).blk t).view.emb (ix2 p j)) = V c main_v116 (ix2 r j)
  refine congrArg _ ?_
  funext a; apply Fin.ext
  match a with
  | ⟨0, _⟩ => show win4_0.index t (0 : Fin 2) * 5000 + 1 * p.val = r.val; rw [e0, hr]; omega
  | ⟨1, _⟩ => show win4_0.index t (1 : Fin 2) * 128 + 1 * j.val = j.val; rw [e1]; omega

/-- Input window 1's block at point t holds rows 5000 t … 5000 t + 4999 of its array. -/
theorem read4_1 (t : Fin cfg4.N) (p : Fin 5000) (j : Fin 128) (r : Fin 100000) (hr : r.val = 5000 * t.val + p.val) :
    (iblk4 V c 1 t : Mat 5000 128) (ix2 p j) = (V c main_v150 : Mat 100000 128) (ix2 r j) := by
  have e0 : win4_1.index t (0 : Fin 2) = t.val := (idx4_1 t).1
  have e1 : win4_1.index t (1 : Fin 2) = 0 := (idx4_1 t).2
  show V c main_v150 (((cfg4.win 1).blk t).view.emb (ix2 p j)) = V c main_v150 (ix2 r j)
  refine congrArg _ ?_
  funext a; apply Fin.ext
  match a with
  | ⟨0, _⟩ => show win4_1.index t (0 : Fin 2) * 5000 + 1 * p.val = r.val; rw [e0, hr]; omega
  | ⟨1, _⟩ => show win4_1.index t (1 : Fin 2) * 128 + 1 * j.val = j.val; rw [e1]; omega

/-- Input window 2's block at point t holds rows 5000 t … 5000 t + 4999 of its array. -/
theorem read4_2 (t : Fin cfg4.N) (p : Fin 5000) (j : Fin 128) (r : Fin 100000) (hr : r.val = 5000 * t.val + p.val) :
    (iblk4 V c 2 t : Mat 5000 128) (ix2 p j) = (V c main_v152 : Mat 100000 128) (ix2 r j) := by
  have e0 : win4_2.index t (0 : Fin 2) = t.val := (idx4_2 t).1
  have e1 : win4_2.index t (1 : Fin 2) = 0 := (idx4_2 t).2
  show V c main_v152 (((cfg4.win 2).blk t).view.emb (ix2 p j)) = V c main_v152 (ix2 r j)
  refine congrArg _ ?_
  funext a; apply Fin.ext
  match a with
  | ⟨0, _⟩ => show win4_2.index t (0 : Fin 2) * 5000 + 1 * p.val = r.val; rw [e0, hr]; omega
  | ⟨1, _⟩ => show win4_2.index t (1 : Fin 2) * 128 + 1 * j.val = j.val; rw [e1]; omega

/-- Input window 3's block is its whole array at every point. -/
theorem read4_3 (t : Fin cfg4.N) : (iblk4 V c 3 t : Mat 128 128) = V c main_v157 := by
  have e0 : win4_3.index t (0 : Fin 2) = 0 := (idx4_3 t).1
  have e1 : win4_3.index t (1 : Fin 2) = 0 := (idx4_3 t).2
  funext y
  show V c main_v157 (((cfg4.win 3).blk t).view.emb y) = V c main_v157 y
  refine congrArg _ ?_
  funext a; apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- Input window 4's block is its whole array at every point. -/
theorem read4_4 (t : Fin cfg4.N) : (iblk4 V c 4 t : Mat 128 128) = V c main_v164 := by
  have e0 : win4_4.index t (0 : Fin 2) = 0 := (idx4_4 t).1
  have e1 : win4_4.index t (1 : Fin 2) = 0 := (idx4_4 t).2
  funext y
  show V c main_v164 (((cfg4.win 4).blk t).view.emb y) = V c main_v164 y
  refine congrArg _ ?_
  funext a; apply Fin.ext
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega

/-- Input window 5's block is its whole array at every point. -/
theorem read4_5 (t : Fin cfg4.N) : (iblk4 V c 5 t : Mat 128 128) = V c main_v166 := by
  have e0 : win4_5.index t (0 : Fin 2) = 0 := (idx4_5 t).1
  have e1 : win4_5.index t (1 : Fin 2) = 0 := (idx4_5 t).2
  funext y
  show V c main_v166 (((cfg4.win 5).blk t).view.emb y) = V c main_v166 y
  refine congrArg _ ?_
  funext a; apply Fin.ext
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega

/-- Input window 6's block is its whole array at every point. -/
theorem read4_6 (t : Fin cfg4.N) : (iblk4 V c 6 t : Mat 1 128) = V c main_v171 := by
  have e0 : win4_6.index t (0 : Fin 2) = 0 := (idx4_6 t).1
  have e1 : win4_6.index t (1 : Fin 2) = 0 := (idx4_6 t).2
  funext y
  show V c main_v171 (((cfg4.win 6).blk t).view.emb y) = V c main_v171 y
  refine congrArg _ ?_
  funext a; apply Fin.ext
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-- Input window 7's block is its whole array at every point. -/
theorem read4_7 (t : Fin cfg4.N) : (iblk4 V c 7 t : Mat 1 128) = V c main_v172 := by
  have e0 : win4_7.index t (0 : Fin 2) = 0 := (idx4_7 t).1
  have e1 : win4_7.index t (1 : Fin 2) = 0 := (idx4_7 t).2
  funext y
  show V c main_v172 (((cfg4.win 7).blk t).view.emb y) = V c main_v172 y
  refine congrArg _ ?_
  funext a; apply Fin.ext
  match a with
  | ⟨0, _⟩ => show win4_7.index t (0 : Fin 2) * 1 + 1 * (y 0).val = (y 0).val; rw [e0]; omega
  | ⟨1, _⟩ => show win4_7.index t (1 : Fin 2) * 128 + 1 * (y 1).val = (y 1).val; rw [e1]; omega

/-- Input window 8's block is its whole array at every point. -/
theorem read4_8 (t : Fin cfg4.N) : (iblk4 V c 8 t : Mat 1 128) = V c main_v173 := by
  have e0 : win4_8.index t (0 : Fin 2) = 0 := (idx4_8 t).1
  have e1 : win4_8.index t (1 : Fin 2) = 0 := (idx4_8 t).2
  funext y
  show V c main_v173 (((cfg4.win 8).blk t).view.emb y) = V c main_v173 y
  refine congrArg _ ?_
  funext a; apply Fin.ext
  match a with
  | ⟨0, _⟩ => show win4_8.index t (0 : Fin 2) * 1 + 1 * (y 0).val = (y 0).val; rw [e0]; omega
  | ⟨1, _⟩ => show win4_8.index t (1 : Fin 2) * 128 + 1 * (y 1).val = (y 1).val; rw [e1]; omega

/-! ## The output array -/

/-- The layer's function of the whole arrays the region found. -/
abbrev G4 : S100000x128.Idx → EReal :=
  ln (hcK (V c main_v116) (V c main_v150) (V c main_v152) (V c main_v157) (V c main_v164) (V c main_v166) (rowOf (V c main_v171))) (rowOf (V c main_v172)) (rowOf (V c main_v173))

/-- What point t writes back is block t of the layer's function of the whole arrays: every row of the block is the
    row-wise function of the same row of the input blocks, and those are rows 5000 t + p of the arrays. -/
theorem flushed4 (t : Fin cfg4.N) :
    (dat4 (F := Ideal) V c).flushed 9 t = ((cfg4.win 9).blk t).view.read (Elt Ideal) (G4 V c) := by
  have ht : t.val < 20 := Nat.lt_of_lt_of_eq t.isLt (show cfg4.N = 20 from N_4)
  show (cfg4.win 9).cut (grid4.coords t) ((dat4 V c).after 9 t) = _
  rw [after4_9]
  rw [out4_9_eq (iblk4 V c 0 t) (iblk4 V c 1 t) (iblk4 V c 2 t) (iblk4 V c 3 t) (iblk4 V c 4 t) (iblk4 V c 5 t) (iblk4 V c 6 t) (iblk4 V c 7 t) (iblk4 V c 8 t)]
  rw [read4_3 V c t, read4_4 V c t, read4_5 V c t, read4_6 V c t, read4_7 V c t, read4_8 V c t]
  funext y
  obtain ⟨p, q, rfl⟩ : ∃ (p : Fin 5000) (q : Fin 128), y = ix2 p q := ⟨y 0, y 1, eq_ix2 y⟩
  have hr : 5000 * t.val + p.val < 100000 := by have := p.isLt; omega
  have e0 : win4_9.index t (0 : Fin 2) = t.val := (idx4_9 t).1
  have e1 : win4_9.index t (1 : Fin 2) = 0 := (idx4_9 t).2
  have hemb : ((cfg4.win 9).blk t).view.emb (ix2 p q) = ix2 (⟨5000 * t.val + p.val, hr⟩ : Fin 100000) q := by
    funext a; apply Fin.ext
    match a with
    | ⟨0, _⟩ => show win4_9.index t (0 : Fin 2) * 5000 + 1 * p.val = 5000 * t.val + p.val; rw [e0]; omega
    | ⟨1, _⟩ => show win4_9.index t (1 : Fin 2) * 128 + 1 * q.val = q.val; rw [e1]; omega
  show _ = G4 V c (((cfg4.win 9).blk t).view.emb (ix2 p q))
  rw [hemb]
  exact pointHn _ _ _ _ _ _ _ _ _ _ _ _ p ⟨5000 * t.val + p.val, hr⟩ q
    (fun j => read4_0 V c t p j _ rfl) (fun j => read4_1 V c t p j _ rfl) (fun j => read4_2 V c t p j _ rfl)

/-- An index of the output array is in point t's block iff each coordinate is in the block's range on its axis. -/
theorem mem_blk4 (t : Fin cfg4.N) (i : S100000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v174).slice (win4_9.rect t)).set ↔ _
  rw [View.set_slice_whole, Rect.mem_set_unit]
  exact Iff.rfl

/-- Row r of the output array is covered by point r / 5000. -/
theorem cover4 (i : S100000x128.Idx) :
    ∃ t : Fin cfg4.N, (cfg4.win 9).flush t = true ∧ i ∈ ((cfg4.win 9).blk t).view.set := by
  have hi0 : (i 0).val < 100000 := (i 0).isLt
  have hi1 : (i 1).val < 128 := (i 1).isLt
  have hN : cfg4.N = 20 := N_4
  have ht : (i 0).val / 5000 < cfg4.N := by rw [hN]; omega
  refine ⟨⟨(i 0).val / 5000, ht⟩, flush4_9 _, ?_⟩
  rw [mem_blk4]
  have e0 : win4_9.index ⟨(i 0).val / 5000, ht⟩ (0 : Fin 2) = (i 0).val / 5000 := (idx4_9 _).1
  have e1 : win4_9.index ⟨(i 0).val / 5000, ht⟩ (1 : Fin 2) = 0 := (idx4_9 _).2
  intro a
  match a with
  | ⟨0, _⟩ =>
    show win4_9.index ⟨(i 0).val / 5000, ht⟩ (0 : Fin 2) * 5000 ≤ (i 0).val ∧ (i 0).val < win4_9.index ⟨(i 0).val / 5000, ht⟩ (0 : Fin 2) * 5000 + 5000
    rw [e0]; omega
  | ⟨1, _⟩ =>
    show win4_9.index ⟨(i 0).val / 5000, ht⟩ (1 : Fin 2) * 128 ≤ (i 1).val ∧ (i 1).val < win4_9.index ⟨(i 0).val / 5000, ht⟩ (1 : Fin 2) * 128 + 128
    rw [e1]; omega

/-- The output array after the whole grid: the layer's function of the whole arrays. -/
theorem final4 : (dat4 (F := Ideal) V c).arrAt 9 cfg4.N = G4 V c :=
  (dat4 V c).arrAt_eq_of_cover 9 (G4 V c) (fun t _ => flushed4 V c t) (cover4)

end Cert.KernelIdeal.HG.Blocks

end
-- ==== Proof.KBlocksR5.lean ====
/-
  Region 5 (the class branch of layer 3): the output array after the whole grid, as one function of the arrays
  the region found.  Grid point t (of 2) loads rows 5000 t … 5000 t + 4999 of the class features and the whole of the
  weight matrix and of the one-row bias, scale and shift; it writes back rows 5000 t … 5000 t + 4999 of the output.
  Every row of the block it writes is the row-wise function of the same row of the block it loaded, hence row
  5000 t + p of that function of the whole array.  Row r of the output is covered by point r / 5000, so the two
  blocks fill the array and it ends holding the function of the whole arrays.
-/
import proofs.«178392_j50105088475140_1_alg».proof.Proof.Gen.KernelIdeal.Frame
import proofs.«178392_j50105088475140_1_alg».proof.Proof.KBodyPC
import proofs.«178392_j50105088475140_1_alg».proof.Proof.KBlocksRow

noncomputable section

namespace Cert.KernelIdeal.HG.Blocks

open Idealize.ShloMosaic Idealize.ShloMosaic.TcCoe Idealize.SL.Sem Cert.KernelIdeal Cert.KernelIdeal.Gen
open Idealize.ShloMosaic.ValueIdx
open Cert.HG Cert.LibMlp

variable (V : (c : Dev nD) → (b : Ref sig .tc) → Buf (Elt Ideal) ((c : Thread nD τ).loc b)) (c : Dev nD)

/-! ## The block index maps, decided over the grid: the row-tiled windows sit at block (t, 0), the others at (0, 0) -/

theorem idx5_0 : ∀ t : Fin cfg5.N, win5_0.index t (0 : Fin 2) = t.val ∧ win5_0.index t (1 : Fin 2) = 0 :=
  (by decide +kernel : ∀ t : Fin grid5.N, _)

theorem idx5_5 : ∀ t : Fin cfg5.N, win5_5.index t (0 : Fin 2) = t.val ∧ win5_5.index t (1 : Fin 2) = 0 :=
  (by decide +kernel : ∀ t : Fin grid5.N, _)

theorem idx5_1 : ∀ t : Fin cfg5.N, win5_1.index t (0 : Fin 2) = 0 ∧ win5_1.index t (1 : Fin 2) = 0 :=
  (by decide +kernel : ∀ t : Fin grid5.N, _)

theorem idx5_2 : ∀ t : Fin cfg5.N, win5_2.index t (0 : Fin 2) = 0 ∧ win5_2.index t (1 : Fin 2) = 0 :=
  (by decide +kernel : ∀ t : Fin grid5.N, _)

theorem idx5_3 : ∀ t : Fin cfg5.N, win5_3.index t (0 : Fin 2) = 0 ∧ win5_3.index t (1 : Fin 2) = 0 :=
  (by decide +kernel : ∀ t : Fin grid5.N, _)

theorem idx5_4 : ∀ t : Fin cfg5.N, win5_4.index t (0 : Fin 2) = 0 ∧ win5_4.index t (1 : Fin 2) = 0 :=
  (by decide +kernel : ∀ t : Fin grid5.N, _)

/-! ## The blocks the body loads, as rows of the arrays the region found -/

/-- Input window 0's block at point t holds rows 5000 t … 5000 t + 4999 of its array. -/
theorem read5_0 (t : Fin cfg5.N) (p : Fin 5000) (j : Fin 128) (r : Fin 10000) (hr : r.val = 5000 * t.val + p.val) :
    (iblk5 V c 0 t : Mat 5000 128) (ix2 p j) = (V c main_v128 : Mat 10000 128) (ix2 r j) := by
  have e0 : win5_0.index t (0 : Fin 2) = t.val := (idx5_0 t).1
  have e1 : win5_0.index t (1 : Fin 2) = 0 := (idx5_0 t).2
  show V c main_v128 (((cfg5.win 0).blk t).view.emb (ix2 p j)) = V c main_v128 (ix2 r j)
  refine congrArg _ ?_
  funext a; apply Fin.ext
  match a with
  | ⟨0, _⟩ => show win5_0.index t (0 : Fin 2) * 5000 + 1 * p.val = r.val; rw [e0, hr]; omega
  | ⟨1, _⟩ => show win5_0.index t (1 : Fin 2) * 128 + 1 * j.val = j.val; rw [e1]; omega

/-- Input window 1's block is its whole array at every point. -/
theorem read5_1 (t : Fin cfg5.N) : (iblk5 V c 1 t : Mat 128 128) = V c main_v176 := by
  have e0 : win5_1.index t (0 : Fin 2) = 0 := (idx5_1 t).1
  have e1 : win5_1.index t (1 : Fin 2) = 0 := (idx5_1 t).2
  funext y
  show V c main_v176 (((cfg5.win 1).blk t).view.emb y) = V c main_v176 y
  refine congrArg _ ?_
  funext a; apply Fin.ext
  match a with
  | ⟨0, _⟩ => show win5_1.index t (0 : Fin 2) * 128 + 1 * (y 0).val = (y 0).val; rw [e0]; omega
  | ⟨1, _⟩ => show win5_1.index t (1 : Fin 2) * 128 + 1 * (y 1).val = (y 1).val; rw [e1]; omega

/-- Input window 2's block is its whole array at every point. -/
theorem read5_2 (t : Fin cfg5.N) : (iblk5 V c 2 t : Mat 1 128) = V c main_v183 := by
  have e0 : win5_2.index t (0 : Fin 2) = 0 := (idx5_2 t).1
  have e1 : win5_2.index t (1 : Fin 2) = 0 := (idx5_2 t).2
  funext y
  show V c main_v183 (((cfg5.win 2).blk t).view.emb y) = V c main_v183 y
  refine congrArg _ ?_
  funext a; apply Fin.ext
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

/-- Input window 3's block is its whole array at every point. -/
theorem read5_3 (t : Fin cfg5.N) : (iblk5 V c 3 t : Mat 1 128) = V c main_v184 := by
  have e0 : win5_3.index t (0 : Fin 2) = 0 := (idx5_3 t).1
  have e1 : win5_3.index t (1 : Fin 2) = 0 := (idx5_3 t).2
  funext y
  show V c main_v184 (((cfg5.win 3).blk t).view.emb y) = V c main_v184 y
  refine congrArg _ ?_
  funext a; apply Fin.ext
  match a with
  | ⟨0, _⟩ => show win5_3.index t (0 : Fin 2) * 1 + 1 * (y 0).val = (y 0).val; rw [e0]; omega
  | ⟨1, _⟩ => show win5_3.index t (1 : Fin 2) * 128 + 1 * (y 1).val = (y 1).val; rw [e1]; omega

/-- Input window 4's block is its whole array at every point. -/
theorem read5_4 (t : Fin cfg5.N) : (iblk5 V c 4 t : Mat 1 128) = V c main_v185 := by
  have e0 : win5_4.index t (0 : Fin 2) = 0 := (idx5_4 t).1
  have e1 : win5_4.index t (1 : Fin 2) = 0 := (idx5_4 t).2
  funext y
  show V c main_v185 (((cfg5.win 4).blk t).view.emb y) = V c main_v185 y
  refine congrArg _ ?_
  funext a; apply Fin.ext
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-! ## The output array -/

/-- The layer's function of the whole arrays the region found. -/
abbrev G5 : S10000x128.Idx → EReal :=
  ln (lin (V c main_v128) (V c main_v176) (rowOf (V c main_v183))) (rowOf (V c main_v184)) (rowOf (V c main_v185))

/-- What point t writes back is block t of the layer's function of the whole arrays: every row of the block is the
    row-wise function of the same row of the input block, and that is row 5000 t + p of the array. -/
theorem flushed5 (t : Fin cfg5.N) :
    (dat5 (F := Ideal) V c).flushed 5 t = ((cfg5.win 5).blk t).view.read (Elt Ideal) (G5 V c) := by
  have ht : t.val < 2 := Nat.lt_of_lt_of_eq t.isLt (show cfg5.N = 2 from N_5)
  show (cfg5.win 5).cut (grid5.coords t) ((dat5 V c).after 5 t) = _
  rw [after5_5]
  rw [out5_5_eq (iblk5 V c 0 t) (iblk5 V c 1 t) (iblk5 V c 2 t) (iblk5 V c 3 t) (iblk5 V c 4 t)]
  rw [read5_1 V c t, read5_2 V c t, read5_3 V c t, read5_4 V c t]
  funext y
  obtain ⟨p, q, rfl⟩ : ∃ (p : Fin 5000) (q : Fin 128), y = ix2 p q := ⟨y 0, y 1, eq_ix2 y⟩
  have hr : 5000 * t.val + p.val < 10000 := by have := p.isLt; omega
  have e0 : win5_5.index t (0 : Fin 2) = t.val := (idx5_5 t).1
  have e1 : win5_5.index t (1 : Fin 2) = 0 := (idx5_5 t).2
  have hemb : ((cfg5.win 5).blk t).view.emb (ix2 p q) = ix2 (⟨5000 * t.val + p.val, hr⟩ : Fin 10000) q := by
    funext a; apply Fin.ext
    match a with
    | ⟨0, _⟩ => show win5_5.index t (0 : Fin 2) * 5000 + 1 * p.val = 5000 * t.val + p.val; rw [e0]; omega
    | ⟨1, _⟩ => show win5_5.index t (1 : Fin 2) * 128 + 1 * q.val = q.val; rw [e1]; omega
  show _ = G5 V c (((cfg5.win 5).blk t).view.emb (ix2 p q))
  rw [hemb]
  exact pointPCn _ _ _ _ _ _ p ⟨5000 * t.val + p.val, hr⟩ q (fun j => read5_0 V c t p j _ rfl)

/-- An index of the output array is in point t's block iff each coordinate is in the block's range on its axis. -/
theorem mem_blk5 (t : Fin cfg5.N) (i : S10000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v186).slice (win5_5.rect t)).set ↔ _
  rw [View.set_slice_whole, Rect.mem_set_unit]
  exact Iff.rfl

/-- Row r of the output array is covered by point r / 5000. -/
theorem cover5 (i : S10000x128.Idx) :
    ∃ t : Fin cfg5.N, (cfg5.win 5).flush t = true ∧ i ∈ ((cfg5.win 5).blk t).view.set := by
  have hi0 : (i 0).val < 10000 := (i 0).isLt
  have hi1 : (i 1).val < 128 := (i 1).isLt
  have hN : cfg5.N = 2 := N_5
  have ht : (i 0).val / 5000 < cfg5.N := by rw [hN]; omega
  refine ⟨⟨(i 0).val / 5000, ht⟩, flush5_5 _, ?_⟩
  rw [mem_blk5]
  have e0 : win5_5.index ⟨(i 0).val / 5000, ht⟩ (0 : Fin 2) = (i 0).val / 5000 := (idx5_5 _).1
  have e1 : win5_5.index ⟨(i 0).val / 5000, ht⟩ (1 : Fin 2) = 0 := (idx5_5 _).2
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e0]; omega
  | ⟨1, _⟩ =>
    show win5_5.index ⟨(i 0).val / 5000, ht⟩ (1 : Fin 2) * 128 ≤ (i 1).val ∧ (i 1).val < win5_5.index ⟨(i 0).val / 5000, ht⟩ (1 : Fin 2) * 128 + 128
    rw [e1]; omega

/-- The output array after the whole grid: the layer's function of the whole arrays. -/
theorem final5 : (dat5 (F := Ideal) V c).arrAt 5 cfg5.N = G5 V c :=
  (dat5 V c).arrAt_eq_of_cover 5 (G5 V c) (fun t _ => flushed5 V c t) (cover5)

end Cert.KernelIdeal.HG.Blocks

end
-- ==== Proof.KBlocks.lean ====
/-
  Each region's output array after its grid has run, as one function of the arrays the region found: block t of
  the output holds rows 5000 t … 5000 t + 4999, and every row of a block is the row-wise function of the
  specification applied to the same row of the input blocks, so the blocks together are that function of the
  whole arrays.  One module per region proves it (the block reads, what a point writes back, the cover of the array
  by the points' blocks); here the six results are stated together.
-/
import proofs.«178392_j50105088475140_1_alg».proof.Proof.Gen.KernelIdeal.Frame
import proofs.«178392_j50105088475140_1_alg».proof.Proof.KBodyH
import proofs.«178392_j50105088475140_1_alg».proof.Proof.KBodyPC
import proofs.«178392_j50105088475140_1_alg».proof.Proof.SpecLaws
import proofs.«178392_j50105088475140_1_alg».proof.Proof.KBlocksR0
import proofs.«178392_j50105088475140_1_alg».proof.Proof.KBlocksR1
import proofs.«178392_j50105088475140_1_alg».proof.Proof.KBlocksR2
import proofs.«178392_j50105088475140_1_alg».proof.Proof.KBlocksR3
import proofs.«178392_j50105088475140_1_alg».proof.Proof.KBlocksR4
import proofs.«178392_j50105088475140_1_alg».proof.Proof.KBlocksR5

noncomputable section

namespace Cert.KernelIdeal.HG

open Idealize.ShloMosaic Idealize.ShloMosaic.TcCoe Idealize.SL.Sem Cert.KernelIdeal Cert.KernelIdeal.Gen
open Cert.HG Cert.LibMlp

variable (V : (c : Dev nD) → (b : Ref sig .tc) → Buf (Elt Ideal) ((c : Thread nD τ).loc b)) (c : Dev nD)

/-- Region 0's output array after its last grid point. -/
theorem arr0 : ((Gen.dat0 (F := Ideal) V c).arrAt 9 cfg0.N : FVec Ideal S100000x128 .f32)
    = relu (ln (hcK (V c main_arg0) (V c main_v34) (V c main_v36) (V c main_v41) (V c main_v48) (V c main_v50) (rowOf (V c main_v55))) (rowOf (V c main_v56)) (rowOf (V c main_v57))) :=
  Blocks.final0 V c

/-- Region 1's output array after its last grid point. -/
theorem arr1 : ((Gen.dat1 (F := Ideal) V c).arrAt 5 cfg1.N : FVec Ideal S10000x128 .f32)
    = relu (ln (lin (V c main_arg1) (V c main_v60) (rowOf (V c main_v67))) (rowOf (V c main_v68)) (rowOf (V c main_v69))) :=
  Blocks.final1 V c

/-- Region 2's output array after its last grid point. -/
theorem arr2 : ((Gen.dat2 (F := Ideal) V c).arrAt 9 cfg2.N : FVec Ideal S100000x128 .f32)
    = relu (ln (hcK (V c main_v58) (V c main_v92) (V c main_v94) (V c main_v99) (V c main_v106) (V c main_v108) (rowOf (V c main_v113))) (rowOf (V c main_v114)) (rowOf (V c main_v115))) :=
  Blocks.final2 V c

/-- Region 3's output array after its last grid point. -/
theorem arr3 : ((Gen.dat3 (F := Ideal) V c).arrAt 5 cfg3.N : FVec Ideal S10000x128 .f32)
    = relu (ln (lin (V c main_v70) (V c main_v118) (rowOf (V c main_v125))) (rowOf (V c main_v126)) (rowOf (V c main_v127))) :=
  Blocks.final3 V c

/-- Region 4's output array after its last grid point. -/
theorem arr4 : ((Gen.dat4 (F := Ideal) V c).arrAt 9 cfg4.N : FVec Ideal S100000x128 .f32)
    = ln (hcK (V c main_v116) (V c main_v150) (V c main_v152) (V c main_v157) (V c main_v164) (V c main_v166) (rowOf (V c main_v171))) (rowOf (V c main_v172)) (rowOf (V c main_v173)) :=
  Blocks.final4 V c

/-- Region 5's output array after its last grid point. -/
theorem arr5 : ((Gen.dat5 (F := Ideal) V c).arrAt 5 cfg5.N : FVec Ideal S10000x128 .f32)
    = ln (lin (V c main_v128) (V c main_v176) (rowOf (V c main_v183))) (rowOf (V c main_v184)) (rowOf (V c main_v185)) :=
  Blocks.final5 V c

end Cert.KernelIdeal.HG

end
-- ==== Proof.KChain.lean ====
/-
  The contents of the buffers each region of the kernel program finds, and of each region's output array, as
  functions of the thirteen arguments, boundary by boundary along the run.  An argument is never written, so it
  holds its launch contents at every boundary; the in-degree columns are written once, by the first host stretch;
  a region's output array is touched by no later step before it is read.  With the host stretches as functions of
  what they read and each region's output array as the row-wise layer function of the arrays it finds, the node
  features and the class features after each layer are the specification's functions kerH1, kerPC1, ... of the
  arguments.
-/
import proofs.«178392_j50105088475140_1_alg».proof.Proof.KKeep
import proofs.«178392_j50105088475140_1_alg».proof.Proof.KHost0
import proofs.«178392_j50105088475140_1_alg».proof.Proof.KHost1
import proofs.«178392_j50105088475140_1_alg».proof.Proof.KHost2
import proofs.«178392_j50105088475140_1_alg».proof.Proof.KHost4
import proofs.«178392_j50105088475140_1_alg».proof.Proof.KBlocks

set_option maxRecDepth 16384

noncomputable section

namespace Cert.KernelIdeal.HG.Chain

open Idealize.ShloMosaic Idealize.ShloMosaic.TcCoe Idealize.SL.Sem Cert.KernelIdeal Cert.KernelIdeal.Gen
open Idealize.ShloMosaic.StableHlo
open Cert.HG Cert.LibMlp Cert.KernelIdeal.HG

variable (m : (ℓ : Loc nD τ sig) → Buf (Elt Ideal) ℓ) (ρ : Dev nD → PrngReg) (c : Dev nD)

-- the arguments' launch contents and the layers' results over them, abbreviated (the abbreviations mention the section's variables)
set_option quotPrecheck false

local notation "𝐱0" => m ((c.tc : Thread nD τ).loc main_arg0)
local notation "𝐱1" => m ((c.tc : Thread nD τ).loc main_arg1)
local notation "𝐱2" => m ((c.tc : Thread nD τ).loc main_arg2)
local notation "𝐱3" => m ((c.tc : Thread nD τ).loc main_arg3)
local notation "𝐱4" => m ((c.tc : Thread nD τ).loc main_arg4)
local notation "𝐱5" => m ((c.tc : Thread nD τ).loc main_arg5)
local notation "𝐱6" => m ((c.tc : Thread nD τ).loc main_arg6)
local notation "𝐱7" => m ((c.tc : Thread nD τ).loc main_arg7)
local notation "𝐱8" => m ((c.tc : Thread nD τ).loc main_arg8)
local notation "𝐱9" => m ((c.tc : Thread nD τ).loc main_arg9)
local notation "𝐱10" => m ((c.tc : Thread nD τ).loc main_arg10)
local notation "𝐱11" => m ((c.tc : Thread nD τ).loc main_arg11)
local notation "𝐱12" => m ((c.tc : Thread nD τ).loc main_arg12)
local notation "𝐇1" => kerH1 𝐱0 𝐱2 𝐱3 𝐱4 𝐱5 𝐱6 𝐱7 𝐱8 𝐱11 𝐱12
local notation "𝐏1" => kerPC1 𝐱1 𝐱9 𝐱10 𝐱11 𝐱12
local notation "𝐇2" => kerH2 𝐱0 𝐱2 𝐱3 𝐱4 𝐱5 𝐱6 𝐱7 𝐱8 𝐱11 𝐱12
local notation "𝐏2" => kerPC2 𝐱1 𝐱9 𝐱10 𝐱11 𝐱12
local notation "𝐇3" => kerH3 𝐱0 𝐱2 𝐱3 𝐱4 𝐱5 𝐱6 𝐱7 𝐱8 𝐱11 𝐱12
local notation "𝐏3" => kerPC3 𝐱1 𝐱9 𝐱10 𝐱11 𝐱12

/-! ## Layer 0 -/

theorem a1_arg0 : V1 (F := Ideal) m ρ c main_arg0 = 𝐱0 := keep1 m ρ c main_arg0 (by decide)
theorem a1_v34 : V1 (F := Ideal) m ρ c main_v34 = meanAgg 𝐱0 𝐱2 𝐱3 := host0_v34 (W0 m ρ c)
theorem a1_v36 : V1 (F := Ideal) m ρ c main_v36 = meanAgg 𝐱0 𝐱4 𝐱5 := host0_v36 (W0 m ρ c)
theorem a1_v41 : V1 (F := Ideal) m ρ c main_v41 = vadd (sl4_00 𝐱6) (sl4_01 𝐱6) := host0_v41 (W0 m ρ c)
theorem a1_v48 : V1 (F := Ideal) m ρ c main_v48 = sl4_00 𝐱7 := host0_v48 (W0 m ρ c)
theorem a1_v50 : V1 (F := Ideal) m ρ c main_v50 = sl4_01 𝐱7 := host0_v50 (W0 m ρ c)
theorem r1_v55 : rowOf (V1 (F := Ideal) m ρ c main_v55) = vadd (sl3_00 𝐱8) (sl3_01 𝐱8) :=
  (congrArg (rowOf (H := 128)) (host0_v55 (W0 m ρ c))).trans (rowOf_shapeCast _ _)
theorem r1_v56 : rowOf (V1 (F := Ideal) m ρ c main_v56) = sl2_0 𝐱11 :=
  (congrArg (rowOf (H := 128)) (host0_v56 (W0 m ρ c))).trans (rowOf_shapeCast _ _)
theorem r1_v57 : rowOf (V1 (F := Ideal) m ρ c main_v57) = sl2_0 𝐱12 :=
  (congrArg (rowOf (H := 128)) (host0_v57 (W0 m ρ c))).trans (rowOf_shapeCast _ _)

/-- The node features after layer 0, in region 0's output array. -/
theorem out0 : W2 (F := Ideal) m ρ c (Proc.devRef .tc main_v58) = 𝐇1 := by
  refine (W2_arr m ρ c 9).trans ((arr0 (V1 m ρ) c).trans ?_)
  rw [a1_arg0 m ρ c, a1_v34 m ρ c, a1_v36 m ρ c, a1_v41 m ρ c, a1_v48 m ρ c, a1_v50 m ρ c, r1_v55 m ρ c, r1_v56 m ρ c, r1_v57 m ρ c]
  rfl

theorem e2_arg1 : W2 (F := Ideal) m ρ c (Proc.devRef .tc main_arg1) = 𝐱1 :=
  (keep2 m ρ c main_arg1 (by decide)).trans ((keep1 m ρ c main_arg1 (by decide)))
theorem e2_arg9 : W2 (F := Ideal) m ρ c (Proc.devRef .tc main_arg9) = 𝐱9 :=
  (keep2 m ρ c main_arg9 (by decide)).trans ((keep1 m ρ c main_arg9 (by decide)))
theorem e2_arg10 : W2 (F := Ideal) m ρ c (Proc.devRef .tc main_arg10) = 𝐱10 :=
  (keep2 m ρ c main_arg10 (by decide)).trans ((keep1 m ρ c main_arg10 (by decide)))
theorem e2_arg11 : W2 (F := Ideal) m ρ c (Proc.devRef .tc main_arg11) = 𝐱11 :=
  (keep2 m ρ c main_arg11 (by decide)).trans ((keep1 m ρ c main_arg11 (by decide)))
theorem e2_arg12 : W2 (F := Ideal) m ρ c (Proc.devRef .tc main_arg12) = 𝐱12 :=
  (keep2 m ρ c main_arg12 (by decide)).trans ((keep1 m ρ c main_arg12 (by decide)))
theorem a3_arg1 : V3 (F := Ideal) m ρ c main_arg1 = 𝐱1 := (keep3 m ρ c main_arg1 (by decide)).trans (e2_arg1 m ρ c)
theorem a3_v60 : V3 (F := Ideal) m ρ c main_v60 = slL_0 𝐱9 := (host1_v60 (W2 m ρ c)).trans (by rw [e2_arg9 m ρ c])
theorem r3_v67 : rowOf (V3 (F := Ideal) m ρ c main_v67) = sl2_0 𝐱10 :=
  (congrArg (rowOf (H := 128)) (host1_v67 (W2 m ρ c))).trans ((rowOf_shapeCast _ _).trans (by rw [e2_arg10 m ρ c]))
theorem r3_v68 : rowOf (V3 (F := Ideal) m ρ c main_v68) = sl2_0 𝐱11 :=
  (congrArg (rowOf (H := 128)) (host1_v68 (W2 m ρ c))).trans ((rowOf_shapeCast _ _).trans (by rw [e2_arg11 m ρ c]))
theorem r3_v69 : rowOf (V3 (F := Ideal) m ρ c main_v69) = sl2_0 𝐱12 :=
  (congrArg (rowOf (H := 128)) (host1_v69 (W2 m ρ c))).trans ((rowOf_shapeCast _ _).trans (by rw [e2_arg12 m ρ c]))

/-- The class features after layer 0, in region 1's output array. -/
theorem out1 : W4 (F := Ideal) m ρ c (Proc.devRef .tc main_v70) = 𝐏1 := by
  refine (W4_arr m ρ c 5).trans ((arr1 (V3 m ρ) c).trans ?_)
  rw [a3_arg1 m ρ c, a3_v60 m ρ c, r3_v67 m ρ c, r3_v68 m ρ c, r3_v69 m ρ c]
  rfl

/-! ## Layer 1, node branch -/

theorem e4_arg2 : W4 (F := Ideal) m ρ c (Proc.devRef .tc main_arg2) = 𝐱2 :=
  (keep4 m ρ c main_arg2 (by decide)).trans ((keep3 m ρ c main_arg2 (by decide)).trans ((keep2 m ρ c main_arg2 (by decide)).trans ((keep1 m ρ c main_arg2 (by decide)))))
theorem e4_arg3 : W4 (F := Ideal) m ρ c (Proc.devRef .tc main_arg3) = 𝐱3 :=
  (keep4 m ρ c main_arg3 (by decide)).trans ((keep3 m ρ c main_arg3 (by decide)).trans ((keep2 m ρ c main_arg3 (by decide)).trans ((keep1 m ρ c main_arg3 (by decide)))))
theorem e4_arg4 : W4 (F := Ideal) m ρ c (Proc.devRef .tc main_arg4) = 𝐱4 :=
  (keep4 m ρ c main_arg4 (by decide)).trans ((keep3 m ρ c main_arg4 (by decide)).trans ((keep2 m ρ c main_arg4 (by decide)).trans ((keep1 m ρ c main_arg4 (by decide)))))
theorem e4_arg5 : W4 (F := Ideal) m ρ c (Proc.devRef .tc main_arg5) = 𝐱5 :=
  (keep4 m ρ c main_arg5 (by decide)).trans ((keep3 m ρ c main_arg5 (by decide)).trans ((keep2 m ρ c main_arg5 (by decide)).trans ((keep1 m ρ c main_arg5 (by decide)))))
theorem e4_arg6 : W4 (F := Ideal) m ρ c (Proc.devRef .tc main_arg6) = 𝐱6 :=
  (keep4 m ρ c main_arg6 (by decide)).trans ((keep3 m ρ c main_arg6 (by decide)).trans ((keep2 m ρ c main_arg6 (by decide)).trans ((keep1 m ρ c main_arg6 (by decide)))))
theorem e4_arg7 : W4 (F := Ideal) m ρ c (Proc.devRef .tc main_arg7) = 𝐱7 :=
  (keep4 m ρ c main_arg7 (by decide)).trans ((keep3 m ρ c main_arg7 (by decide)).trans ((keep2 m ρ c main_arg7 (by decide)).trans ((keep1 m ρ c main_arg7 (by decide)))))
theorem e4_arg8 : W4 (F := Ideal) m ρ c (Proc.devRef .tc main_arg8) = 𝐱8 :=
  (keep4 m ρ c main_arg8 (by decide)).trans ((keep3 m ρ c main_arg8 (by decide)).trans ((keep2 m ρ c main_arg8 (by decide)).trans ((keep1 m ρ c main_arg8 (by decide)))))
theorem e4_arg11 : W4 (F := Ideal) m ρ c (Proc.devRef .tc main_arg11) = 𝐱11 :=
  (keep4 m ρ c main_arg11 (by decide)).trans ((keep3 m ρ c main_arg11 (by decide)).trans ((keep2 m ρ c main_arg11 (by decide)).trans ((keep1 m ρ c main_arg11 (by decide)))))
theorem e4_arg12 : W4 (F := Ideal) m ρ c (Proc.devRef .tc main_arg12) = 𝐱12 :=
  (keep4 m ρ c main_arg12 (by decide)).trans ((keep3 m ρ c main_arg12 (by decide)).trans ((keep2 m ρ c main_arg12 (by decide)).trans ((keep1 m ρ c main_arg12 (by decide)))))
theorem e4_v9 : W4 (F := Ideal) m ρ c (Proc.devRef .tc main_v9) = degCol 𝐱3 :=
  ((keep4 m ρ c main_v9 (by decide)).trans ((keep3 m ρ c main_v9 (by decide)).trans ((keep2 m ρ c main_v9 (by decide))))).trans (host0_v9 (W0 m ρ c))
theorem e4_v12 : W4 (F := Ideal) m ρ c (Proc.devRef .tc main_v12) = degCol 𝐱5 :=
  ((keep4 m ρ c main_v12 (by decide)).trans ((keep3 m ρ c main_v12 (by decide)).trans ((keep2 m ρ c main_v12 (by decide))))).trans (host0_v12 (W0 m ρ c))
theorem e4_v58 : W4 (F := Ideal) m ρ c (Proc.devRef .tc main_v58) = 𝐇1 :=
  ((keep4 m ρ c main_v58 (by decide)).trans ((keep3 m ρ c main_v58 (by decide)))).trans (out0 m ρ c)
theorem a5_v58 : V5 (F := Ideal) m ρ c main_v58 = 𝐇1 := (keep5 m ρ c main_v58 (by decide)).trans (e4_v58 m ρ c)
theorem a5_v92 : V5 (F := Ideal) m ρ c main_v92 = meanAgg 𝐇1 𝐱2 𝐱3 :=
  (host2_v92 (W4 m ρ c) (by rw [e4_v9 m ρ c, e4_arg3 m ρ c])).trans (by rw [e4_v58 m ρ c, e4_arg2 m ρ c, e4_arg3 m ρ c])
theorem a5_v94 : V5 (F := Ideal) m ρ c main_v94 = meanAgg 𝐇1 𝐱4 𝐱5 :=
  (host2_v94 (W4 m ρ c) (by rw [e4_v12 m ρ c, e4_arg5 m ρ c])).trans (by rw [e4_v58 m ρ c, e4_arg4 m ρ c, e4_arg5 m ρ c])
theorem a5_v99 : V5 (F := Ideal) m ρ c main_v99 = vadd (sl4_10 𝐱6) (sl4_11 𝐱6) := (host2_v99 (W4 m ρ c)).trans (by rw [e4_arg6 m ρ c])
theorem a5_v106 : V5 (F := Ideal) m ρ c main_v106 = sl4_10 𝐱7 := (host2_v106 (W4 m ρ c)).trans (by rw [e4_arg7 m ρ c])
theorem a5_v108 : V5 (F := Ideal) m ρ c main_v108 = sl4_11 𝐱7 := (host2_v108 (W4 m ρ c)).trans (by rw [e4_arg7 m ρ c])
theorem r5_v113 : rowOf (V5 (F := Ideal) m ρ c main_v113) = vadd (sl3_10 𝐱8) (sl3_11 𝐱8) :=
  (congrArg (rowOf (H := 128)) (host2_v113 (W4 m ρ c))).trans ((rowOf_shapeCast _ _).trans (by rw [e4_arg8 m ρ c]))
theorem r5_v114 : rowOf (V5 (F := Ideal) m ρ c main_v114) = sl2_1 𝐱11 :=
  (congrArg (rowOf (H := 128)) (host2_v114 (W4 m ρ c))).trans ((rowOf_shapeCast _ _).trans (by rw [e4_arg11 m ρ c]))
theorem r5_v115 : rowOf (V5 (F := Ideal) m ρ c main_v115) = sl2_1 𝐱12 :=
  (congrArg (rowOf (H := 128)) (host2_v115 (W4 m ρ c))).trans ((rowOf_shapeCast _ _).trans (by rw [e4_arg12 m ρ c]))

/-- The node features after layer 1, in region 2's output array. -/
theorem out2 : W6 (F := Ideal) m ρ c (Proc.devRef .tc main_v116) = 𝐇2 := by
  refine (W6_arr m ρ c 9).trans ((arr2 (V5 m ρ) c).trans ?_)
  rw [a5_v58 m ρ c, a5_v92 m ρ c, a5_v94 m ρ c, a5_v99 m ρ c, a5_v106 m ρ c, a5_v108 m ρ c, r5_v113 m ρ c, r5_v114 m ρ c, r5_v115 m ρ c]
  rfl

/-! ## Layer 1, class branch -/

theorem e6_arg9 : W6 (F := Ideal) m ρ c (Proc.devRef .tc main_arg9) = 𝐱9 :=
  (keep6 m ρ c main_arg9 (by decide)).trans ((keep5 m ρ c main_arg9 (by decide)).trans ((keep4 m ρ c main_arg9 (by decide)).trans ((keep3 m ρ c main_arg9 (by decide)).trans ((keep2 m ρ c main_arg9 (by decide)).trans ((keep1 m ρ c main_arg9 (by decide)))))))
theorem e6_arg10 : W6 (F := Ideal) m ρ c (Proc.devRef .tc main_arg10) = 𝐱10 :=
  (keep6 m ρ c main_arg10 (by decide)).trans ((keep5 m ρ c main_arg10 (by decide)).trans ((keep4 m ρ c main_arg10 (by decide)).trans ((keep3 m ρ c main_arg10 (by decide)).trans ((keep2 m ρ c main_arg10 (by decide)).trans ((keep1 m ρ c main_arg10 (by decide)))))))
theorem e6_arg11 : W6 (F := Ideal) m ρ c (Proc.devRef .tc main_arg11) = 𝐱11 :=
  (keep6 m ρ c main_arg11 (by decide)).trans ((keep5 m ρ c main_arg11 (by decide)).trans ((keep4 m ρ c main_arg11 (by decide)).trans ((keep3 m ρ c main_arg11 (by decide)).trans ((keep2 m ρ c main_arg11 (by decide)).trans ((keep1 m ρ c main_arg11 (by decide)))))))
theorem e6_arg12 : W6 (F := Ideal) m ρ c (Proc.devRef .tc main_arg12) = 𝐱12 :=
  (keep6 m ρ c main_arg12 (by decide)).trans ((keep5 m ρ c main_arg12 (by decide)).trans ((keep4 m ρ c main_arg12 (by decide)).trans ((keep3 m ρ c main_arg12 (by decide)).trans ((keep2 m ρ c main_arg12 (by decide)).trans ((keep1 m ρ c main_arg12 (by decide)))))))
theorem a7_v70 : V7 (F := Ideal) m ρ c main_v70 = 𝐏1 :=
  ((keep7 m ρ c main_v70 (by decide)).trans ((keep6 m ρ c main_v70 (by decide)).trans ((keep5 m ρ c main_v70 (by decide))))).trans (out1 m ρ c)
theorem a7_v118 : V7 (F := Ideal) m ρ c main_v118 = slL_1 𝐱9 := (host3_v118 (W6 m ρ c)).trans (by rw [e6_arg9 m ρ c])
theorem r7_v125 : rowOf (V7 (F := Ideal) m ρ c main_v125) = sl2_1 𝐱10 :=
  (congrArg (rowOf (H := 128)) (host3_v125 (W6 m ρ c))).trans ((rowOf_shapeCast _ _).trans (by rw [e6_arg10 m ρ c]))
theorem r7_v126 : rowOf (V7 (F := Ideal) m ρ c main_v126) = sl2_1 𝐱11 :=
  (congrArg (rowOf (H := 128)) (host3_v126 (W6 m ρ c))).trans ((rowOf_shapeCast _ _).trans (by rw [e6_arg11 m ρ c]))
theorem r7_v127 : rowOf (V7 (F := Ideal) m ρ c main_v127) = sl2_1 𝐱12 :=
  (congrArg (rowOf (H := 128)) (host3_v127 (W6 m ρ c))).trans ((rowOf_shapeCast _ _).trans (by rw [e6_arg12 m ρ c]))

/-- The class features after layer 1, in region 3's output array. -/
theorem out3 : W8 (F := Ideal) m ρ c (Proc.devRef .tc main_v128) = 𝐏2 := by
  refine (W8_arr m ρ c 5).trans ((arr3 (V7 m ρ) c).trans ?_)
  rw [a7_v70 m ρ c, a7_v118 m ρ c, r7_v125 m ρ c, r7_v126 m ρ c, r7_v127 m ρ c]
  rfl

/-! ## Layer 2, node branch -/

theorem e8_arg2 : W8 (F := Ideal) m ρ c (Proc.devRef .tc main_arg2) = 𝐱2 :=
  (keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans ((keep1 m ρ c main_arg2 (by decide)))))))))
theorem e8_arg3 : W8 (F := Ideal) m ρ c (Proc.devRef .tc main_arg3) = 𝐱3 :=
  (keep8 m ρ c main_arg3 (by decide)).trans ((keep7 m ρ c main_arg3 (by decide)).trans ((keep6 m ρ c main_arg3 (by decide)).trans ((keep5 m ρ c main_arg3 (by decide)).trans ((keep4 m ρ c main_arg3 (by decide)).trans ((keep3 m ρ c main_arg3 (by decide)).trans ((keep2 m ρ c main_arg3 (by decide)).trans ((keep1 m ρ c main_arg3 (by decide)))))))))
theorem e8_arg4 : W8 (F := Ideal) m ρ c (Proc.devRef .tc main_arg4) = 𝐱4 :=
  (keep8 m ρ c main_arg4 (by decide)).trans ((keep7 m ρ c main_arg4 (by decide)).trans ((keep6 m ρ c main_arg4 (by decide)).trans ((keep5 m ρ c main_arg4 (by decide)).trans ((keep4 m ρ c main_arg4 (by decide)).trans ((keep3 m ρ c main_arg4 (by decide)).trans ((keep2 m ρ c main_arg4 (by decide)).trans ((keep1 m ρ c main_arg4 (by decide)))))))))
theorem e8_arg5 : W8 (F := Ideal) m ρ c (Proc.devRef .tc main_arg5) = 𝐱5 :=
  (keep8 m ρ c main_arg5 (by decide)).trans ((keep7 m ρ c main_arg5 (by decide)).trans ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans ((keep1 m ρ c main_arg5 (by decide)))))))))
theorem e8_arg6 : W8 (F := Ideal) m ρ c (Proc.devRef .tc main_arg6) = 𝐱6 :=
  (keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans ((keep1 m ρ c main_arg6 (by decide)))))))))
theorem e8_arg7 : W8 (F := Ideal) m ρ c (Proc.devRef .tc main_arg7) = 𝐱7 :=
  (keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans ((keep1 m ρ c main_arg7 (by decide)))))))))
theorem e8_arg8 : W8 (F := Ideal) m ρ c (Proc.devRef .tc main_arg8) = 𝐱8 :=
  (keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans ((keep1 m ρ c main_arg8 (by decide)))))))))
theorem e8_arg11 : W8 (F := Ideal) m ρ c (Proc.devRef .tc main_arg11) = 𝐱11 :=
  (keep8 m ρ c main_arg11 (by decide)).trans ((keep7 m ρ c main_arg11 (by decide)).trans ((keep6 m ρ c main_arg11 (by decide)).trans ((keep5 m ρ c main_arg11 (by decide)).trans ((keep4 m ρ c main_arg11 (by decide)).trans ((keep3 m ρ c main_arg11 (by decide)).trans ((keep2 m ρ c main_arg11 (by decide)).trans ((keep1 m ρ c main_arg11 (by decide)))))))))
theorem e8_arg12 : W8 (F := Ideal) m ρ c (Proc.devRef .tc main_arg12) = 𝐱12 :=
  (keep8 m ρ c main_arg12 (by decide)).trans ((keep7 m ρ c main_arg12 (by decide)).trans ((keep6 m ρ c main_arg12 (by decide)).trans ((keep5 m ρ c main_arg12 (by decide)).trans ((keep4 m ρ c main_arg12 (by decide)).trans ((keep3 m ρ c main_arg12 (by decide)).trans ((keep2 m ρ c main_arg12 (by decide)).trans ((keep1 m ρ c main_arg12 (by decide)))))))))
theorem e8_v9 : W8 (F := Ideal) m ρ c (Proc.devRef .tc main_v9) = degCol 𝐱3 :=
  ((keep8 m ρ c main_v9 (by decide)).trans ((keep7 m ρ c main_v9 (by decide)).trans ((keep6 m ρ c main_v9 (by decide)).trans ((keep5 m ρ c main_v9 (by decide)).trans ((keep4 m ρ c main_v9 (by decide)).trans ((keep3 m ρ c main_v9 (by decide)).trans ((keep2 m ρ c main_v9 (by decide))))))))).trans (host0_v9 (W0 m ρ c))
theorem e8_v12 : W8 (F := Ideal) m ρ c (Proc.devRef .tc main_v12) = degCol 𝐱5 :=
  ((keep8 m ρ c main_v12 (by decide)).trans ((keep7 m ρ c main_v12 (by decide)).trans ((keep6 m ρ c main_v12 (by decide)).trans ((keep5 m ρ c main_v12 (by decide)).trans ((keep4 m ρ c main_v12 (by decide)).trans ((keep3 m ρ c main_v12 (by decide)).trans ((keep2 m ρ c main_v12 (by decide))))))))).trans (host0_v12 (W0 m ρ c))
theorem e8_v116 : W8 (F := Ideal) m ρ c (Proc.devRef .tc main_v116) = 𝐇2 :=
  ((keep8 m ρ c main_v116 (by decide)).trans ((keep7 m ρ c main_v116 (by decide)))).trans (out2 m ρ c)
theorem a9_v116 : V9 (F := Ideal) m ρ c main_v116 = 𝐇2 := (keep9 m ρ c main_v116 (by decide)).trans (e8_v116 m ρ c)
theorem a9_v150 : V9 (F := Ideal) m ρ c main_v150 = meanAgg 𝐇2 𝐱2 𝐱3 :=
  (host4_v150 (W8 m ρ c) (by rw [e8_v9 m ρ c, e8_arg3 m ρ c])).trans (by rw [e8_v116 m ρ c, e8_arg2 m ρ c, e8_arg3 m ρ c])
theorem a9_v152 : V9 (F := Ideal) m ρ c main_v152 = meanAgg 𝐇2 𝐱4 𝐱5 :=
  (host4_v152 (W8 m ρ c) (by rw [e8_v12 m ρ c, e8_arg5 m ρ c])).trans (by rw [e8_v116 m ρ c, e8_arg4 m ρ c, e8_arg5 m ρ c])
theorem a9_v157 : V9 (F := Ideal) m ρ c main_v157 = vadd (sl4_20 𝐱6) (sl4_21 𝐱6) := (host4_v157 (W8 m ρ c)).trans (by rw [e8_arg6 m ρ c])
theorem a9_v164 : V9 (F := Ideal) m ρ c main_v164 = sl4_20 𝐱7 := (host4_v164 (W8 m ρ c)).trans (by rw [e8_arg7 m ρ c])
theorem a9_v166 : V9 (F := Ideal) m ρ c main_v166 = sl4_21 𝐱7 := (host4_v166 (W8 m ρ c)).trans (by rw [e8_arg7 m ρ c])
theorem r9_v171 : rowOf (V9 (F := Ideal) m ρ c main_v171) = vadd (sl3_20 𝐱8) (sl3_21 𝐱8) :=
  (congrArg (rowOf (H := 128)) (host4_v171 (W8 m ρ c))).trans ((rowOf_shapeCast _ _).trans (by rw [e8_arg8 m ρ c]))
theorem r9_v172 : rowOf (V9 (F := Ideal) m ρ c main_v172) = sl2_2 𝐱11 :=
  (congrArg (rowOf (H := 128)) (host4_v172 (W8 m ρ c))).trans ((rowOf_shapeCast _ _).trans (by rw [e8_arg11 m ρ c]))
theorem r9_v173 : rowOf (V9 (F := Ideal) m ρ c main_v173) = sl2_2 𝐱12 :=
  (congrArg (rowOf (H := 128)) (host4_v173 (W8 m ρ c))).trans ((rowOf_shapeCast _ _).trans (by rw [e8_arg12 m ρ c]))

/-- The node features after layer 2, in region 4's output array. -/
theorem out4 : W10 (F := Ideal) m ρ c (Proc.devRef .tc main_v174) = 𝐇3 := by
  refine (W10_arr m ρ c 9).trans ((arr4 (V9 m ρ) c).trans ?_)
  rw [a9_v116 m ρ c, a9_v150 m ρ c, a9_v152 m ρ c, a9_v157 m ρ c, a9_v164 m ρ c, a9_v166 m ρ c, r9_v171 m ρ c, r9_v172 m ρ c, r9_v173 m ρ c]
  rfl

/-! ## Layer 2, class branch -/

theorem e10_arg9 : W10 (F := Ideal) m ρ c (Proc.devRef .tc main_arg9) = 𝐱9 :=
  (keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans ((keep1 m ρ c main_arg9 (by decide)))))))))))
theorem e10_arg10 : W10 (F := Ideal) m ρ c (Proc.devRef .tc main_arg10) = 𝐱10 :=
  (keep10 m ρ c main_arg10 (by decide)).trans ((keep9 m ρ c main_arg10 (by decide)).trans ((keep8 m ρ c main_arg10 (by decide)).trans ((keep7 m ρ c main_arg10 (by decide)).trans ((keep6 m ρ c main_arg10 (by decide)).trans ((keep5 m ρ c main_arg10 (by decide)).trans ((keep4 m ρ c main_arg10 (by decide)).trans ((keep3 m ρ c main_arg10 (by decide)).trans ((keep2 m ρ c main_arg10 (by decide)).trans ((keep1 m ρ c main_arg10 (by decide)))))))))))
theorem e10_arg11 : W10 (F := Ideal) m ρ c (Proc.devRef .tc main_arg11) = 𝐱11 :=
  (keep10 m ρ c main_arg11 (by decide)).trans ((keep9 m ρ c main_arg11 (by decide)).trans ((keep8 m ρ c main_arg11 (by decide)).trans ((keep7 m ρ c main_arg11 (by decide)).trans ((keep6 m ρ c main_arg11 (by decide)).trans ((keep5 m ρ c main_arg11 (by decide)).trans ((keep4 m ρ c main_arg11 (by decide)).trans ((keep3 m ρ c main_arg11 (by decide)).trans ((keep2 m ρ c main_arg11 (by decide)).trans ((keep1 m ρ c main_arg11 (by decide)))))))))))
theorem e10_arg12 : W10 (F := Ideal) m ρ c (Proc.devRef .tc main_arg12) = 𝐱12 :=
  (keep10 m ρ c main_arg12 (by decide)).trans ((keep9 m ρ c main_arg12 (by decide)).trans ((keep8 m ρ c main_arg12 (by decide)).trans ((keep7 m ρ c main_arg12 (by decide)).trans ((keep6 m ρ c main_arg12 (by decide)).trans ((keep5 m ρ c main_arg12 (by decide)).trans ((keep4 m ρ c main_arg12 (by decide)).trans ((keep3 m ρ c main_arg12 (by decide)).trans ((keep2 m ρ c main_arg12 (by decide)).trans ((keep1 m ρ c main_arg12 (by decide)))))))))))
theorem a11_v128 : V11 (F := Ideal) m ρ c main_v128 = 𝐏2 :=
  ((keep11 m ρ c main_v128 (by decide)).trans ((keep10 m ρ c main_v128 (by decide)).trans ((keep9 m ρ c main_v128 (by decide))))).trans (out3 m ρ c)
theorem a11_v176 : V11 (F := Ideal) m ρ c main_v176 = slL_2 𝐱9 := (host5_v176 (W10 m ρ c)).trans (by rw [e10_arg9 m ρ c])
theorem r11_v183 : rowOf (V11 (F := Ideal) m ρ c main_v183) = sl2_2 𝐱10 :=
  (congrArg (rowOf (H := 128)) (host5_v183 (W10 m ρ c))).trans ((rowOf_shapeCast _ _).trans (by rw [e10_arg10 m ρ c]))
theorem r11_v184 : rowOf (V11 (F := Ideal) m ρ c main_v184) = sl2_2 𝐱11 :=
  (congrArg (rowOf (H := 128)) (host5_v184 (W10 m ρ c))).trans ((rowOf_shapeCast _ _).trans (by rw [e10_arg11 m ρ c]))
theorem r11_v185 : rowOf (V11 (F := Ideal) m ρ c main_v185) = sl2_2 𝐱12 :=
  (congrArg (rowOf (H := 128)) (host5_v185 (W10 m ρ c))).trans ((rowOf_shapeCast _ _).trans (by rw [e10_arg12 m ρ c]))

/-- The class features after layer 2, in region 5's output array. -/
theorem out5 : W12 (F := Ideal) m ρ c (Proc.devRef .tc main_v186) = 𝐏3 := by
  refine (W12_arr m ρ c 5).trans ((arr5 (V11 m ρ) c).trans ?_)
  rw [a11_v128 m ρ c, a11_v176 m ρ c, r11_v183 m ρ c, r11_v184 m ρ c, r11_v185 m ρ c]
  rfl

/-- The node features after layer 2 are still in their array when the class branch's last region has run. -/
theorem e12_v174 : W12 (F := Ideal) m ρ c (Proc.devRef .tc main_v174) = 𝐇3 :=
  ((keep12 m ρ c main_v174 (by decide)).trans ((keep11 m ρ c main_v174 (by decide)))).trans (out4 m ρ c)

end Cert.KernelIdeal.HG.Chain

end
-- ==== Proof.KValue.lean ====
/-
  The kernel program's result as a function of its arguments: the last boundary's contents at the result buffer are
  the class rows on top of the node rows after three layers, each layer the row-wise function of the specification.
-/
import proofs.«178392_j50105088475140_1_alg».proof.Proof.Gen.KernelIdeal.Frame
import proofs.«178392_j50105088475140_1_alg».proof.Proof.HostDefs
import proofs.«178392_j50105088475140_1_alg».proof.Proof.KChain

noncomputable section

namespace Cert.KernelIdeal.HG

open Idealize.ShloMosaic Idealize.ShloMosaic.TcCoe Idealize.SL.Sem Cert.KernelIdeal Cert.KernelIdeal.Gen

theorem W13_value (m : (ℓ : Loc nD τ sig) → Buf (Elt Ideal) ℓ) (ρ : Dev nD → PrngReg) (c : Dev nD) :
    (Gen.W13 (F := Ideal) m ρ c (Proc.devRef .tc main_v187) : FVec Ideal S110000x128 .f32)
      = Cert.HG.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  -- the last host stretch lays the class rows (the last class region's output array) on top of the node rows
  -- (the last node region's output array, untouched since); both are the specification's functions of the arguments
  (Chain.host6_v187 (Gen.W12 (F := Ideal) m ρ c)).trans (by
    rw [Chain.out5 m ρ c, Chain.e12_v174 m ρ c]
    rfl)

end Cert.KernelIdeal.HG

end
-- ==== Proof.LibAfterAppend.lean ====
/-
  Host operations run one list after the other: the buffer contents after `l₁ ++ l₂` are the contents after `l₂` from
  the contents after `l₁` (`after_append`), so a long stretch of host operations can be read in pieces cut at any
  position (`after_take_drop`) — each piece's result stated once over an arbitrary valuation, the pieces composed by
  rewriting. For any topology, signature and value type.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lists of operations run in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of operations cut at position `n`. -/
theorem after_take_drop (n : Nat) (l : List (HloOp τ sig Val)) (V : Valuation τ sig Val) :
    after l V = after (l.drop n) (after (l.take n) V) := by
  rw [← after_append, List.take_append_drop]

end Cert.LibAfterAppend

end
-- ==== Proof.RefPieceDefs.lean ====
/-
  One layer of the reference as a map of buffer contents: the layer's stretches of host operations (the pre-activations
  of the node branch, the class branch's linear map, the two normalisations, and in the first two layers the two maxima
  with zero) run one after the other. The whole program is the three layers and then the concatenation.
-/
import proofs.«178392_j50105088475140_1_alg».proof.Proof.RefOps
import Idealize.ShloMosaic.PureOps.Ideal

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP

/-- The contents after layer 0's five stretches. -/
def L0 (W : Valuation τ sig (Elt Ideal)) : Valuation τ sig (Elt Ideal) :=
  after pE0 (after pD0 (after pC0 (after pB0 (after pA0 W))))
/-- The contents after layer 1's five stretches. -/
def L1 (W : Valuation τ sig (Elt Ideal)) : Valuation τ sig (Elt Ideal) :=
  after pE1 (after pD1 (after pC1 (after pB1 (after pA1 W))))
/-- The contents after layer 2's four stretches. -/
def L2 (W : Valuation τ sig (Elt Ideal)) : Valuation τ sig (Elt Ideal) :=
  after pD2 (after pC2 (after pB2 (after pA2 W)))

/-- The whole fold is the three layers and the concatenation, in order. -/
theorem after_ops (V : Valuation τ sig (Elt Ideal)) :
    after (ops (F := Ideal)) V = after pF (L2 (L1 (L0 V))) := by
  simp only [ops, Cert.LibAfterAppend.after_append, L0, L1, L2]

end Cert.ReferenceIdeal.HG.Pieces

end
-- ==== Proof.RefPieceL0H.lean ====
/-
  The first layer's node branch read as one function of the buffers the layer starts from: the fold of the layer's host
  operations, at the buffer holding the layer's node output, is the layer normalisation clipped below at zero of the two
  relations' self-plus-neighbour linear maps of the incoming node features and their mean aggregations, with the
  layer's slices of the stacked parameters.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

set_option maxRecDepth 16384 in
set_option maxHeartbeats 4000000 in
theorem l0_H (W : Valuation τ sig (Elt Ideal)) :
    (L0 W (Proc.devRef .tc main_v127) : FVec Ideal S100000x128 .f32)
      = hostReluH (hostLN_H (hostHc (W (Proc.devRef .tc main_arg0)) (meanAgg (W (Proc.devRef .tc main_arg0)) (W (Proc.devRef .tc main_arg2)) (W (Proc.devRef .tc main_arg3))) (meanAgg (W (Proc.devRef .tc main_arg0)) (W (Proc.devRef .tc main_arg4)) (W (Proc.devRef .tc main_arg5))) (sl4_00 (W (Proc.devRef .tc main_arg6))) (sl4_01 (W (Proc.devRef .tc main_arg6))) (sl4_00 (W (Proc.devRef .tc main_arg7))) (sl4_01 (W (Proc.devRef .tc main_arg7))) (sl3_00 (W (Proc.devRef .tc main_arg8))) (sl3_01 (W (Proc.devRef .tc main_arg8)))) (sl2_0 (W (Proc.devRef .tc main_arg11))) (sl2_0 (W (Proc.devRef .tc main_arg12)))) := by
  simp (disch := decide) only [L0, pA0, pB0, pC0, pD0, pE0, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceL0PC.lean ====
/-
  The first layer's class branch read as one function of the buffers the layer starts from: the fold of the layer's host
  operations, at the buffer holding the layer's class output, is the layer normalisation clipped below at zero of the
  linear map of the incoming class features, with the layer's slices of the stacked parameters.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

set_option maxRecDepth 16384 in
set_option maxHeartbeats 4000000 in
theorem l0_PC (W : Valuation τ sig (Elt Ideal)) :
    (L0 W (Proc.devRef .tc main_v128) : FVec Ideal S10000x128 .f32)
      = hostReluPC (hostLN_PC (hostLinPC (W (Proc.devRef .tc main_arg1)) (slL_0 (W (Proc.devRef .tc main_arg9))) (sl2_0 (W (Proc.devRef .tc main_arg10)))) (sl2_0 (W (Proc.devRef .tc main_arg11))) (sl2_0 (W (Proc.devRef .tc main_arg12)))) := by
  simp (disch := decide) only [L0, pA0, pB0, pC0, pD0, pE0, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceL0Args.lean ====
/-
  The first layer's host operations write none of the argument buffers the later layers read (the edge endpoints and the
  stacked parameters): each keeps its contents across the layer.
-/
import proofs.«178392_j50105088475140_1_alg».proof.Proof.RefPieceDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP

set_option maxRecDepth 16384 in
set_option maxHeartbeats 4000000 in
theorem l0_arg2 (W : Valuation τ sig (Elt Ideal)) :
    L0 W (Proc.devRef .tc main_arg2) = W (Proc.devRef .tc main_arg2) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg3 (W : Valuation τ sig (Elt Ideal)) :
    L0 W (Proc.devRef .tc main_arg3) = W (Proc.devRef .tc main_arg3) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg4 (W : Valuation τ sig (Elt Ideal)) :
    L0 W (Proc.devRef .tc main_arg4) = W (Proc.devRef .tc main_arg4) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg5 (W : Valuation τ sig (Elt Ideal)) :
    L0 W (Proc.devRef .tc main_arg5) = W (Proc.devRef .tc main_arg5) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg6 (W : Valuation τ sig (Elt Ideal)) :
    L0 W (Proc.devRef .tc main_arg6) = W (Proc.devRef .tc main_arg6) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg7 (W : Valuation τ sig (Elt Ideal)) :
    L0 W (Proc.devRef .tc main_arg7) = W (Proc.devRef .tc main_arg7) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg8 (W : Valuation τ sig (Elt Ideal)) :
    L0 W (Proc.devRef .tc main_arg8) = W (Proc.devRef .tc main_arg8) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg9 (W : Valuation τ sig (Elt Ideal)) :
    L0 W (Proc.devRef .tc main_arg9) = W (Proc.devRef .tc main_arg9) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg10 (W : Valuation τ sig (Elt Ideal)) :
    L0 W (Proc.devRef .tc main_arg10) = W (Proc.devRef .tc main_arg10) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg11 (W : Valuation τ sig (Elt Ideal)) :
    L0 W (Proc.devRef .tc main_arg11) = W (Proc.devRef .tc main_arg11) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l0_arg12 (W : Valuation τ sig (Elt Ideal)) :
    L0 W (Proc.devRef .tc main_arg12) = W (Proc.devRef .tc main_arg12) := by
  simp (disch := decide) only [L0, pA0, pB0, pC0, pD0, pE0, after_cons, after_nil, nullary_result_ne', unary_result_ne', binary_result_ne', ternary_result_ne', quaternary_result_ne', reshape_result_ne', nary_result_ne', unaryIndexed_result_ne', binaryIndexed_result_ne']

end Cert.ReferenceIdeal.HG.Pieces

end
-- ==== Proof.RefPieceL1H.lean ====
/-
  The second layer's node branch read as one function of the buffers the layer starts from: the fold of the layer's host
  operations, at the buffer holding the layer's node output, is the layer normalisation clipped below at zero of the two
  relations' self-plus-neighbour linear maps of the incoming node features and their mean aggregations, with the
  layer's slices of the stacked parameters.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

set_option maxRecDepth 16384 in
set_option maxHeartbeats 4000000 in
theorem l1_H (W : Valuation τ sig (Elt Ideal)) :
    (L1 W (Proc.devRef .tc main_v256) : FVec Ideal S100000x128 .f32)
      = hostReluH (hostLN_H (hostHc (W (Proc.devRef .tc main_v127)) (meanAgg (W (Proc.devRef .tc main_v127)) (W (Proc.devRef .tc main_arg2)) (W (Proc.devRef .tc main_arg3))) (meanAgg (W (Proc.devRef .tc main_v127)) (W (Proc.devRef .tc main_arg4)) (W (Proc.devRef .tc main_arg5))) (sl4_10 (W (Proc.devRef .tc main_arg6))) (sl4_11 (W (Proc.devRef .tc main_arg6))) (sl4_10 (W (Proc.devRef .tc main_arg7))) (sl4_11 (W (Proc.devRef .tc main_arg7))) (sl3_10 (W (Proc.devRef .tc main_arg8))) (sl3_11 (W (Proc.devRef .tc main_arg8)))) (sl2_1 (W (Proc.devRef .tc main_arg11))) (sl2_1 (W (Proc.devRef .tc main_arg12)))) := by
  simp (disch := decide) only [L1, pA1, pB1, pC1, pD1, pE1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceL1PC.lean ====
/-
  The second layer's class branch read as one function of the buffers the layer starts from: the fold of the layer's host
  operations, at the buffer holding the layer's class output, is the layer normalisation clipped below at zero of the
  linear map of the incoming class features, with the layer's slices of the stacked parameters.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

set_option maxRecDepth 16384 in
set_option maxHeartbeats 4000000 in
theorem l1_PC (W : Valuation τ sig (Elt Ideal)) :
    (L1 W (Proc.devRef .tc main_v257) : FVec Ideal S10000x128 .f32)
      = hostReluPC (hostLN_PC (hostLinPC (W (Proc.devRef .tc main_v128)) (slL_1 (W (Proc.devRef .tc main_arg9))) (sl2_1 (W (Proc.devRef .tc main_arg10)))) (sl2_1 (W (Proc.devRef .tc main_arg11))) (sl2_1 (W (Proc.devRef .tc main_arg12)))) := by
  simp (disch := decide) only [L1, pA1, pB1, pC1, pD1, pE1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceL1Args.lean ====
/-
  The second layer's host operations write none of the argument buffers the later layers read (the edge endpoints and the
  stacked parameters): each keeps its contents across the layer.
-/
import proofs.«178392_j50105088475140_1_alg».proof.Proof.RefPieceDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP

set_option maxRecDepth 16384 in
set_option maxHeartbeats 4000000 in
theorem l1_arg2 (W : Valuation τ sig (Elt Ideal)) :
    L1 W (Proc.devRef .tc main_arg2) = W (Proc.devRef .tc main_arg2) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg3 (W : Valuation τ sig (Elt Ideal)) :
    L1 W (Proc.devRef .tc main_arg3) = W (Proc.devRef .tc main_arg3) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg4 (W : Valuation τ sig (Elt Ideal)) :
    L1 W (Proc.devRef .tc main_arg4) = W (Proc.devRef .tc main_arg4) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg5 (W : Valuation τ sig (Elt Ideal)) :
    L1 W (Proc.devRef .tc main_arg5) = W (Proc.devRef .tc main_arg5) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg6 (W : Valuation τ sig (Elt Ideal)) :
    L1 W (Proc.devRef .tc main_arg6) = W (Proc.devRef .tc main_arg6) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg7 (W : Valuation τ sig (Elt Ideal)) :
    L1 W (Proc.devRef .tc main_arg7) = W (Proc.devRef .tc main_arg7) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg8 (W : Valuation τ sig (Elt Ideal)) :
    L1 W (Proc.devRef .tc main_arg8) = W (Proc.devRef .tc main_arg8) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg9 (W : Valuation τ sig (Elt Ideal)) :
    L1 W (Proc.devRef .tc main_arg9) = W (Proc.devRef .tc main_arg9) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg10 (W : Valuation τ sig (Elt Ideal)) :
    L1 W (Proc.devRef .tc main_arg10) = W (Proc.devRef .tc main_arg10) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg11 (W : Valuation τ sig (Elt Ideal)) :
    L1 W (Proc.devRef .tc main_arg11) = W (Proc.devRef .tc main_arg11) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

set_option maxRecDepth 16384 in
set_option maxHeartbeats 4000000 in
theorem l1_arg12 (W : Valuation τ sig (Elt Ideal)) :
    L1 W (Proc.devRef .tc main_arg12) = W (Proc.devRef .tc main_arg12) := by
  simp (disch := decide) only [L1, pA1, pB1, pC1, pD1, pE1, after_cons, after_nil, nullary_result_ne', unary_result_ne', binary_result_ne', ternary_result_ne', quaternary_result_ne', reshape_result_ne', nary_result_ne', unaryIndexed_result_ne', binaryIndexed_result_ne']

end Cert.ReferenceIdeal.HG.Pieces

end
-- ==== Proof.RefPieceL2H.lean ====
/-
  The third layer's node branch read as one function of the buffers the layer starts from: the fold of the layer's host
  operations, at the buffer holding the layer's node output, is the layer normalisation of the two
  relations' self-plus-neighbour linear maps of the incoming node features and their mean aggregations, with the
  layer's slices of the stacked parameters.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

set_option maxRecDepth 16384 in
set_option maxHeartbeats 4000000 in
theorem l2_H (W : Valuation τ sig (Elt Ideal)) :
    (L2 W (Proc.devRef .tc main_v356) : FVec Ideal S100000x128 .f32)
      = (hostLN_H (hostHc (W (Proc.devRef .tc main_v256)) (meanAgg (W (Proc.devRef .tc main_v256)) (W (Proc.devRef .tc main_arg2)) (W (Proc.devRef .tc main_arg3))) (meanAgg (W (Proc.devRef .tc main_v256)) (W (Proc.devRef .tc main_arg4)) (W (Proc.devRef .tc main_arg5))) (sl4_20 (W (Proc.devRef .tc main_arg6))) (sl4_21 (W (Proc.devRef .tc main_arg6))) (sl4_20 (W (Proc.devRef .tc main_arg7))) (sl4_21 (W (Proc.devRef .tc main_arg7))) (sl3_20 (W (Proc.devRef .tc main_arg8))) (sl3_21 (W (Proc.devRef .tc main_arg8)))) (sl2_2 (W (Proc.devRef .tc main_arg11))) (sl2_2 (W (Proc.devRef .tc main_arg12)))) := by
  simp (disch := decide) only [L2, pA2, pB2, pC2, pD2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceL2PC.lean ====
/-
  The third layer's class branch read as one function of the buffers the layer starts from: the fold of the layer's host
  operations, at the buffer holding the layer's class output, is the layer normalisation of the
  linear map of the incoming class features, with the layer's slices of the stacked parameters.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

set_option maxRecDepth 16384 in
set_option maxHeartbeats 4000000 in
theorem l2_PC (W : Valuation τ sig (Elt Ideal)) :
    (L2 W (Proc.devRef .tc main_v384) : FVec Ideal S10000x128 .f32)
      = (hostLN_PC (hostLinPC (W (Proc.devRef .tc main_v257)) (slL_2 (W (Proc.devRef .tc main_arg9))) (sl2_2 (W (Proc.devRef .tc main_arg10)))) (sl2_2 (W (Proc.devRef .tc main_arg11))) (sl2_2 (W (Proc.devRef .tc main_arg12)))) := by
  simp (disch := decide) only [L2, pA2, pB2, pC2, pD2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceCat.lean ====
/-
  The last host operation read as a function of the buffers before it: the result buffer holds the class rows on top of
  the node rows.
-/
import proofs.«178392_j50105088475140_1_alg».proof.Proof.RefPieceDefs
import proofs.«178392_j50105088475140_1_alg».proof.Proof.HostDefs

noncomputable section

namespace Cert.ReferenceIdeal.HG.Pieces

open Idealize.ShloMosaic Idealize.ShloMosaic.TcCoe Idealize.SL.Sem Idealize.ShloMosaic.StableHlo
open Cert.ReferenceIdeal Cert.ReferenceIdeal.Gen Cert.ReferenceIdeal.ValueP Cert.HG

theorem pF_read (W : Valuation τ sig (Elt Ideal)) :
    (after (pF (F := Ideal)) W (Proc.devRef .tc main_v385) : FVec Ideal S110000x128 .f32)
      = cat (W (Proc.devRef .tc main_v384)) (W (Proc.devRef .tc main_v356)) := by
  simp (disch := decide) only [pF, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.ReferenceIdeal.HG.Pieces

end
-- ==== Proof.RefPieceAll.lean ====
/-
  The readings of the reference's host operations gathered in one place: each layer's node and class outputs as the
  named whole-array functions of the buffers the layer starts from, the argument buffers each layer leaves as they
  were, and the final concatenation.
-/
import proofs.«178392_j50105088475140_1_alg».proof.Proof.RefPieceDefs
import proofs.«178392_j50105088475140_1_alg».proof.Proof.RefPieceL0H
import proofs.«178392_j50105088475140_1_alg».proof.Proof.RefPieceL0PC
import proofs.«178392_j50105088475140_1_alg».proof.Proof.RefPieceL0Args
import proofs.«178392_j50105088475140_1_alg».proof.Proof.RefPieceL1H
import proofs.«178392_j50105088475140_1_alg».proof.Proof.RefPieceL1PC
import proofs.«178392_j50105088475140_1_alg».proof.Proof.RefPieceL1Args
import proofs.«178392_j50105088475140_1_alg».proof.Proof.RefPieceL2H
import proofs.«178392_j50105088475140_1_alg».proof.Proof.RefPieceL2PC
import proofs.«178392_j50105088475140_1_alg».proof.Proof.RefPieceCat
-- ==== Proof.RefValue.lean ====
/-
  The reference's result as a function of its arguments: the fold of its 460 host operations over the launch
  memory, read at the result buffer, is the class rows on top of the node rows after three layers.  The fold is read
  layer by layer: within a layer the pre-activations, the normalisation and the clipping are read as the named
  whole-array functions of the buffers the stretch starts from, and no later stretch writes a buffer an earlier one
  produced.
-/
import proofs.«178392_j50105088475140_1_alg».proof.Proof.RefOps
import proofs.«178392_j50105088475140_1_alg».proof.Proof.HostDefs
import proofs.«178392_j50105088475140_1_alg».proof.Proof.RefPieceAll

noncomputable section

namespace Cert.ReferenceIdeal.HG

open Idealize.ShloMosaic Idealize.ShloMosaic.TcCoe Idealize.SL.Sem Idealize.ShloMosaic.StableHlo
open Cert.ReferenceIdeal Cert.ReferenceIdeal.Gen

namespace Pieces

open Cert.ReferenceIdeal.ValueP Cert.HG

/-- From any buffer contents: the fold at the result buffer is the reference's result of the contents of the thirteen
    argument buffers. Each layer's outputs are the layer's functions of the previous layer's outputs and of the
    arguments, which no layer writes. -/
theorem after_ops_value (V : Valuation τ sig (Elt Ideal)) :
    (after (ops (F := Ideal)) V (Proc.devRef .tc main_v385) : FVec Ideal S110000x128 .f32)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have hH1 : (L0 V (Proc.devRef .tc main_v127) : FVec Ideal S100000x128 .f32) = refH1 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) := l0_H V
  have hPC1 : (L0 V (Proc.devRef .tc main_v128) : FVec Ideal S10000x128 .f32) = refPC1 (V (Proc.devRef .tc main_arg1)) (V (Proc.devRef .tc main_arg9)) (V (Proc.devRef .tc main_arg10)) (V (Proc.devRef .tc main_arg11)) (V (Proc.devRef .tc main_arg12)) := l0_PC V
  have hH2 : (L1 (L0 V) (Proc.devRef .tc main_v256) : FVec Ideal S100000x128 .f32) = refH2 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) := by
    rw [l1_H, hH1, l0_arg2, l0_arg3, l0_arg4, l0_arg5, l0_arg6, l0_arg7, l0_arg8, l0_arg11, l0_arg12]
    rfl
  have hPC2 : (L1 (L0 V) (Proc.devRef .tc main_v257) : FVec Ideal S10000x128 .f32) = refPC2 (V (Proc.devRef .tc main_arg1)) (V (Proc.devRef .tc main_arg9)) (V (Proc.devRef .tc main_arg10)) (V (Proc.devRef .tc main_arg11)) (V (Proc.devRef .tc main_arg12)) := by
    rw [l1_PC, hPC1, l0_arg9, l0_arg10, l0_arg11, l0_arg12]
    rfl
  have hH3 : (L2 (L1 (L0 V)) (Proc.devRef .tc main_v356) : FVec Ideal S100000x128 .f32) = refH3 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) := by
    rw [l2_H, hH2, l1_arg2, l1_arg3, l1_arg4, l1_arg5, l1_arg6, l1_arg7, l1_arg8, l1_arg11, l1_arg12, l0_arg2, l0_arg3, l0_arg4, l0_arg5, l0_arg6, l0_arg7, l0_arg8, l0_arg11, l0_arg12]
    rfl
  have hPC3 : (L2 (L1 (L0 V)) (Proc.devRef .tc main_v384) : FVec Ideal S10000x128 .f32) = refPC3 (V (Proc.devRef .tc main_arg1)) (V (Proc.devRef .tc main_arg9)) (V (Proc.devRef .tc main_arg10)) (V (Proc.devRef .tc main_arg11)) (V (Proc.devRef .tc main_arg12)) := by
    rw [l2_PC, hPC2, l1_arg9, l1_arg10, l1_arg11, l1_arg12, l0_arg9, l0_arg10, l0_arg11, l0_arg12]
    rfl
  rw [after_ops, pF_read, hH3, hPC3]
  rfl

end Pieces

theorem ref_value (m : (ℓ : Loc nD τ sig) → Buf (Elt Ideal) ℓ) (c : Dev nD) :
    (StableHlo.after (Cert.ReferenceIdeal.ValueP.ops (F := Ideal)) (launchContents m c) (Proc.devRef .tc main_v385) : FVec Ideal S110000x128 .f32)
      = Cert.HG.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  Pieces.after_ops_value (launchContents m c)

end Cert.ReferenceIdeal.HG

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.LibAxisReduce.lean ====
/-
  Reductions over one axis of a matrix, read at an index written by coordinates, for any extents:

  * the vector unit's sum over the rows of each column, and over the columns of each row, as a sum
    over that axis's coordinates;
  * the host's maximum and the host's sum over the columns of each row, as the fold of max from the
    starting value, and the starting value plus the sum, over that row's entries;
  * a maximum against the starting value of such a fold changes nothing.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibAxisReduce

open Idealize.ShloMosaic Idealize.ShloMosaic.ValueIdx

/-- Column q of a matrix with row k put back is (k, q). -/
theorem lift_rows {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the rows of each column, at column q: the sum of that column's entries. -/
theorem colSum_apply {a b : Nat} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ k : Fin a, src (ix2 k q) := by
  rw [Ideal.multiReduction_add_single]
  have hf : (fun k => src (h.lift (ix1 q) k)) = fun k : Fin a => src (ix2 k q) :=
    funext fun k => congrArg src (lift_rows h q k)
  exact congrArg (fun f => ∑ k : Fin a, f k) hf

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The host's maximum over the columns of each row of a matrix, at row p: the fold of max from the
    starting value over the entries (p, ·). -/
theorem hostRowMax_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduce FloatOps.maximumf x init h' hu (ix1 p)
      = (Finset.univ : Finset (Fin b)).fold max (init ix0) (fun k => x (ix2 p k)) := by
  rw [Host.reduce_eq_fold_single FloatOps.maximumf x init h' h hu]
  have hi : init (Shape.Idx.first hu) = init ix0 := congrArg init (eq_ix0 _)
  have hf : (x ∘ h.lift (ix1 p)) = fun k : Fin b => x (ix2 p k) :=
    funext fun k => congrArg x (lift_cols h p k)
  rw [hi]
  exact congrArg (fun f => Finset.fold max (init ix0) f (Finset.univ : Finset (Fin b))) hf

/-- The host's sum over the columns of each row of a matrix, at row p: the starting value plus the sum of
    the entries (p, ·). -/
theorem hostRowSum_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduceAdd x init h' hu (ix1 p) = init ix0 + ∑ k : Fin b, x (ix2 p k) := by
  unfold Host.reduceAdd
  rw [Ideal.hostReduceAdd_def, Ideal.hostReduceAdd_single h' h]
  have hi : init (Shape.Idx.first hu) = init ix0 := congrArg init (eq_ix0 _)
  have hf : (fun k => x (h.lift (ix1 p) k)) = fun k : Fin b => x (ix2 p k) :=
    funext fun k => congrArg x (lift_cols h p k)
  rw [hi]
  exact congrArg (fun f => init ix0 + ∑ k : Fin b, f k) hf

/-- A fold of max is at least its starting value, so a further maximum against that value changes nothing. -/
theorem max_start_fold {ι : Type} (s : Finset ι) (b : EReal) (f : ι → EReal) :
    max b (s.fold max b f) = s.fold max b f :=
  max_eq_right (Finset.le_fold_max (b := b) (f := f) (s := s) b |>.mpr (Or.inl le_rfl))

end Cert.LibAxisReduce

end
-- ==== Proof.HostSpecOps.lean ====
/-
  The reference's whole-array operations are the row-wise functions of the specification.

  A vector broadcast first to one row and then down the rows is, at (p, q), the vector's entry q; a column
  broadcast across the columns is, at (p, q), the column's entry p; a scalar splat is the scalar everywhere.
  With these, the host's matrix product plus a twice-broadcast bias is the affine map on every row; its sum over
  axis 1 from the zero word, divided by the splat of 128, is the row mean; the entries minus the broadcast means are
  the centred entries; the sum of their squares divided by 128 is the row variance; and so its layer normalisation
      (v - mean) * rsqrt (var + ε) * g + β
  is `ln`, entry by entry.  Its maximum with a broadcast zero is `relu`.  Everything is stated once for any number
  of rows and read at the node matrix (100000 rows) and at the class matrix (10000 rows).
-/
import proofs.«178392_j50105088475140_1_alg».proof.Proof.HostDefs
import proofs.«178392_j50105088475140_1_alg».proof.Proof.SpecLaws
import proofs.«178392_j50105088475140_1_alg».proof.Proof.LibHostLayout
import proofs.«178392_j50105088475140_1_alg».proof.Proof.LibAxisReduce

noncomputable section

open scoped BigOperators

namespace Cert.HG

open Idealize.ShloMosaic Idealize.ShloMosaic.ValueIdx Cert.LibMatmul Cert.LibMlp Cert.LibReal
open Cert.ReferenceIdeal Cert.ReferenceIdeal.Facts₀ Cert.ReferenceIdeal.Facts

namespace HostSpecAux

open Cert.LibHostLayout Cert.LibAxisReduce

/-- A vector broadcast to every row in the host's two steps: entry (p, q) is the vector's entry q. -/
theorem rows_eq {a b : Nat} (x : (⟨1, ![b]⟩ : Shape).Idx → EReal)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ (![0, 1] : Fin 2 → Fin 2) h2 (broadcastInDim ⟨2, ![1, b]⟩ (![1] : Fin 1 → Fin 2) h1 x)
      = fun i => x (ix1 (i 1)) := by
  rw [rowAll_eq, vecRow_eq]
  rfl

theorem rowsH_eq (b : AV) : rowsH b = fun i => b (ix1 (i 1)) := rows_eq b _ _
theorem rowsPC_eq (b : AV) : rowsPC b = fun i => b (ix1 (i 1)) := rows_eq b _ _

/-! ### Layer normalisation by row sums, for any number of rows -/
section LN
variable {R : Nat}
  (hr : (⟨2, ![R, 128]⟩ : Shape).ReducesTo [1] (⟨1, ![R]⟩ : Shape))
  (hu : 0 < (⟨0, ![]⟩ : Shape).numel)
  (hc : (⟨1, ![R]⟩ : Shape).BroadcastsInDim ⟨2, ![R, 1]⟩ (![0] : Fin 1 → Fin 2))
  (hs : (⟨0, ![]⟩ : Shape).BroadcastsInDim ⟨2, ![R, 1]⟩ (![] : Fin 0 → Fin 2))
  (ha : (⟨2, ![R, 1]⟩ : Shape).BroadcastsInDim ⟨2, ![R, 128]⟩ (![0, 1] : Fin 2 → Fin 2))

include hr in
theorem reduces_of_reducesTo : (⟨2, ![R, 128]⟩ : Shape).Reduces [1] (⟨1, ![R]⟩ : Shape) := by
  obtain ⟨h1, h2⟩ := hr
  exact ⟨h1, Nat.one_pos, h2⟩

/-- The host's sum over axis 1 from the zero word, divided by the splat of 128: the row sum over 128. -/
theorem sumDiv_eq (v : FVec Ideal ⟨2, ![R, 128]⟩ .f32) :
    Host.divf (F := Ideal)
      (broadcastInDim ⟨2, ![R, 1]⟩ (![0] : Fin 1 → Fin 2) hc
        (Host.reduceAdd (F := Ideal) v (constant (F := Ideal) ⟨0, ![]⟩ .f32 0x00000000#32) hr hu))
      (broadcastInDim ⟨2, ![R, 1]⟩ (![] : Fin 0 → Fin 2) hs (constant (F := Ideal) ⟨0, ![]⟩ .f32 0x43000000#32))
      = fun i => Ideal.div (∑ k : Fin 128, v (ix2 (i 0) k)) C128 := by
  rw [vecCol_eq, splat_eq]
  funext i
  show Ideal.div (Host.reduceAdd (F := Ideal) v (constant (F := Ideal) ⟨0, ![]⟩ .f32 0x00000000#32) hr hu (ix1 (i 0))) C128 = _
  rw [hostRowSum_apply v _ hr (reduces_of_reducesTo hr) hu (i 0)]
  show Ideal.div (Ideal.ofBits .f32 0x00000000#32 + ∑ k : Fin 128, v (ix2 (i 0) k)) C128 = _
  rw [Consts.ofBits_zero, zero_add]

/-- The entries minus the broadcast row means. -/
theorem cen_eq (v : FVec Ideal ⟨2, ![R, 128]⟩ .f32) (m : FVec Ideal ⟨2, ![R, 1]⟩ .f32)
    (hm : m = fun i => rowMean v (i 0)) :
    subf v (broadcastInDim ⟨2, ![R, 128]⟩ (![0, 1] : Fin 2 → Fin 2) ha m) = centred v := by
  rw [colAll_eq, hm]
  rfl

/-- The whole normalisation, from the centred entries and the row variances. -/
theorem ln_eq (v : FVec Ideal ⟨2, ![R, 128]⟩ .f32) (g β : AV) (c : FVec Ideal ⟨2, ![R, 128]⟩ .f32)
    (w : FVec Ideal ⟨2, ![R, 1]⟩ .f32) (G B : FVec Ideal ⟨2, ![R, 128]⟩ .f32)
    (hcen : c = centred v) (hw : w = fun i => rowVar v (i 0))
    (hG : G = fun i => g (ix1 (i 1))) (hB : B = fun i => β (ix1 (i 1))) :
    addf (mulf (mulf c
        (broadcastInDim ⟨2, ![R, 128]⟩ (![0, 1] : Fin 2 → Fin 2) ha
          (Host.rsqrt (F := Ideal) (addf w
            (broadcastInDim ⟨2, ![R, 1]⟩ (![] : Fin 0 → Fin 2) hs (constant (F := Ideal) ⟨0, ![]⟩ .f32 0x3727C5AC#32))))))
      G) B = ln v g β := by
  rw [colAll_eq, splat_eq, hcen, hw, hG, hB]
  rfl

end LN

end HostSpecAux

open HostSpecAux

/-! ## The host's operations are the specification's -/

/-- The host's product of the node matrix with a square matrix is the matrix product. -/
theorem HostSpecAux.dotH_eq (x : AH) (w : AM) :
    Host.dotGeneral (F := Ideal) dot_S100000x128_S128x128_S100000x128_1_0_0_1_n_n none x w = MM x w :=
  dotGeneral_eq dot_S100000x128_S128x128_S100000x128_1_0_0_1_n_n rfl rfl rfl rfl rfl rfl none _ x w

theorem hostHc_eq (h m0 m1 : AH) (ws0 ws1 wn0 wn1 : AM) (b0 b1 : AV) :
    hostHc h m0 m1 ws0 ws1 wn0 wn1 b0 b1 = hcR h m0 m1 ws0 ws1 wn0 wn1 b0 b1 := by
  unfold hostHc
  rw [rowsH_eq, rowsH_eq, dotH_eq, dotH_eq, dotH_eq, dotH_eq]
  rfl

theorem hostLinPC_eq (pc : APC) (w : AM) (b : AV) : hostLinPC pc w b = lin pc w b :=
  host_lin dot_S10000x128_S128x128_S10000x128_1_0_0_1_n_n rfl rfl rfl rfl rfl rfl pc w b
    bcast_S128_S1x128_1 bcast_S1x128_S10000x128_0_1

theorem HostSpecAux.hostMeanH_eq (v : AH) : hostMeanH v = fun i => rowMean v (i 0) :=
  sumDiv_eq reducesTo_S100000x128_S100000_d1 h_S_ bcast_S100000_S100000x1_0 bcast_S_S100000x1 v

theorem HostSpecAux.hostCenH_eq (v : AH) : hostCenH v = centred v :=
  cen_eq bcast_S100000x1_S100000x128_0_1 v _ (hostMeanH_eq v)

theorem HostSpecAux.hostVarH_eq (v : AH) : hostVarH v = fun i => rowVar v (i 0) := by
  unfold hostVarH
  rw [sumDiv_eq reducesTo_S100000x128_S100000_d1 h_S_ bcast_S100000_S100000x1_0 bcast_S_S100000x1, hostCenH_eq]
  rfl

theorem hostLN_H_eq (v : AH) (g β : AV) : hostLN_H v g β = ln v g β :=
  ln_eq bcast_S_S100000x1 bcast_S100000x1_S100000x128_0_1 v g β _ _ _ _
    (hostCenH_eq v) (hostVarH_eq v) (rowsH_eq g) (rowsH_eq β)

theorem HostSpecAux.hostMeanPC_eq (v : APC) : hostMeanPC v = fun i => rowMean v (i 0) :=
  sumDiv_eq reducesTo_S10000x128_S10000_d1 h_S_ bcast_S10000_S10000x1_0 bcast_S_S10000x1 v

theorem HostSpecAux.hostCenPC_eq (v : APC) : hostCenPC v = centred v :=
  cen_eq bcast_S10000x1_S10000x128_0_1 v _ (hostMeanPC_eq v)

theorem HostSpecAux.hostVarPC_eq (v : APC) : hostVarPC v = fun i => rowVar v (i 0) := by
  unfold hostVarPC
  rw [sumDiv_eq reducesTo_S10000x128_S10000_d1 h_S_ bcast_S10000_S10000x1_0 bcast_S_S10000x1, hostCenPC_eq]
  rfl

theorem hostLN_PC_eq (v : APC) (g β : AV) : hostLN_PC v g β = ln v g β :=
  ln_eq bcast_S_S10000x1 bcast_S10000x1_S10000x128_0_1 v g β _ _ _ _
    (hostCenPC_eq v) (hostVarPC_eq v) (rowsPC_eq g) (rowsPC_eq β)

theorem hostReluH_eq (v : AH) : hostReluH v = relu v := host_relu v bcast_S_S100000x128

theorem hostReluPC_eq (v : APC) : hostReluPC v = relu v := host_relu v bcast_S_S10000x128

end Cert.HG

end
-- ==== Proof.HostSpecReal.lean ====
/-
  Operations that only move or add up entries keep real arrays real.

  Every entry of a slice, of a reshape, of a broadcast and of a gather of an array is an entry of that array, so
  these keep an array real; hence each layer's slice of a stacked parameter is real.  A scatter-add leaves each entry
  as the operand's entry plus a finite sum of update entries, so it keeps real operands and updates real.  The mean
  aggregation divides, entry by entry, the scatter-added gathered rows by the in-degree clipped below at one: the
  in-degree is the zero word (which denotes 0) plus a finite sum of the word 0x3F800000 (which denotes 1), a
  nonnegative real, so its maximum with 1 is a real at least 1, in particular nonzero, and the quotient of a real by
  it is real.
-/
import proofs.«178392_j50105088475140_1_alg».proof.Proof.HostDefs
import proofs.«178392_j50105088475140_1_alg».proof.Proof.SpecLaws

noncomputable section

open scoped BigOperators

namespace Cert.HG

open Idealize.ShloMosaic Idealize.ShloMosaic.ValueIdx Cert.LibMatmul Cert.LibMlp Cert.LibReal
open Cert.ReferenceIdeal Cert.ReferenceIdeal.Facts₀ Cert.ReferenceIdeal.Facts

namespace HostSpecAux

/-- The word 0x3F800000 denotes 1. -/
theorem ofBits_one : Ideal.ofBits .f32 0x3F800000#32 = ((1 : ℝ) : EReal) := by
  simp [Ideal.ofBits, Ideal.ieee, -EReal.coe_mul]; norm_num

/-! ### Operations that read entries of their operand -/

theorem allR_shapeCast {s t : Shape} (x : s.Idx → EReal) (h : s.ShapeCasts t) (hx : AllR x) :
    AllR (shapeCast t x h) := fun _ => hx _

theorem allR_slice {s t : Shape} (off : Fin s.rank → Nat) (x : s.Idx → EReal) (h : s.Slices off t) (hx : AllR x) :
    AllR (extractStridedSlice t off x h) := fun _ => hx _

theorem allR_bcast {s t : Shape} (dims : Fin s.rank → Fin t.rank) (h : s.BroadcastsInDim t dims) (x : s.Idx → EReal)
    (hx : AllR x) : AllR (broadcastInDim t dims h x) := fun _ => hx _

theorem allR_gather {s si t : Shape} {w : Nat} (d : GatherDims s si t) (x : s.Idx → EReal) (idx : IVec si w)
    (hx : AllR x) : AllR (Host.gather d x idx) := fun _ => hx _

/-- The zero word everywhere is a real array. -/
theorem allR_zero (s : Shape) : AllR (constant (F := Ideal) s .f32 0x00000000#32) :=
  fun _ => ⟨0, Consts.ofBits_zero.trans EReal.coe_zero.symm⟩

/-! ### A scatter-add -/

/-- Each entry of a scatter-add is the operand's entry plus a finite sum of update entries. -/
theorem allR_scatterAdd {s si su : Shape} {w : Nat} (d : ScatterDims s si su) (x : FVec Ideal s .f32)
    (idx : IVec si w) (upd : FVec Ideal su .f32) (hx : AllR x) (hu : AllR upd) :
    AllR (Host.scatterAdd (F := Ideal) d x idx upd) := by
  intro i
  show IsR (x i + ∑ j ∈ Finset.univ.filter (fun j => d.resultIdx? j idx = some i), upd j)
  exact (hx i).add (IsR.sum _ _ fun j _ => hu j)

/-- Every entry is a real number at least one. -/
def GeOne {ι : Type} (y : ι → EReal) : Prop := ∀ i, ∃ r : ℝ, 1 ≤ r ∧ y i = (r : EReal)

theorem geOne_bcast {s t : Shape} (dims : Fin s.rank → Fin t.rank) (h : s.BroadcastsInDim t dims) (x : s.Idx → EReal)
    (hx : GeOne x) : GeOne (broadcastInDim t dims h x) := fun _ => hx _

/-- A count of updates (zeros scatter-added with ones), clipped below at one, is a real at least one. -/
theorem geOne_count {s si su : Shape} {w : Nat} (d : ScatterDims s si su) (idx : IVec si w)
    (x : FVec Ideal s .f32) (upd : FVec Ideal su .f32) (one : FVec Ideal s .f32)
    (hx : ∀ i, x i = 0) (hu : ∀ j, upd j = ((1 : ℝ) : EReal)) (ho : ∀ i, one i = ((1 : ℝ) : EReal)) :
    GeOne (maximumf (Host.scatterAdd (F := Ideal) d x idx upd) one) := by
  intro i
  show ∃ r : ℝ, 1 ≤ r ∧
    max (x i + ∑ j ∈ Finset.univ.filter (fun j => d.resultIdx? j idx = some i), upd j) (one i) = (r : EReal)
  obtain ⟨r, hr, e⟩ := sum_ones (Finset.univ.filter (fun j => d.resultIdx? j idx = some i))
  rw [hx i, zero_add, Finset.sum_congr rfl (fun j _ => hu j), e, ho i]
  refine ⟨max r 1, le_max_right _ _, ?_⟩
  exact (EReal.coe_strictMono.monotone.map_max (a := r) (b := 1)).symm

/-- The quotient of a real array by an array of reals at least one is real. -/
theorem allR_divf {s : Shape} (x y : FVec Ideal s .f32) (hx : AllR x) (hy : GeOne y) :
    AllR (Host.divf (F := Ideal) x y) := by
  intro i
  obtain ⟨r, hr, e⟩ := hy i
  show IsR (Ideal.div (x i) (y i))
  rw [e]
  exact (hx i).div (by linarith)

end HostSpecAux

open HostSpecAux

/-! ## Slices and the aggregation keep real arrays real -/

theorem allR_sl4_00 (W : AW4) (h : AllR W) : AllR (sl4_00 W) := allR_shapeCast _ _ (allR_slice _ _ _ h)
theorem allR_sl3_00 (B : AB3) (h : AllR B) : AllR (sl3_00 B) := allR_shapeCast _ _ (allR_slice _ _ _ h)
theorem allR_sl4_01 (W : AW4) (h : AllR W) : AllR (sl4_01 W) := allR_shapeCast _ _ (allR_slice _ _ _ h)
theorem allR_sl3_01 (B : AB3) (h : AllR B) : AllR (sl3_01 B) := allR_shapeCast _ _ (allR_slice _ _ _ h)
theorem allR_sl4_10 (W : AW4) (h : AllR W) : AllR (sl4_10 W) := allR_shapeCast _ _ (allR_slice _ _ _ h)
theorem allR_sl3_10 (B : AB3) (h : AllR B) : AllR (sl3_10 B) := allR_shapeCast _ _ (allR_slice _ _ _ h)
theorem allR_sl4_11 (W : AW4) (h : AllR W) : AllR (sl4_11 W) := allR_shapeCast _ _ (allR_slice _ _ _ h)
theorem allR_sl3_11 (B : AB3) (h : AllR B) : AllR (sl3_11 B) := allR_shapeCast _ _ (allR_slice _ _ _ h)
theorem allR_sl4_20 (W : AW4) (h : AllR W) : AllR (sl4_20 W) := allR_shapeCast _ _ (allR_slice _ _ _ h)
theorem allR_sl3_20 (B : AB3) (h : AllR B) : AllR (sl3_20 B) := allR_shapeCast _ _ (allR_slice _ _ _ h)
theorem allR_sl4_21 (W : AW4) (h : AllR W) : AllR (sl4_21 W) := allR_shapeCast _ _ (allR_slice _ _ _ h)
theorem allR_sl3_21 (B : AB3) (h : AllR B) : AllR (sl3_21 B) := allR_shapeCast _ _ (allR_slice _ _ _ h)
theorem allR_slL_0 (W : AL3) (h : AllR W) : AllR (slL_0 W) := allR_shapeCast _ _ (allR_slice _ _ _ h)
theorem allR_sl2_0 (G : AV2) (h : AllR G) : AllR (sl2_0 G) := allR_shapeCast _ _ (allR_slice _ _ _ h)
theorem allR_slL_1 (W : AL3) (h : AllR W) : AllR (slL_1 W) := allR_shapeCast _ _ (allR_slice _ _ _ h)
theorem allR_sl2_1 (G : AV2) (h : AllR G) : AllR (sl2_1 G) := allR_shapeCast _ _ (allR_slice _ _ _ h)
theorem allR_slL_2 (W : AL3) (h : AllR W) : AllR (slL_2 W) := allR_shapeCast _ _ (allR_slice _ _ _ h)
theorem allR_sl2_2 (G : AV2) (h : AllR G) : AllR (sl2_2 G) := allR_shapeCast _ _ (allR_slice _ _ _ h)

/-- The sum over the edges of the gathered source rows is real. -/
theorem HostSpecAux.allR_msgSum (h : AH) (src dst : AI) (hh : AllR h) : AllR (msgSum h src dst) :=
  allR_scatterAdd _ _ _ _ (allR_bcast _ _ _ (allR_zero _)) (allR_gather _ _ _ hh)

/-- The clipped in-degree is a real at least one at every node. -/
theorem HostSpecAux.geOne_degCol (dst : AI) : GeOne (degCol dst) :=
  geOne_bcast _ _ _ (geOne_count _ _ _ _ _ (fun _ => Consts.ofBits_zero) (fun _ => ofBits_one) (fun _ => ofBits_one))

/-- The mean aggregation of real features is real, whatever the edge lists. -/
theorem allR_meanAgg (h : AH) (src dst : AI) (hh : AllR h) : AllR (meanAgg h src dst) :=
  allR_divf _ _ (allR_msgSum h src dst hh) (geOne_bcast _ _ _ (geOne_degCol dst))

end Cert.HG

end
-- ==== Proof.HostSpec.lean ====
/-
  The reference's whole-array operations are the row-wise functions of the specification: a matrix product with a
  twice-broadcast bias is the affine map on every row; the host's row sums divided by 128 are the row means, the
  squared deviations summed and divided by 128 the variances, so its layer normalisation is `ln`; its maximum with
  a broadcast zero is `relu`.  And the operations that only move or add up entries keep real arrays real: a slice of
  a stacked parameter, and the mean aggregation (every entry of the gathered rows is an entry of the features; a
  scatter-add leaves each entry as a finite sum of entries; the degree is at least one, so the quotient is real).
-/
import proofs.«178392_j50105088475140_1_alg».proof.Proof.HostSpecOps
import proofs.«178392_j50105088475140_1_alg».proof.Proof.HostSpecReal

/-!
  The statements are proved in two modules, both in the namespace `Cert.HG`:

  * the host's operations are the specification's (`hostHc_eq`, `hostLinPC_eq`, `hostLN_H_eq`, `hostLN_PC_eq`,
    `hostReluH_eq`, `hostReluPC_eq`): the first module imported above;
  * slices and the aggregation keep real arrays real (`allR_sl4_00` … `allR_sl2_2`, `allR_meanAgg`): the second.
-/
-- ==== Proof.Bridge.lean ====
/-
  The two programs compute the same result on real arguments.

  Node branch, one layer: the kernel program normalises the rows of h·(Ws0 + Ws1) + m0·Wn0 + m1·Wn1 + (b0 + b1), the
  reference those of (h·Ws0 + m0·Wn0 + b0) + (h·Ws1 + m1·Wn1 + b1), where m0, m1 are the two relations' mean
  aggregations of h.  For real h and real self weights the pre-activations agree (the product distributes over the sum
  of the two self weights), hence so do the normalised rows and their maxima with zero.  The layer's output is again
  real — the aggregation of real features is real, the normalisation takes the inverse square root of a positive
  real —, so the argument repeats for the next layer with the previous layer's common output as h.
  Class branch: both programs normalise the rows of pc·W + b; nothing needs to be real.
  The results are the class rows on top of the node rows.
-/
import proofs.«178392_j50105088475140_1_alg».proof.Proof.HostSpec

noncomputable section

namespace Cert.HG

open Idealize.ShloMosaic Cert.LibMatmul Cert.LibMlp Cert.LibReal

/-! ## One layer -/

/-- One node layer before the clipping: the kernel program's arrangement is the reference's. -/
theorem nodeLayer (h m0 m1 : AH) (ws0 ws1 wn0 wn1 : AM) (b0 b1 g β : AV) (hh : AllR h) (h0 : AllR ws0) (h1 : AllR ws1) :
    ln (hcK h m0 m1 (vadd ws0 ws1) wn0 wn1 (vadd b0 b1)) g β = hostLN_H (hostHc h m0 m1 ws0 ws1 wn0 wn1 b0 b1) g β := by
  rw [hostLN_H_eq, hostHc_eq, hc_law h m0 m1 ws0 ws1 wn0 wn1 b0 b1 hh h0 h1]

/-- One node layer of real data is real. -/
theorem nodeLayer_real (h m0 m1 : AH) (ws0 ws1 wn0 wn1 : AM) (b0 b1 g β : AV) (hh : AllR h) (hm0 : AllR m0) (hm1 : AllR m1)
    (h0 : AllR ws0) (h1 : AllR ws1) (hn0 : AllR wn0) (hn1 : AllR wn1) (hb0 : AllR b0) (hb1 : AllR b1) (hg : AllR g) (hβ : AllR β) :
    AllR (hostLN_H (hostHc h m0 m1 ws0 ws1 wn0 wn1 b0 b1) g β) := by
  rw [hostLN_H_eq, hostHc_eq]
  exact allR_ln _ _ _ (allR_hcR h m0 m1 ws0 ws1 wn0 wn1 b0 b1 hh hm0 hm1 h0 h1 hn0 hn1 hb0 hb1) hg hβ

/-- One class layer before the clipping. -/
theorem classLayer (pc : APC) (w : AM) (b g β : AV) : ln (lin pc w b) g β = hostLN_PC (hostLinPC pc w b) g β := by
  rw [hostLN_PC_eq, hostLinPC_eq]

/-! ## The three layers -/

section Programs
variable (x : AH) (y : APC) (s0 d0 s1 d1 : AI) (x6 x7 : AW4) (x8 : AB3) (x9 : AL3) (x10 x11 x12 : AV2)
variable (hx : AllR x) (h6 : AllR x6) (h7 : AllR x7) (h8 : AllR x8) (h11 : AllR x11) (h12 : AllR x12)

include hx h6 in
theorem H1_eq : kerH1 x s0 d0 s1 d1 x6 x7 x8 x11 x12 = refH1 x s0 d0 s1 d1 x6 x7 x8 x11 x12 := by
  unfold kerH1 refH1
  rw [hostReluH_eq, nodeLayer x _ _ _ _ _ _ _ _ _ _ hx (allR_sl4_00 x6 h6) (allR_sl4_01 x6 h6)]

include hx h6 h7 h8 h11 h12 in
theorem H1_real : AllR (refH1 x s0 d0 s1 d1 x6 x7 x8 x11 x12) := by
  unfold refH1
  rw [hostReluH_eq]
  exact allR_relu _ (nodeLayer_real x _ _ _ _ _ _ _ _ _ _ hx (allR_meanAgg x s0 d0 hx) (allR_meanAgg x s1 d1 hx)
    (allR_sl4_00 x6 h6) (allR_sl4_01 x6 h6) (allR_sl4_00 x7 h7) (allR_sl4_01 x7 h7) (allR_sl3_00 x8 h8) (allR_sl3_01 x8 h8)
    (allR_sl2_0 x11 h11) (allR_sl2_0 x12 h12))

include hx h6 h7 h8 h11 h12 in
theorem H2_eq : kerH2 x s0 d0 s1 d1 x6 x7 x8 x11 x12 = refH2 x s0 d0 s1 d1 x6 x7 x8 x11 x12 := by
  unfold kerH2 refH2
  rw [H1_eq x s0 d0 s1 d1 x6 x7 x8 x11 x12 hx h6, hostReluH_eq,
    nodeLayer (refH1 x s0 d0 s1 d1 x6 x7 x8 x11 x12) _ _ _ _ _ _ _ _ _ _ (H1_real x s0 d0 s1 d1 x6 x7 x8 x11 x12 hx h6 h7 h8 h11 h12)
      (allR_sl4_10 x6 h6) (allR_sl4_11 x6 h6)]

include hx h6 h7 h8 h11 h12 in
theorem H2_real : AllR (refH2 x s0 d0 s1 d1 x6 x7 x8 x11 x12) := by
  have hr := H1_real x s0 d0 s1 d1 x6 x7 x8 x11 x12 hx h6 h7 h8 h11 h12
  unfold refH2
  rw [hostReluH_eq]
  exact allR_relu _ (nodeLayer_real _ _ _ _ _ _ _ _ _ _ _ hr (allR_meanAgg _ s0 d0 hr) (allR_meanAgg _ s1 d1 hr)
    (allR_sl4_10 x6 h6) (allR_sl4_11 x6 h6) (allR_sl4_10 x7 h7) (allR_sl4_11 x7 h7) (allR_sl3_10 x8 h8) (allR_sl3_11 x8 h8)
    (allR_sl2_1 x11 h11) (allR_sl2_1 x12 h12))

include hx h6 h7 h8 h11 h12 in
theorem H3_eq : kerH3 x s0 d0 s1 d1 x6 x7 x8 x11 x12 = refH3 x s0 d0 s1 d1 x6 x7 x8 x11 x12 := by
  unfold kerH3 refH3
  rw [H2_eq x s0 d0 s1 d1 x6 x7 x8 x11 x12 hx h6 h7 h8 h11 h12,
    nodeLayer (refH2 x s0 d0 s1 d1 x6 x7 x8 x11 x12) _ _ _ _ _ _ _ _ _ _ (H2_real x s0 d0 s1 d1 x6 x7 x8 x11 x12 hx h6 h7 h8 h11 h12)
      (allR_sl4_20 x6 h6) (allR_sl4_21 x6 h6)]

theorem PC1_eq : kerPC1 y x9 x10 x11 x12 = refPC1 y x9 x10 x11 x12 := by
  unfold kerPC1 refPC1
  rw [hostReluPC_eq, classLayer]

theorem PC2_eq : kerPC2 y x9 x10 x11 x12 = refPC2 y x9 x10 x11 x12 := by
  unfold kerPC2 refPC2
  rw [PC1_eq, hostReluPC_eq, classLayer]

theorem PC3_eq : kerPC3 y x9 x10 x11 x12 = refPC3 y x9 x10 x11 x12 := by
  unfold kerPC3 refPC3
  rw [PC2_eq, classLayer]

include hx h6 h7 h8 h11 h12 in
/-- On real arguments the kernel program's result is the reference's. -/
theorem out_eq : kerOut x y s0 d0 s1 d1 x6 x7 x8 x9 x10 x11 x12 = refOut x y s0 d0 s1 d1 x6 x7 x8 x9 x10 x11 x12 := by
  unfold kerOut refOut
  rw [H3_eq x s0 d0 s1 d1 x6 x7 x8 x11 x12 hx h6 h7 h8 h11 h12, PC3_eq]

end Programs

end Cert.HG

end
-- ==== Proof.PreReal.lean ====
/-
  What the precondition gives: every float argument is an array of real numbers.  The precondition is the
  conjunction, over the nine float arguments, of "every entry's absolute value is below +inf"; an extended real
  whose absolute value max(x, -x) is below +inf is neither +inf nor -inf, hence a real.
-/
import proofs.«178392_j50105088475140_1_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal
import proofs.«178392_j50105088475140_1_alg».proof.Proof.LibReal

noncomputable section

namespace Cert.HG.PreReal

open Idealize.ShloMosaic Idealize.ShloMosaic.ValueIdx Cert.Pre_finite_inputs Cert.LibReal

instance : Subsingleton S_.Idx := ⟨fun a b => funext fun d => d.elim0⟩

/-- The word of +inf denotes +inf. -/
theorem ofBits_inf : Ideal.ofBits .f32 0x7F800000#32 = (⊤ : EReal) := by
  simp [Ideal.ofBits, Ideal.ieee]

/-- An extended real with max(x, -x) < +inf is a real. -/
theorem isR_of_abs_lt (x : EReal) (h : max x (-x) < (⊤ : EReal)) : IsR x := by
  induction x using EReal.rec with
  | bot => simp at h
  | coe r => exact ⟨r, rfl⟩
  | top => simp at h

/-- An array all of whose entries have absolute value below +inf (as the precondition spells it) is real. -/
theorem allR_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant (F := Ideal) S_ .f32 0x7F800000#32))) init hr hu ix0 = 1#1) :
    AllR x := by
  intro i
  have hi := Host.reduce_andi_all _ init hr hu ix0 e i
  have hb' : broadcastInDim s ![] hb (constant (F := Ideal) S_ .f32 0x7F800000#32) i = Ideal.ofBits .f32 0x7F800000#32 :=
    broadcastInDim_apply _ hb _ i ix0 fun a => a.elim0
  have h2 : Ideal.cmp .olt (max (x i) (-(x i))) (Ideal.ofBits .f32 0x7F800000#32) = 1#1 := by
    rw [← hb']; exact hi
  rw [ofBits_inf] at h2
  unfold Ideal.cmp at h2
  by_cases hlt : max (x i) (-(x i)) < (⊤ : EReal)
  · exact isR_of_abs_lt _ hlt
  · simp [hlt] at h2

variable [Facts]

/-- The printed precondition, all ones, makes the nine float arguments real arrays. -/
theorem real_of_fn (a0 : FVec Ideal S100000x128 .f32) (a1 : FVec Ideal S10000x128 .f32)
    (a2 a3 a4 a5 : IVec S1000000 32) (a6 a7 : FVec Ideal S3x2x128x128 .f32) (a8 : FVec Ideal S3x2x128 .f32)
    (a9 : FVec Ideal S3x128x128 .f32) (a10 a11 a12 : FVec Ideal S3x128 .f32)
    (h : fn (F := Ideal) a0 a1 a2 a3 a4 a5 a6 a7 a8 a9 a10 a11 a12 = fun _ => 1#1) :
    AllR a0 ∧ AllR a1 ∧ AllR a6 ∧ AllR a7 ∧ AllR a8 ∧ AllR a9 ∧ AllR a10 ∧ AllR a11 ∧ AllR a12 := by
  have h0 := congrFun h ix0
  dsimp only [fn, fn_part1, fn_part2] at h0
  obtain ⟨h38, h42⟩ := IntOp.andi_eq_one.1 h0
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allR_of_all a0 _ _ _ _ h3, allR_of_all a1 _ _ _ _ h7, allR_of_all a6 _ _ _ _ h12, allR_of_all a7 _ _ _ _ h17,
    allR_of_all a8 _ _ _ _ h22, allR_of_all a9 _ _ _ _ h27, allR_of_all a10 _ _ _ _ h32, allR_of_all a11 _ _ _ _ h37,
    allR_of_all a12 _ _ _ _ h42⟩

end Cert.HG.PreReal

end
-- ==== Proof.lean ====
/-
  The certificate's five claims.

  The kernel program is three layers of a graph network: per layer, on the host, the mean of the neighbours'
  features along each of two relations (gather the source rows, add them up per target node, divide by the in-degree
  clipped at one), then one tiled kernel for the node branch — h·(Ws0 + Ws1) + m0·Wn0 + m1·Wn1 + (b0 + b1), each row
  normalised, scaled, shifted and (except in the last layer) clipped below at zero — and one for the class branch —
  pc·W + b, normalised the same way —; the result is the class rows on top of the node rows.  The reference computes
  (h·Ws0 + m0·Wn0 + b0) + (h·Ws1 + m1·Wn1 + b1) instead and everything else alike.

  Frames: both kernel programs' frames are the generated ones; the reference's is its run with the result dropped.
  The idealisation rewrote nothing, so it is preserved trivially.
  Equal results: the kernel program's run ends with the result buffer at the function `kerOut` of the arguments
  (each region's blocks are one row-wise function of the arrays it found, the host stretches the named whole-array
  functions), the reference's at `refOut`; the arguments agree; the precondition makes the float arguments real;
  and on real arguments `kerOut = refOut`: the product distributes over the sum of the two self weights, and every
  layer's output is real again.
-/
import proofs.«178392_j50105088475140_1_alg».proof.Defs
import proofs.«178392_j50105088475140_1_alg».proof.Proof.Gen.Kernel
import proofs.«178392_j50105088475140_1_alg».proof.Proof.Gen.Kernel.Frame
import proofs.«178392_j50105088475140_1_alg».proof.Proof.Gen.KernelIdeal
import proofs.«178392_j50105088475140_1_alg».proof.Proof.Gen.KernelIdeal.Frame
import proofs.«178392_j50105088475140_1_alg».proof.Proof.Gen.ReferenceIdeal
import proofs.«178392_j50105088475140_1_alg».proof.Proof.Gen.Pre_finite_inputs
import proofs.«178392_j50105088475140_1_alg».proof.Proof.KRun
import proofs.«178392_j50105088475140_1_alg».proof.Proof.KValue
import proofs.«178392_j50105088475140_1_alg».proof.Proof.RefRun
import proofs.«178392_j50105088475140_1_alg».proof.Proof.RefValue
import proofs.«178392_j50105088475140_1_alg».proof.Proof.Bridge
import proofs.«178392_j50105088475140_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result buffer at one function of the arguments. -/
theorem algebraic : Cert.algebraic_KernelIdeal_ReferenceIdeal := by
  intro m ρ m' ρ' hpre hagree
  refine ⟨fun c => Cert.HG.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run (Cert.KernelIdeal.defs (F := Ideal)) _ _).mono
      (fun r h c => ⟨(h c).1.trans (Cert.KernelIdeal.HG.W13_value m ρ c), (h c).2⟩) (Cert.KernelIdeal.HG.run_main m ρ)
  · refine (θ_run (Cert.ReferenceIdeal.defs (F := Ideal)) _ _).mono (fun r h c => ⟨(h c).1.trans ?_, (h c).2⟩)
      (Cert.ReferenceIdeal.ValueP.run (F := Ideal) m' ρ')
    obtain ⟨r0, r1, r6, r7, r8, r9, r10, r11, r12⟩ := Cert.HG.PreReal.real_of_fn _ _ _ _ _ _ _ _ _ _ _ _ _ (hpre c)
    rw [Cert.ReferenceIdeal.HG.ref_value m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.HG.out_eq _ _ _ _ _ _ _ _ _ _ _ _ _ r0 r6 r7 r8 r11 r12).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
